-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096 .f32) (main_arg2 : FVec F S4096 .f32) (main_arg3 : FVec F S4096x4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S8192x4096 : Shape := ⟨2, ![8192, 4096]⟩
abbrev S4096 : Shape := ⟨1, ![4096]⟩
abbrev S4096x4096 : Shape := ⟨2, ![4096, 4096]⟩
abbrev S1x4096 : Shape := ⟨2, ![1, 4096]⟩
abbrev S512x4096 : Shape := ⟨2, ![512, 4096]⟩
abbrev S_ : Shape := ⟨0, ![]⟩
abbrev S256x4096 : Shape := ⟨2, ![256, 4096]⟩
abbrev S1024x4096 : Shape := ⟨2, ![1024, 4096]⟩
abbrev S1x1024 : Shape := ⟨2, ![1, 1024]⟩
abbrev S256x1024 : Shape := ⟨2, ![256, 1024]⟩

abbrev nBuf : Space → Nat
  | .hbm => 29
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S_, .f32⟩
  | .hbm, ⟨10, _⟩ => ⟨S1x4096, .f32⟩
  | .hbm, ⟨11, _⟩ => ⟨S1x4096, .f32⟩
  | .hbm, ⟨12, _⟩ => ⟨S_, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S_, .f32⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S4096x4096, .bf16⟩
  | .hbm, ⟨27, _⟩ => ⟨S1x4096, .f32⟩
  | .hbm, ⟨28, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S1024x4096, .bf16⟩
  | .local _ .vmem, ⟨13, _⟩ => ⟨S1024x4096, .bf16⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v25 : BitVec 1 := Scalar.cmpi .eq arg0 c15_i32
  let v26 : BitVec 32 := Scalar.extui v25
  let c0_i32_14 : BitVec 32 := 0#32
  let v27 : BitVec 1 := Scalar.cmpi .ne v26 c0_i32_14
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  broadcasts_S1x4096_S512x4096 : S1x4096.Broadcasts S512x4096
  reduces_S512x4096_S4096 : S512x4096.Reduces [0] S4096
  bcast_S_S1x4096 : S_.BroadcastsInDim S1x4096 (![] : Fin 0 → Fin S1x4096.rank)
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  broadcasts_S1x4096_S256x4096 : S1x4096.Broadcasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x4096.size a ≤ S4096x4096.size a
  hwx1_4 : ∀ i : grid1.Coords, EltTy.bits .bf16 = 32 ∨ (Rect.block (s := S4096x4096) S1024x4096.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x4096.size a
  hwx1_5 : ∀ i : grid1.Coords, EltTy.bits .f32 = 32 ∨ (Rect.block (s := S1x4096) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1024.size a ≤ S8192x4096.size a
  hwx1_6 : ∀ i : grid1.Coords, EltTy.bits .f32 = 32 ∨ (Rect.block (s := S8192x4096) S256x1024.size (cc1_transform_6 i) (hinb1_6 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x4096.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x4096.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1024x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v18) S256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S1x4096, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S1x4096, .f32⟩
  | .hbm, ⟨34, _⟩ => ⟨S8192x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S1x4096, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S1x4096, .f32⟩
  | .hbm, ⟨44, _⟩ => ⟨S8192x4096, .f32⟩
  | .hbm, ⟨45, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  reducesTo_S8192x4096_S4096_d0 : S8192x4096.ReducesTo [0] S4096
  h_S_ : 0 < S_.numel
  bcast_S_S4096 : S_.BroadcastsInDim S4096 (![] : Fin 0 → Fin S4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.K0Shared.lean ====
/-
  The first kernel region (the column statistics), the part every control case of its body shares. The region walks
  the 16 row blocks of the input in order. Its body keeps two running vectors — the column sums and the column sums of
  squares of the clipped, offset block — in two buffers of its own that live across the 16 grid points: it clears them
  at the first point (the test "the point is 0"), adds the block's contribution at every point, and copies them to the two
  result blocks at the last point (the test "the point is 15"). So a point is in one of three cases: first, middle,
  last. Stated here, for the buffer contents `V` the region is entered with: each window's block at a point, the
  two tests in closed form over the grid, where the two result windows are idle (every point but the last), and the
  names of the memrefs the body is called with.
-/
import proofs.«125394_j81389630259917_1_alg».proof.Proof.Gen.KernelIdeal.Launch
import proofs.«125394_j81389630259917_1_alg».proof.Proof.Gen.KernelIdeal.Skeleton
import proofs.«125394_j81389630259917_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The offset vector's window is fetched once, at the first point, and its index never moves: its staging buffer
    holds the (one) block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two tests -/

/-- "The point is the first": the body's first test, from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "The point is the last": the body's second test. -/
abbrev cond0_1 (i : grid0.Coords) : Prop := k0_cond2 i = 1#1
theorem hcond0_1 : ∀ t : Fin cfg0.N, cond0_1 (grid0.coords t) ↔ t.val = 15 :=
  (by decide +kernel : ∀ t : Fin grid0.N, cond0_1 (grid0.coords t) ↔ t.val = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the two result windows are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

/-- One staging buffer of each result window, through which its contents are stated. -/
abbrev VO0_2 : View sig .tc .vmem S1x4096 .f32 := (Memref.whole cc0_stg2_0 : Memref sig .tc .vmem S1x4096 .f32).view
abbrev VO0_3 : View sig .tc .vmem S1x4096 .f32 := (Memref.whole cc0_stg3_0 : Memref sig .tc .vmem S1x4096 .f32).view
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
/-- The two running vectors' buffers: whole scoped buffers of the kernel's own. -/
abbrev scM0_0 : Memref sig .tc .vmem S1x4096 .f32 := Memref.whole cc0_scratch0
abbrev scM0_1 : Memref sig .tc .vmem S1x4096 .f32 := Memref.whole cc0_scratch1
abbrev VS0_0 : View sig .tc .vmem S1x4096 .f32 := scM0_0.view
abbrev VS0_1 : View sig .tc .vmem S1x4096 .f32 := scM0_1.view

/-- Every scoped buffer of the core that is neither a staging buffer of this region nor one of its two running
    vectors (the second region's staging buffers), each at some contents: carried through the region unopened. -/
abbrev others0 (c : Dev nD) : sProp 𝕄 :=
  Pipeline.scopedRestBut (Ix := Unit) (Name := ℕ) (U := UR sig nD τ) (Lvl := ℕ) (Val := Elt F) spec0 c [cc0_scratch0, cc0_scratch1]

/-- The region's entry invariant with the two running vectors' buffers as memrefs owned at some contents. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d)) ∗ others0 (F := F) c) ∗ (∃ r, prngReg c r)) := by
  unfold Pipeline.ΦA
  rw [Pipeline.scopedRest_split_of_list spec0 c [cc0_scratch0, cc0_scratch1] (by decide) (by decide)]
  simp only [scM0_0, scM0_1, owns_whole, bigSepL]
  try rfl

end Region0

end Cert.KernelIdeal.Frame

end
-- ==== Proof.K0RunA.lean ====
/-
  The statistics kernel's body at the FIRST grid point (the test "first" holds, the test "last" does not): it clears the
  two running vectors, then adds the block's column sums and column sums of squares to them; the two result blocks are
  not touched. Run symbolically on whole memrefs: the row block and the offset vector at their contents, the two result
  buffers at contents handed back unchanged, the running vectors' buffers at anything; found by the run: the pieces each
  running vector's buffer ends with (last store first).
-/
import proofs.«125394_j81389630259917_1_alg».proof.Proof.K0Shared

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (hc0 : cond0_0 i) (hc1 : ¬cond0_1 i)
    (x0 : Vec F S512x4096 .f32) (x1 : Vec F S1x4096 .f32) :
    Σ' (LS0 : List (View.Piece (Elt F) S1x4096 .f32)), { LS1 : List (View.Piece (Elt F) S1x4096 .f32) //
      ∀ (xi2 xi3 : Vec F S1x4096 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, fun xi2 xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Frame

end
-- ==== Proof.K0RunB.lean ====
/-
  The statistics kernel's body at a MIDDLE grid point (neither test holds): it adds the block's column sums and column
  sums of squares to the two running vectors, which it finds at what the point before left (`xs0`, `xs1`); the two
  result blocks are not touched.
-/
import proofs.«125394_j81389630259917_1_alg».proof.Proof.K0RunA

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (hc0 : ¬cond0_0 i) (hc1 : ¬cond0_1 i)
    (x0 : Vec F S512x4096 .f32) (x1 : Vec F S1x4096 .f32) (xs0 xs1 : Vec F S1x4096 .f32) :
    Σ' (LS0 : List (View.Piece (Elt F) S1x4096 .f32)), { LS1 : List (View.Piece (Elt F) S1x4096 .f32) //
      ∀ (xi2 xi3 : Vec F S1x4096 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, fun xi2 xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Frame

end
-- ==== Proof.K0RunC.lean ====
/-
  The statistics kernel's body at the LAST grid point (the test "last" holds, the test "first" does not): it adds the
  block's contribution to the two running vectors, found at what the point before left, and then copies each running
  vector to its result block. Found by the run: the pieces each result buffer and each running vector's buffer ends with.
-/
import proofs.«125394_j81389630259917_1_alg».proof.Proof.K0RunB

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (hc0 : ¬cond0_0 i) (hc1 : cond0_1 i)
    (x0 : Vec F S512x4096 .f32) (x1 : Vec F S1x4096 .f32) (xs0 xs1 : Vec F S1x4096 .f32) :
    Σ' (L2 : List (View.Piece (Elt F) S1x4096 .f32)) (L3 : List (View.Piece (Elt F) S1x4096 .f32)) (LS0 : List (View.Piece (Elt F) S1x4096 .f32)), { LS1 : List (View.Piece (Elt F) S1x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Frame

end
-- ==== Proof.K0Frame.lean ====
/-
  The first kernel region (the column statistics) point by point. What the body leaves after grid point `n`, as a
  function of what it found: the two running vectors (column sums, column sums of squares) after the point — cleared and
  given the first block's contribution at point 0, given block `n`'s contribution over what point `n - 1` left
  afterwards — and, at the last point only, the two result blocks, copies of the running vectors. The region's invariant
  between points keeps the running vectors' buffers at exactly those contents; the proof data state each window's
  staging buffer after each point; the body obligation holds at every point, by the three cases of the body's tests.
-/
import proofs.«125394_j81389630259917_1_alg».proof.Proof.K0RunC

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The body's run at a point of each case, on the memrefs the pipeline passes there -/

theorem not_last_of_first (t : Fin cfg0.N) (h0 : t.val = 0) : ¬cond0_1 (grid0.coords t) :=
  fun h => by have := (hcond0_1 t).mp h; omega
theorem not_first_of_ne (t : Fin cfg0.N) (h0 : t.val ≠ 0) : ¬cond0_0 (grid0.coords t) :=
  fun h => h0 ((hcond0_0 t).mp h)
theorem not_last_of_ne (t : Fin cfg0.N) (h1 : t.val ≠ 15) : ¬cond0_1 (grid0.coords t) :=
  fun h => h1 ((hcond0_1 t).mp h)
theorem not_first_of_last (t : Fin cfg0.N) (h1 : t.val = 15) : ¬cond0_0 (grid0.coords t) :=
  fun h => by have := (hcond0_0 t).mp h; omega

/-- The first point's run. -/
abbrev runA (c : Dev nD) (t : Fin cfg0.N) (h0 : t.val = 0) (x0 : Vec F S512x4096 .f32) (x1 : Vec F S1x4096 .f32) :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (not_last_of_first t h0) x0 x1
/-- A middle point's run, over what the point before left in the running vectors. -/
abbrev runB (c : Dev nD) (t : Fin cfg0.N) (h0 : t.val ≠ 0) (h1 : t.val ≠ 15) (x0 : Vec F S512x4096 .f32) (x1 xs0 xs1 : Vec F S1x4096 .f32) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_first_of_ne t h0) (not_last_of_ne t h1) x0 x1 xs0 xs1
/-- The last point's run. -/
abbrev runC (c : Dev nD) (t : Fin cfg0.N) (h1 : t.val = 15) (x0 : Vec F S512x4096 .f32) (x1 xs0 xs1 : Vec F S1x4096 .f32) :=
  kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_first_of_last t h1) ((hcond0_1 t).mpr h1) x0 x1 xs0 xs1

/-! ## What each case leaves: its pieces read back, and that they cover the buffer -/

def sA0 (c : Dev nD) (t : Fin cfg0.N) (h0 : t.val = 0) (x0 : Vec F S512x4096 .f32) (x1 : Vec F S1x4096 .f32) : Vec F S1x4096 .f32 :=
  VS0_0.read (Elt F) (VS0_0.writes (Elt F) VS0_0.junk (runA c t h0 x0 x1).1)
def sA1 (c : Dev nD) (t : Fin cfg0.N) (h0 : t.val = 0) (x0 : Vec F S512x4096 .f32) (x1 : Vec F S1x4096 .f32) : Vec F S1x4096 .f32 :=
  VS0_1.read (Elt F) (VS0_1.writes (Elt F) VS0_1.junk (runA c t h0 x0 x1).2.1)
theorem coverA0 (c : Dev nD) (t : Fin cfg0.N) (h0 : t.val = 0) (x0 : Vec F S512x4096 .f32) (x1 : Vec F S1x4096 .f32) (y : S1x4096.Idx) :
    ∃ pc ∈ (runA c t h0 x0 x1).1, y ∈ pc.1.set :=
  View.cover_of_tiledL (runA c t h0 x0 x1).1 S1x4096.size (by sl_kernel_rfl) y
theorem coverA1 (c : Dev nD) (t : Fin cfg0.N) (h0 : t.val = 0) (x0 : Vec F S512x4096 .f32) (x1 : Vec F S1x4096 .f32) (y : S1x4096.Idx) :
    ∃ pc ∈ (runA c t h0 x0 x1).2.1, y ∈ pc.1.set :=
  View.cover_of_tiledL (runA c t h0 x0 x1).2.1 S1x4096.size (by sl_kernel_rfl) y

def sB0 (c : Dev nD) (t : Fin cfg0.N) (h0 : t.val ≠ 0) (h1 : t.val ≠ 15) (x0 : Vec F S512x4096 .f32) (x1 xs0 xs1 : Vec F S1x4096 .f32) : Vec F S1x4096 .f32 :=
  VS0_0.read (Elt F) (VS0_0.writes (Elt F) VS0_0.junk (runB c t h0 h1 x0 x1 xs0 xs1).1)
def sB1 (c : Dev nD) (t : Fin cfg0.N) (h0 : t.val ≠ 0) (h1 : t.val ≠ 15) (x0 : Vec F S512x4096 .f32) (x1 xs0 xs1 : Vec F S1x4096 .f32) : Vec F S1x4096 .f32 :=
  VS0_1.read (Elt F) (VS0_1.writes (Elt F) VS0_1.junk (runB c t h0 h1 x0 x1 xs0 xs1).2.1)
theorem coverB0 (c : Dev nD) (t : Fin cfg0.N) (h0 : t.val ≠ 0) (h1 : t.val ≠ 15) (x0 : Vec F S512x4096 .f32) (x1 xs0 xs1 : Vec F S1x4096 .f32) (y : S1x4096.Idx) :
    ∃ pc ∈ (runB c t h0 h1 x0 x1 xs0 xs1).1, y ∈ pc.1.set :=
  View.cover_of_tiledL (runB c t h0 h1 x0 x1 xs0 xs1).1 S1x4096.size (by sl_kernel_rfl) y
theorem coverB1 (c : Dev nD) (t : Fin cfg0.N) (h0 : t.val ≠ 0) (h1 : t.val ≠ 15) (x0 : Vec F S512x4096 .f32) (x1 xs0 xs1 : Vec F S1x4096 .f32) (y : S1x4096.Idx) :
    ∃ pc ∈ (runB c t h0 h1 x0 x1 xs0 xs1).2.1, y ∈ pc.1.set :=
  View.cover_of_tiledL (runB c t h0 h1 x0 x1 xs0 xs1).2.1 S1x4096.size (by sl_kernel_rfl) y

def oC2 (c : Dev nD) (t : Fin cfg0.N) (h1 : t.val = 15) (x0 : Vec F S512x4096 .f32) (x1 xs0 xs1 : Vec F S1x4096 .f32) : Vec F S1x4096 .f32 :=
  VO0_2.read (Elt F) (VO0_2.writes (Elt F) VO0_2.junk (runC c t h1 x0 x1 xs0 xs1).1)
def oC3 (c : Dev nD) (t : Fin cfg0.N) (h1 : t.val = 15) (x0 : Vec F S512x4096 .f32) (x1 xs0 xs1 : Vec F S1x4096 .f32) : Vec F S1x4096 .f32 :=
  VO0_3.read (Elt F) (VO0_3.writes (Elt F) VO0_3.junk (runC c t h1 x0 x1 xs0 xs1).2.1)
def sC0 (c : Dev nD) (t : Fin cfg0.N) (h1 : t.val = 15) (x0 : Vec F S512x4096 .f32) (x1 xs0 xs1 : Vec F S1x4096 .f32) : Vec F S1x4096 .f32 :=
  VS0_0.read (Elt F) (VS0_0.writes (Elt F) VS0_0.junk (runC c t h1 x0 x1 xs0 xs1).2.2.1)
def sC1 (c : Dev nD) (t : Fin cfg0.N) (h1 : t.val = 15) (x0 : Vec F S512x4096 .f32) (x1 xs0 xs1 : Vec F S1x4096 .f32) : Vec F S1x4096 .f32 :=
  VS0_1.read (Elt F) (VS0_1.writes (Elt F) VS0_1.junk (runC c t h1 x0 x1 xs0 xs1).2.2.2.1)
theorem coverC2 (c : Dev nD) (t : Fin cfg0.N) (h1 : t.val = 15) (x0 : Vec F S512x4096 .f32) (x1 xs0 xs1 : Vec F S1x4096 .f32) (y : S1x4096.Idx) :
    ∃ pc ∈ (runC c t h1 x0 x1 xs0 xs1).1, y ∈ pc.1.set :=
  View.cover_of_tiledL (runC c t h1 x0 x1 xs0 xs1).1 S1x4096.size (by sl_kernel_rfl) y
theorem coverC3 (c : Dev nD) (t : Fin cfg0.N) (h1 : t.val = 15) (x0 : Vec F S512x4096 .f32) (x1 xs0 xs1 : Vec F S1x4096 .f32) (y : S1x4096.Idx) :
    ∃ pc ∈ (runC c t h1 x0 x1 xs0 xs1).2.1, y ∈ pc.1.set :=
  View.cover_of_tiledL (runC c t h1 x0 x1 xs0 xs1).2.1 S1x4096.size (by sl_kernel_rfl) y
theorem coverCS0 (c : Dev nD) (t : Fin cfg0.N) (h1 : t.val = 15) (x0 : Vec F S512x4096 .f32) (x1 xs0 xs1 : Vec F S1x4096 .f32) (y : S1x4096.Idx) :
    ∃ pc ∈ (runC c t h1 x0 x1 xs0 xs1).2.2.1, y ∈ pc.1.set :=
  View.cover_of_tiledL (runC c t h1 x0 x1 xs0 xs1).2.2.1 S1x4096.size (by sl_kernel_rfl) y
theorem coverCS1 (c : Dev nD) (t : Fin cfg0.N) (h1 : t.val = 15) (x0 : Vec F S512x4096 .f32) (x1 xs0 xs1 : Vec F S1x4096 .f32) (y : S1x4096.Idx) :
    ∃ pc ∈ (runC c t h1 x0 x1 xs0 xs1).2.2.2.1, y ∈ pc.1.set :=
  View.cover_of_tiledL (runC c t h1 x0 x1 xs0 xs1).2.2.2.1 S1x4096.size (by sl_kernel_rfl) y

/-- A result block that no store has reached: a placeholder nothing reads (the window is idle there). -/
def idleOut : Vec F S1x4096 .f32 := VO0_2.read (Elt F) VO0_2.junk

/-! ## The accumulation -/

/-- After the body at position `n`: ((result block 0, result block 1), (running sums, running sums of squares)). -/
def outsAt0 (c : Dev nD) : (n : ℕ) → n < cfg0.N → (Vec F S1x4096 .f32 × Vec F S1x4096 .f32) × (Vec F S1x4096 .f32 × Vec F S1x4096 .f32)
  | 0, hn => ((idleOut, idleOut),
      (sA0 c ⟨0, hn⟩ rfl (iblk0 V c 0 ⟨0, hn⟩) (iblk0 V c 1 ⟨0, hn⟩), sA1 c ⟨0, hn⟩ rfl (iblk0 V c 0 ⟨0, hn⟩) (iblk0 V c 1 ⟨0, hn⟩)))
  | n + 1, hn =>
    if h1 : n + 1 = 15 then
      ((oC2 c ⟨n + 1, hn⟩ h1 (iblk0 V c 0 ⟨n + 1, hn⟩) (iblk0 V c 1 ⟨n + 1, hn⟩) (outsAt0 c n (Nat.lt_of_succ_lt hn)).2.1 (outsAt0 c n (Nat.lt_of_succ_lt hn)).2.2,
        oC3 c ⟨n + 1, hn⟩ h1 (iblk0 V c 0 ⟨n + 1, hn⟩) (iblk0 V c 1 ⟨n + 1, hn⟩) (outsAt0 c n (Nat.lt_of_succ_lt hn)).2.1 (outsAt0 c n (Nat.lt_of_succ_lt hn)).2.2),
       (sC0 c ⟨n + 1, hn⟩ h1 (iblk0 V c 0 ⟨n + 1, hn⟩) (iblk0 V c 1 ⟨n + 1, hn⟩) (outsAt0 c n (Nat.lt_of_succ_lt hn)).2.1 (outsAt0 c n (Nat.lt_of_succ_lt hn)).2.2,
        sC1 c ⟨n + 1, hn⟩ h1 (iblk0 V c 0 ⟨n + 1, hn⟩) (iblk0 V c 1 ⟨n + 1, hn⟩) (outsAt0 c n (Nat.lt_of_succ_lt hn)).2.1 (outsAt0 c n (Nat.lt_of_succ_lt hn)).2.2))
    else
      ((idleOut, idleOut),
       (sB0 c ⟨n + 1, hn⟩ (Nat.succ_ne_zero n) h1 (iblk0 V c 0 ⟨n + 1, hn⟩) (iblk0 V c 1 ⟨n + 1, hn⟩) (outsAt0 c n (Nat.lt_of_succ_lt hn)).2.1 (outsAt0 c n (Nat.lt_of_succ_lt hn)).2.2,
        sB1 c ⟨n + 1, hn⟩ (Nat.succ_ne_zero n) h1 (iblk0 V c 0 ⟨n + 1, hn⟩) (iblk0 V c 1 ⟨n + 1, hn⟩) (outsAt0 c n (Nat.lt_of_succ_lt hn)).2.1 (outsAt0 c n (Nat.lt_of_succ_lt hn)).2.2))

/-- The point before `t`, when `t` is not the first. -/
abbrev prevLt (t : Fin cfg0.N) : t.val - 1 < cfg0.N := Nat.lt_of_le_of_lt (Nat.sub_le _ _) t.isLt

theorem outsAt0_A (c : Dev nD) (t : Fin cfg0.N) (h0 : t.val = 0) :
    outsAt0 V c t.val t.isLt = ((idleOut, idleOut), (sA0 c t h0 (iblk0 V c 0 t) (iblk0 V c 1 t), sA1 c t h0 (iblk0 V c 0 t) (iblk0 V c 1 t))) := by
  obtain ⟨n, hn⟩ := t
  cases n with
  | zero => rfl
  | succ n => exact absurd h0 (Nat.succ_ne_zero n)

theorem outsAt0_B (c : Dev nD) (t : Fin cfg0.N) (h0 : t.val ≠ 0) (h1 : t.val ≠ 15) :
    outsAt0 V c t.val t.isLt = ((idleOut, idleOut),
      (sB0 c t h0 h1 (iblk0 V c 0 t) (iblk0 V c 1 t) (outsAt0 V c (t.val - 1) (prevLt t)).2.1 (outsAt0 V c (t.val - 1) (prevLt t)).2.2,
       sB1 c t h0 h1 (iblk0 V c 0 t) (iblk0 V c 1 t) (outsAt0 V c (t.val - 1) (prevLt t)).2.1 (outsAt0 V c (t.val - 1) (prevLt t)).2.2)) := by
  obtain ⟨n, hn⟩ := t
  cases n with
  | zero => exact absurd rfl h0
  | succ n => exact (dif_neg h1).trans rfl

theorem outsAt0_C (c : Dev nD) (t : Fin cfg0.N) (h1 : t.val = 15) :
    outsAt0 V c t.val t.isLt =
      ((oC2 c t h1 (iblk0 V c 0 t) (iblk0 V c 1 t) (outsAt0 V c (t.val - 1) (prevLt t)).2.1 (outsAt0 V c (t.val - 1) (prevLt t)).2.2,
        oC3 c t h1 (iblk0 V c 0 t) (iblk0 V c 1 t) (outsAt0 V c (t.val - 1) (prevLt t)).2.1 (outsAt0 V c (t.val - 1) (prevLt t)).2.2),
       (sC0 c t h1 (iblk0 V c 0 t) (iblk0 V c 1 t) (outsAt0 V c (t.val - 1) (prevLt t)).2.1 (outsAt0 V c (t.val - 1) (prevLt t)).2.2,
        sC1 c t h1 (iblk0 V c 0 t) (iblk0 V c 1 t) (outsAt0 V c (t.val - 1) (prevLt t)).2.1 (outsAt0 V c (t.val - 1) (prevLt t)).2.2)) := by
  obtain ⟨n, hn⟩ := t
  cases n with
  | zero => exact absurd h1 (by simp)
  | succ n => exact (dif_pos h1).trans rfl

/-! ## The invariant between points -/

/-- Before position `n`: at the start the region's entry invariant (the running vectors' buffers at anything); afterwards
    those buffers at what the point before left, the other scoped buffers at anything, the generator register at some state. -/
def PhiS (c : Dev nD) : (n : ℕ) → n ≤ cfg0.N → sProp 𝕄
  | 0, _ => Pipeline.ΦA spec0 c
  | n + 1, hn => iprop(((owns (c : Thread nD τ) scM0_0 fullShare (outsAt0 V c n hn).2.1 ∗ owns (c : Thread nD τ) scM0_1 fullShare (outsAt0 V c n hn).2.2) ∗ others0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(((owns (c : Thread nD τ) scM0_0 fullShare (outsAt0 V c n hn).2.1 ∗ owns (c : Thread nD τ) scM0_1 fullShare (outsAt0 V c n hn).2.2) ∗ others0 (F := F) c) ∗ (∃ r, prngReg c r)) := rfl

theorem PhiS_pos (c : Dev nD) (n : ℕ) (h : n ≤ cfg0.N) (hz : n ≠ 0) :
    PhiS V c n h = iprop(((owns (c : Thread nD τ) scM0_0 fullShare (outsAt0 V c (n - 1) (by omega)).2.1 ∗ owns (c : Thread nD τ) scM0_1 fullShare (outsAt0 V c (n - 1) (by omega)).2.2) ∗ others0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1.1
    | ⟨3, _⟩ => (outsAt0 V c t.val t.isLt).1.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1.1 := by dsimp only [dat0]
theorem after0_3 (c : Dev nD) (t : Fin cfg0.N) : (dat0 V c).after 3 t = (outsAt0 V c t.val t.isLt).1.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 16 := lt_of_lt_of_eq t.isLt (show cfg0.N = 16 from N_0)
  by_cases h0 : t.val = 0
  · -- the first point
    rw [Dat.leavesExact_idle (dat0 V c) 2 t (idleAt0_2 t (not_last_of_first t h0)) (noFlush0_2 t (not_last_of_first t h0))]
    rw [Dat.leavesExact_idle (dat0 V c) 3 t (idleAt0_3 t (not_last_of_first t h0)) (noFlush0_3 t (not_last_of_first t h0))]
    rw [outsAt0_A V c t h0]
    unfold sA0 sA1; (try dsimp only)
    rw [PhiS_castSucc V c t, PhiS_zero V c _ _ h0, PhiA0_eq]
    iintro ⟨⟨⟨⟨HS0, HS1⟩, Hoth⟩, Hg⟩, Ho, ⟨%d0, H0⟩, ⟨%d1, H1⟩, ⟨%d2, H2⟩, ⟨%d3, H3⟩⟩
    iapply ((runA c t h0 (iblk0 V c 0 t) (iblk0 V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hoth Hg]
    · isplitl [HS0 HS1 Hoth]
      · isplitl [HS0 HS1]
        · isplitl [HS0]
          · unfold owns; iexists _; isplitr
            swap; · iexact HS0
            ipureintro; exact View.read_writes_of_cover _ _ _ _ _ (coverA0 c t h0 _ _)
          · unfold owns; iexists _; isplitr
            swap; · iexact HS1
            ipureintro; exact View.read_writes_of_cover _ _ _ _ _ (coverA1 c t h0 _ _)
        · iexact Hoth
      · iexact Hg
    isplitl [Ho]; · iexact Ho
    isplitl [H0]; · iexact H0
    isplitl [H1]; · iexact H1
    isplitl [H2]; · iexists _; iexact H2
    iexists _; iexact H3
  · by_cases h1 : t.val = 15
    · -- the last point
      rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h1]
      unfold oC2 oC3 sC0 sC1; (try dsimp only)
      rw [PhiS_castSucc V c t, PhiS_pos V c _ _ h0]
      iintro ⟨⟨⟨⟨HS0, HS1⟩, Hoth⟩, Hg⟩, Ho, ⟨%d0, H0⟩, ⟨%d1, H1⟩, ⟨%d2, H2⟩, ⟨%d3, H3⟩⟩
      iapply ((runC c t h1 (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (coverCS0 c t h1 _ _ _ _)
            · unfold owns; iexists _; isplitr
              swap; · iexact HS1
              ipureintro; exact View.read_writes_of_cover _ _ _ _ _ (coverCS1 c t h1 _ _ _ _)
          · iexact Hoth
        · iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC2 c t h1 _ _ _ _)
      unfold owns; iexists _; isplitr
      swap; · iexact H3
      ipureintro; exact View.read_writes_of_cover _ _ _ _ _ (coverC3 c t h1 _ _ _ _)
    · -- a middle point
      rw [Dat.leavesExact_idle (dat0 V c) 2 t (idleAt0_2 t (not_last_of_ne t h1)) (noFlush0_2 t (not_last_of_ne t h1))]
      rw [Dat.leavesExact_idle (dat0 V c) 3 t (idleAt0_3 t (not_last_of_ne t h1)) (noFlush0_3 t (not_last_of_ne t h1))]
      rw [outsAt0_B V c t h0 h1]
      unfold sB0 sB1; (try dsimp only)
      rw [PhiS_castSucc V c t, PhiS_pos V c _ _ h0]
      iintro ⟨⟨⟨⟨HS0, HS1⟩, Hoth⟩, Hg⟩, Ho, ⟨%d0, H0⟩, ⟨%d1, H1⟩, ⟨%d2, H2⟩, ⟨%d3, H3⟩⟩
      iapply ((runB c t h0 h1 (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (coverB0 c t h0 h1 _ _ _ _)
            · unfold owns; iexists _; isplitr
              swap; · iexact HS1
              ipureintro; exact View.read_writes_of_cover _ _ _ _ _ (coverB1 c t h0 h1 _ _ _ _)
          · iexact Hoth
        · iexact Hg
      isplitl [Ho]; · iexact Ho
      isplitl [H0]; · iexact H0
      isplitl [H1]; · iexact H1
      isplitl [H2]; · iexists _; iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the entry invariant back: the running vectors' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨⟨HS0, HS1⟩, Hoth⟩, Hg⟩
  isplitl [HS0 HS1 Hoth]
  · isplitl [HS0 HS1]
    · isplitl [HS0]
      · iexists _; iexact HS0
      · iexists _; iexact HS1
    · iexact Hoth
  iexact Hg

end Region0

end Cert.KernelIdeal.Frame

end
-- ==== Proof.K1Body.lean ====
/- Region 1 of @main, the second pipeline (the normalise-and-multiply step): its body half.

   The region has seven windows over a grid of 32 × 4 points. Windows 0–5 are inputs: a 256-row block of the
   activations, three per-channel rows (the added noise, the folded scale, the folded shift), a 1024-row block of
   the weight matrix, and the matching 1024 entries of the bias. Window 6 is the output: the 256 × 1024 block of
   the product. Everything here is stated at a parameter `V`, the contents of the TensorCore's buffers when the
   region is entered, and at any float instance.

   What is proved: at every grid point the staging buffer of each input holds that input's block at the point
   (whether or not the block was copied in at that very point), the body reads the six blocks and overwrites the
   whole output buffer with one pure function of them, and hence the obligation the pipeline's launch theorem
   asks of the body holds at every point. -/
import proofs.«125394_j81389630259917_1_alg».proof.Proof.Gen.KernelIdeal.Launch
import proofs.«125394_j81389630259917_1_alg».proof.Proof.Gen.KernelIdeal.Skeleton
import proofs.«125394_j81389630259917_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of its long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the contents of the TensorCore's buffers when the region is entered
variable (V : (c : Dev nD) → (b : Ref sig .tc) → Buf (Elt F) ((c : Thread nD τ).loc b))

/-! ## The windows' blocks -/

/-- Window `w`'s block at point `t`: the part of its array, as the region finds it, that the window's index map
    selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's current staging buffer holds its block at every point, for any proof data whose array is `V`'s and
    whose body leaves the block in place. At a point where the block is copied in this is what the copy leaves; at
    a point where it is not, the window's block index is the one of the point before, so the block already there is
    the block wanted. None of the six inputs is cut at an edge (their blocks tile their arrays) or ever idle.
    Window 0 is copied in when the row-block coordinate moves (every fourth point), windows 1, 2, 3 only at the
    first point (their index maps are constant), windows 4 and 5 at every point. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses

Every access of the body is to a whole staging buffer: the rectangle at offset (0, 0) with the buffer's own extents. -/

abbrev r1_0 : Rect S256x4096 := Rect.unit (s := S256x4096) ![0, 0] S256x4096.size inb_S256x4096_S256x4096_0_0
abbrev r1_1 : Rect S1x4096 := Rect.unit (s := S1x4096) ![0, 0] S1x4096.size inb_S1x4096_S1x4096_0_0
abbrev r1_4 : Rect S1024x4096 := Rect.unit (s := S1024x4096) ![0, 0] S1024x4096.size inb_S1024x4096_S1024x4096_0_0
abbrev r1_5 : Rect S1x1024 := Rect.unit (s := S1x1024) ![0, 0] S1x1024.size inb_S1x1024_S1x1024_0_0
abbrev r1_6 : Rect S256x1024 := Rect.unit (s := S256x1024) ![0, 0] S256x1024.size inb_S256x1024_S256x1024_0_0

/-! ## What the body leaves in the output window's buffer -/

/-- The output buffer after the body, as a function of the six input blocks: the body's single store, over the
    whole buffer, of the payload (noise added to the activations, clipped at zero, scaled and shifted per channel,
    multiplied by the transposed weight block, the bias added) computed from the six whole-buffer loads. -/
def out1_6 (x0 : Vec F S256x4096 .f32) (x1 x2 x3 : Vec F S1x4096 .f32) (x4 : Vec F S1024x4096 .bf16) (x5 : Vec F S1x1024 .f32) :
    Vec F S256x1024 .f32 :=
  View.canon [⟨r1_6, k1_pay1 (View.ld x0 r1_0) (View.ld x1 r1_1) (View.ld x2 r1_1) (View.ld x3 r1_1) (View.ld x4 r1_4) (View.ld x5 r1_5)⟩]

/-- The one store is over the whole buffer, so it covers every index of it. -/
theorem cover1_6 (p0 : Vec F S256x1024 .f32) (y : S256x1024.Idx) :
    ∃ pc ∈ ([⟨r1_6, p0⟩] : List (View.Piece (Elt F) S256x1024 .f32)), y ∈ pc.1.set :=
  View.cover_of_tiled [⟨r1_6, p0⟩] S256x1024.size (by rfl) y

/-! ## The body's triple -/

set_option maxHeartbeats 1000000 in
/-- The body, called on seven whole staging buffers — the six inputs' at known contents `x0 … x5`, the output's at
    anything — and at any grid coordinates (it does not look at them), runs without fault and ends with the six
    inputs' buffers as they were and the output's at `out1_6` of the six contents. The body reads the output's
    buffer once before storing it; the value read is not used. -/
theorem sound_kernel1 (c : Dev nD) (E : Set ℕ) (i : grid1.Coords)
    (arg2 : Memref sig .tc .vmem S256x4096 .f32) (harg2 : arg2.IsWhole) (arg3 : Memref sig .tc .vmem S1x4096 .f32) (harg3 : arg3.IsWhole)
    (arg4 : Memref sig .tc .vmem S1x4096 .f32) (harg4 : arg4.IsWhole) (arg5 : Memref sig .tc .vmem S1x4096 .f32) (harg5 : arg5.IsWhole)
    (arg6 : Memref sig .tc .vmem S1024x4096 .bf16) (harg6 : arg6.IsWhole) (arg7 : Memref sig .tc .vmem S1x1024 .f32) (harg7 : arg7.IsWhole)
    (arg8 : Memref sig .tc .vmem S256x1024 .f32) (harg8 : arg8.IsWhole)
    (x0 : Vec F S256x4096 .f32) (x1 x2 x3 : Vec F S1x4096 .f32) (x4 : Vec F S1024x4096 .bf16) (x5 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E
          (cc1__matmul_kernel i arg2 harg2 arg3 harg3 arg4 harg4 arg5 harg5 arg6 harg6 arg7 harg7 arg8 harg8) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the region on core `c`. The arrays are as the region finds them (`V`). After the body at
    point `t` each input's buffer still holds its block, and the output's holds `out1_6` of the six input blocks
    at `t`. The invariant is the plain one (the buffers the pipeline does not stage, and the random-number
    register, untouched); nothing is owed; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

/-! Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, the core's debts, and each window's current staging
    buffer at what the pipeline has left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What the body returns at point `t`: the invariant and the core's debts again, and each window's current staging
    buffer at what the proof data says the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the six inputs' buffers hold their blocks (`before1_W`), so the body's triple applies at
    those blocks; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the pipeline's launch theorem asks of the body, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Frame

end
-- ==== Proof.KRun.lean ====
/-
  The whole program as four segments — the host operations that make the offset vector, the statistics region, the host
  operations that turn the column sums into one scale and one shift per column, the dense-layer region — run from the
  launch to the return. The buffer contents at each boundary are a fold through the segments: a host stretch applies its
  operations; a region leaves each of its windows' arrays at what its write-backs leave and every other buffer as it
  found it. The run's conclusion: every weakly fair execution terminates, nothing faulting, with every unscoped buffer
  of every core at the last boundary's contents — in particular each argument as launched (nothing writes one), and the
  result array at what the second region's write-backs leave.
-/
import proofs.«125394_j81389630259917_1_alg».proof.Proof.K0Frame
import proofs.«125394_j81389630259917_1_alg».proof.Proof.K1Body

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (the statistics region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the statistics region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the dense-layer region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the dense-layer region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

/-- The input array is an input window of both regions: a region leaves an input window's array as it found it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (V3 m) c).arrAt_in 0 rfl _).trans (A_eq1 (V3 m) c 0))
    _ = W2 m c (Proc.devRef .tc main_arg0) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` reaches the end as launched: no host operation writes it and no region's output window is its array. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` reaches the end as launched: no host operation writes it and no region's output window is its array. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` reaches the end as launched: no host operation writes it and no region's output window is its array. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` reaches the end as launched: no host operation writes it and no region's output window is its array. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The statistics region over the thread state: entered from every unscoped buffer at `W1`, left at `W2`. Its
    invariant starts and ends as the entry invariant (the running vectors' named contents are forgotten at the end). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (V1 m) c
    unfold Pipeline.ΦA at h
    show (dat0 (V1 m) c).Φ (Fin.last cfg0.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The dense-layer region over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state has every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run m ρ)

end Cert.KernelIdeal.Frame

end
-- ==== Proof.WK0Shared.lean ====
/-
  The first kernel region (the column statistics), the part every control case of its body shares. The region walks
  the 16 row blocks of the input in order. Its body keeps two running vectors — the column sums and the column sums of
  squares of the clipped, offset block — in two buffers of its own that live across the 16 grid points: it clears them
  at the first point (the test "the point is 0"), adds the block's contribution at every point, and copies them to the two
  result blocks at the last point (the test "the point is 15"). So a point is in one of three cases: first, middle,
  last. Stated here, for the buffer contents `V` the region is entered with: each window's block at a point, the
  two tests in closed form over the grid, where the two result windows are idle (every point but the last), and the
  names of the memrefs the body is called with.
-/
import proofs.«125394_j81389630259917_1_alg».proof.Proof.Gen.Kernel.Launch
import proofs.«125394_j81389630259917_1_alg».proof.Proof.Gen.Kernel.Skeleton
import proofs.«125394_j81389630259917_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The offset vector's window is fetched once, at the first point, and its index never moves: its staging buffer
    holds the (one) block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two tests -/

/-- "The point is the first": the body's first test, from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "The point is the last": the body's second test. -/
abbrev cond0_1 (i : grid0.Coords) : Prop := k0_cond2 i = 1#1
theorem hcond0_1 : ∀ t : Fin cfg0.N, cond0_1 (grid0.coords t) ↔ t.val = 15 :=
  (by decide +kernel : ∀ t : Fin grid0.N, cond0_1 (grid0.coords t) ↔ t.val = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the two result windows are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

/-- One staging buffer of each result window, through which its contents are stated. -/
abbrev VO0_2 : View sig .tc .vmem S1x4096 .f32 := (Memref.whole cc0_stg2_0 : Memref sig .tc .vmem S1x4096 .f32).view
abbrev VO0_3 : View sig .tc .vmem S1x4096 .f32 := (Memref.whole cc0_stg3_0 : Memref sig .tc .vmem S1x4096 .f32).view
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
/-- The two running vectors' buffers: whole scoped buffers of the kernel's own. -/
abbrev scM0_0 : Memref sig .tc .vmem S1x4096 .f32 := Memref.whole cc0_scratch0
abbrev scM0_1 : Memref sig .tc .vmem S1x4096 .f32 := Memref.whole cc0_scratch1
abbrev VS0_0 : View sig .tc .vmem S1x4096 .f32 := scM0_0.view
abbrev VS0_1 : View sig .tc .vmem S1x4096 .f32 := scM0_1.view

/-- Every scoped buffer of the core that is neither a staging buffer of this region nor one of its two running
    vectors (the second region's staging buffers), each at some contents: carried through the region unopened. -/
abbrev others0 (c : Dev nD) : sProp 𝕄 :=
  Pipeline.scopedRestBut (Ix := Unit) (Name := ℕ) (U := UR sig nD τ) (Lvl := ℕ) (Val := Elt F) spec0 c [cc0_scratch0, cc0_scratch1]

/-- The region's entry invariant with the two running vectors' buffers as memrefs owned at some contents. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d)) ∗ others0 (F := F) c) ∗ (∃ r, prngReg c r)) := by
  unfold Pipeline.ΦA
  rw [Pipeline.scopedRest_split_of_list spec0 c [cc0_scratch0, cc0_scratch1] (by decide) (by decide)]
  simp only [scM0_0, scM0_1, owns_whole, bigSepL]
  try rfl

end Region0

end Cert.Kernel.Frame

end
-- ==== Proof.WK0RunA.lean ====
/-
  The statistics kernel's body at the FIRST grid point (the test "first" holds, the test "last" does not): it clears the
  two running vectors, then adds the block's column sums and column sums of squares to them; the two result blocks are
  not touched. Run symbolically on whole memrefs: the row block and the offset vector at their contents, the two result
  buffers at contents handed back unchanged, the running vectors' buffers at anything; found by the run: the pieces each
  running vector's buffer ends with (last store first).
-/
import proofs.«125394_j81389630259917_1_alg».proof.Proof.WK0Shared

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (hc0 : cond0_0 i) (hc1 : ¬cond0_1 i)
    (x0 : Vec F S512x4096 .f32) (x1 : Vec F S1x4096 .f32) :
    Σ' (LS0 : List (View.Piece (Elt F) S1x4096 .f32)), { LS1 : List (View.Piece (Elt F) S1x4096 .f32) //
      ∀ (xi2 xi3 : Vec F S1x4096 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, fun xi2 xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Frame

end
-- ==== Proof.WK0RunB.lean ====
/-
  The statistics kernel's body at a MIDDLE grid point (neither test holds): it adds the block's column sums and column
  sums of squares to the two running vectors, which it finds at what the point before left (`xs0`, `xs1`); the two
  result blocks are not touched.
-/
import proofs.«125394_j81389630259917_1_alg».proof.Proof.WK0RunA

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (hc0 : ¬cond0_0 i) (hc1 : ¬cond0_1 i)
    (x0 : Vec F S512x4096 .f32) (x1 : Vec F S1x4096 .f32) (xs0 xs1 : Vec F S1x4096 .f32) :
    Σ' (LS0 : List (View.Piece (Elt F) S1x4096 .f32)), { LS1 : List (View.Piece (Elt F) S1x4096 .f32) //
      ∀ (xi2 xi3 : Vec F S1x4096 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, fun xi2 xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Frame

end
-- ==== Proof.WK0RunC.lean ====
/-
  The statistics kernel's body at the LAST grid point (the test "last" holds, the test "first" does not): it adds the
  block's contribution to the two running vectors, found at what the point before left, and then copies each running
  vector to its result block. Found by the run: the pieces each result buffer and each running vector's buffer ends with.
-/
import proofs.«125394_j81389630259917_1_alg».proof.Proof.WK0RunB

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (hc0 : ¬cond0_0 i) (hc1 : cond0_1 i)
    (x0 : Vec F S512x4096 .f32) (x1 : Vec F S1x4096 .f32) (xs0 xs1 : Vec F S1x4096 .f32) :
    Σ' (L2 : List (View.Piece (Elt F) S1x4096 .f32)) (L3 : List (View.Piece (Elt F) S1x4096 .f32)) (LS0 : List (View.Piece (Elt F) S1x4096 .f32)), { LS1 : List (View.Piece (Elt F) S1x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Frame

end
-- ==== Proof.WK0Frame.lean ====
/-
  The first kernel region (the column statistics) point by point. What the body leaves after grid point `n`, as a
  function of what it found: the two running vectors (column sums, column sums of squares) after the point — cleared and
  given the first block's contribution at point 0, given block `n`'s contribution over what point `n - 1` left
  afterwards — and, at the last point only, the two result blocks, copies of the running vectors. The region's invariant
  between points keeps the running vectors' buffers at exactly those contents; the proof data state each window's
  staging buffer after each point; the body obligation holds at every point, by the three cases of the body's tests.
-/
import proofs.«125394_j81389630259917_1_alg».proof.Proof.WK0RunC

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The body's run at a point of each case, on the memrefs the pipeline passes there -/

theorem not_last_of_first (t : Fin cfg0.N) (h0 : t.val = 0) : ¬cond0_1 (grid0.coords t) :=
  fun h => by have := (hcond0_1 t).mp h; omega
theorem not_first_of_ne (t : Fin cfg0.N) (h0 : t.val ≠ 0) : ¬cond0_0 (grid0.coords t) :=
  fun h => h0 ((hcond0_0 t).mp h)
theorem not_last_of_ne (t : Fin cfg0.N) (h1 : t.val ≠ 15) : ¬cond0_1 (grid0.coords t) :=
  fun h => h1 ((hcond0_1 t).mp h)
theorem not_first_of_last (t : Fin cfg0.N) (h1 : t.val = 15) : ¬cond0_0 (grid0.coords t) :=
  fun h => by have := (hcond0_0 t).mp h; omega

/-- The first point's run. -/
abbrev runA (c : Dev nD) (t : Fin cfg0.N) (h0 : t.val = 0) (x0 : Vec F S512x4096 .f32) (x1 : Vec F S1x4096 .f32) :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (not_last_of_first t h0) x0 x1
/-- A middle point's run, over what the point before left in the running vectors. -/
abbrev runB (c : Dev nD) (t : Fin cfg0.N) (h0 : t.val ≠ 0) (h1 : t.val ≠ 15) (x0 : Vec F S512x4096 .f32) (x1 xs0 xs1 : Vec F S1x4096 .f32) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_first_of_ne t h0) (not_last_of_ne t h1) x0 x1 xs0 xs1
/-- The last point's run. -/
abbrev runC (c : Dev nD) (t : Fin cfg0.N) (h1 : t.val = 15) (x0 : Vec F S512x4096 .f32) (x1 xs0 xs1 : Vec F S1x4096 .f32) :=
  kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_first_of_last t h1) ((hcond0_1 t).mpr h1) x0 x1 xs0 xs1

/-! ## What each case leaves: its pieces read back, and that they cover the buffer -/

def sA0 (c : Dev nD) (t : Fin cfg0.N) (h0 : t.val = 0) (x0 : Vec F S512x4096 .f32) (x1 : Vec F S1x4096 .f32) : Vec F S1x4096 .f32 :=
  VS0_0.read (Elt F) (VS0_0.writes (Elt F) VS0_0.junk (runA c t h0 x0 x1).1)
def sA1 (c : Dev nD) (t : Fin cfg0.N) (h0 : t.val = 0) (x0 : Vec F S512x4096 .f32) (x1 : Vec F S1x4096 .f32) : Vec F S1x4096 .f32 :=
  VS0_1.read (Elt F) (VS0_1.writes (Elt F) VS0_1.junk (runA c t h0 x0 x1).2.1)
theorem coverA0 (c : Dev nD) (t : Fin cfg0.N) (h0 : t.val = 0) (x0 : Vec F S512x4096 .f32) (x1 : Vec F S1x4096 .f32) (y : S1x4096.Idx) :
    ∃ pc ∈ (runA c t h0 x0 x1).1, y ∈ pc.1.set :=
  View.cover_of_tiledL (runA c t h0 x0 x1).1 S1x4096.size (by sl_kernel_rfl) y
theorem coverA1 (c : Dev nD) (t : Fin cfg0.N) (h0 : t.val = 0) (x0 : Vec F S512x4096 .f32) (x1 : Vec F S1x4096 .f32) (y : S1x4096.Idx) :
    ∃ pc ∈ (runA c t h0 x0 x1).2.1, y ∈ pc.1.set :=
  View.cover_of_tiledL (runA c t h0 x0 x1).2.1 S1x4096.size (by sl_kernel_rfl) y

def sB0 (c : Dev nD) (t : Fin cfg0.N) (h0 : t.val ≠ 0) (h1 : t.val ≠ 15) (x0 : Vec F S512x4096 .f32) (x1 xs0 xs1 : Vec F S1x4096 .f32) : Vec F S1x4096 .f32 :=
  VS0_0.read (Elt F) (VS0_0.writes (Elt F) VS0_0.junk (runB c t h0 h1 x0 x1 xs0 xs1).1)
def sB1 (c : Dev nD) (t : Fin cfg0.N) (h0 : t.val ≠ 0) (h1 : t.val ≠ 15) (x0 : Vec F S512x4096 .f32) (x1 xs0 xs1 : Vec F S1x4096 .f32) : Vec F S1x4096 .f32 :=
  VS0_1.read (Elt F) (VS0_1.writes (Elt F) VS0_1.junk (runB c t h0 h1 x0 x1 xs0 xs1).2.1)
theorem coverB0 (c : Dev nD) (t : Fin cfg0.N) (h0 : t.val ≠ 0) (h1 : t.val ≠ 15) (x0 : Vec F S512x4096 .f32) (x1 xs0 xs1 : Vec F S1x4096 .f32) (y : S1x4096.Idx) :
    ∃ pc ∈ (runB c t h0 h1 x0 x1 xs0 xs1).1, y ∈ pc.1.set :=
  View.cover_of_tiledL (runB c t h0 h1 x0 x1 xs0 xs1).1 S1x4096.size (by sl_kernel_rfl) y
theorem coverB1 (c : Dev nD) (t : Fin cfg0.N) (h0 : t.val ≠ 0) (h1 : t.val ≠ 15) (x0 : Vec F S512x4096 .f32) (x1 xs0 xs1 : Vec F S1x4096 .f32) (y : S1x4096.Idx) :
    ∃ pc ∈ (runB c t h0 h1 x0 x1 xs0 xs1).2.1, y ∈ pc.1.set :=
  View.cover_of_tiledL (runB c t h0 h1 x0 x1 xs0 xs1).2.1 S1x4096.size (by sl_kernel_rfl) y

def oC2 (c : Dev nD) (t : Fin cfg0.N) (h1 : t.val = 15) (x0 : Vec F S512x4096 .f32) (x1 xs0 xs1 : Vec F S1x4096 .f32) : Vec F S1x4096 .f32 :=
  VO0_2.read (Elt F) (VO0_2.writes (Elt F) VO0_2.junk (runC c t h1 x0 x1 xs0 xs1).1)
def oC3 (c : Dev nD) (t : Fin cfg0.N) (h1 : t.val = 15) (x0 : Vec F S512x4096 .f32) (x1 xs0 xs1 : Vec F S1x4096 .f32) : Vec F S1x4096 .f32 :=
  VO0_3.read (Elt F) (VO0_3.writes (Elt F) VO0_3.junk (runC c t h1 x0 x1 xs0 xs1).2.1)
def sC0 (c : Dev nD) (t : Fin cfg0.N) (h1 : t.val = 15) (x0 : Vec F S512x4096 .f32) (x1 xs0 xs1 : Vec F S1x4096 .f32) : Vec F S1x4096 .f32 :=
  VS0_0.read (Elt F) (VS0_0.writes (Elt F) VS0_0.junk (runC c t h1 x0 x1 xs0 xs1).2.2.1)
def sC1 (c : Dev nD) (t : Fin cfg0.N) (h1 : t.val = 15) (x0 : Vec F S512x4096 .f32) (x1 xs0 xs1 : Vec F S1x4096 .f32) : Vec F S1x4096 .f32 :=
  VS0_1.read (Elt F) (VS0_1.writes (Elt F) VS0_1.junk (runC c t h1 x0 x1 xs0 xs1).2.2.2.1)
theorem coverC2 (c : Dev nD) (t : Fin cfg0.N) (h1 : t.val = 15) (x0 : Vec F S512x4096 .f32) (x1 xs0 xs1 : Vec F S1x4096 .f32) (y : S1x4096.Idx) :
    ∃ pc ∈ (runC c t h1 x0 x1 xs0 xs1).1, y ∈ pc.1.set :=
  View.cover_of_tiledL (runC c t h1 x0 x1 xs0 xs1).1 S1x4096.size (by sl_kernel_rfl) y
theorem coverC3 (c : Dev nD) (t : Fin cfg0.N) (h1 : t.val = 15) (x0 : Vec F S512x4096 .f32) (x1 xs0 xs1 : Vec F S1x4096 .f32) (y : S1x4096.Idx) :
    ∃ pc ∈ (runC c t h1 x0 x1 xs0 xs1).2.1, y ∈ pc.1.set :=
  View.cover_of_tiledL (runC c t h1 x0 x1 xs0 xs1).2.1 S1x4096.size (by sl_kernel_rfl) y
theorem coverCS0 (c : Dev nD) (t : Fin cfg0.N) (h1 : t.val = 15) (x0 : Vec F S512x4096 .f32) (x1 xs0 xs1 : Vec F S1x4096 .f32) (y : S1x4096.Idx) :
    ∃ pc ∈ (runC c t h1 x0 x1 xs0 xs1).2.2.1, y ∈ pc.1.set :=
  View.cover_of_tiledL (runC c t h1 x0 x1 xs0 xs1).2.2.1 S1x4096.size (by sl_kernel_rfl) y
theorem coverCS1 (c : Dev nD) (t : Fin cfg0.N) (h1 : t.val = 15) (x0 : Vec F S512x4096 .f32) (x1 xs0 xs1 : Vec F S1x4096 .f32) (y : S1x4096.Idx) :
    ∃ pc ∈ (runC c t h1 x0 x1 xs0 xs1).2.2.2.1, y ∈ pc.1.set :=
  View.cover_of_tiledL (runC c t h1 x0 x1 xs0 xs1).2.2.2.1 S1x4096.size (by sl_kernel_rfl) y

/-- A result block that no store has reached: a placeholder nothing reads (the window is idle there). -/
def idleOut : Vec F S1x4096 .f32 := VO0_2.read (Elt F) VO0_2.junk

/-! ## The accumulation -/

/-- After the body at position `n`: ((result block 0, result block 1), (running sums, running sums of squares)). -/
def outsAt0 (c : Dev nD) : (n : ℕ) → n < cfg0.N → (Vec F S1x4096 .f32 × Vec F S1x4096 .f32) × (Vec F S1x4096 .f32 × Vec F S1x4096 .f32)
  | 0, hn => ((idleOut, idleOut),
      (sA0 c ⟨0, hn⟩ rfl (iblk0 V c 0 ⟨0, hn⟩) (iblk0 V c 1 ⟨0, hn⟩), sA1 c ⟨0, hn⟩ rfl (iblk0 V c 0 ⟨0, hn⟩) (iblk0 V c 1 ⟨0, hn⟩)))
  | n + 1, hn =>
    if h1 : n + 1 = 15 then
      ((oC2 c ⟨n + 1, hn⟩ h1 (iblk0 V c 0 ⟨n + 1, hn⟩) (iblk0 V c 1 ⟨n + 1, hn⟩) (outsAt0 c n (Nat.lt_of_succ_lt hn)).2.1 (outsAt0 c n (Nat.lt_of_succ_lt hn)).2.2,
        oC3 c ⟨n + 1, hn⟩ h1 (iblk0 V c 0 ⟨n + 1, hn⟩) (iblk0 V c 1 ⟨n + 1, hn⟩) (outsAt0 c n (Nat.lt_of_succ_lt hn)).2.1 (outsAt0 c n (Nat.lt_of_succ_lt hn)).2.2),
       (sC0 c ⟨n + 1, hn⟩ h1 (iblk0 V c 0 ⟨n + 1, hn⟩) (iblk0 V c 1 ⟨n + 1, hn⟩) (outsAt0 c n (Nat.lt_of_succ_lt hn)).2.1 (outsAt0 c n (Nat.lt_of_succ_lt hn)).2.2,
        sC1 c ⟨n + 1, hn⟩ h1 (iblk0 V c 0 ⟨n + 1, hn⟩) (iblk0 V c 1 ⟨n + 1, hn⟩) (outsAt0 c n (Nat.lt_of_succ_lt hn)).2.1 (outsAt0 c n (Nat.lt_of_succ_lt hn)).2.2))
    else
      ((idleOut, idleOut),
       (sB0 c ⟨n + 1, hn⟩ (Nat.succ_ne_zero n) h1 (iblk0 V c 0 ⟨n + 1, hn⟩) (iblk0 V c 1 ⟨n + 1, hn⟩) (outsAt0 c n (Nat.lt_of_succ_lt hn)).2.1 (outsAt0 c n (Nat.lt_of_succ_lt hn)).2.2,
        sB1 c ⟨n + 1, hn⟩ (Nat.succ_ne_zero n) h1 (iblk0 V c 0 ⟨n + 1, hn⟩) (iblk0 V c 1 ⟨n + 1, hn⟩) (outsAt0 c n (Nat.lt_of_succ_lt hn)).2.1 (outsAt0 c n (Nat.lt_of_succ_lt hn)).2.2))

/-- The point before `t`, when `t` is not the first. -/
abbrev prevLt (t : Fin cfg0.N) : t.val - 1 < cfg0.N := Nat.lt_of_le_of_lt (Nat.sub_le _ _) t.isLt

theorem outsAt0_A (c : Dev nD) (t : Fin cfg0.N) (h0 : t.val = 0) :
    outsAt0 V c t.val t.isLt = ((idleOut, idleOut), (sA0 c t h0 (iblk0 V c 0 t) (iblk0 V c 1 t), sA1 c t h0 (iblk0 V c 0 t) (iblk0 V c 1 t))) := by
  obtain ⟨n, hn⟩ := t
  cases n with
  | zero => rfl
  | succ n => exact absurd h0 (Nat.succ_ne_zero n)

theorem outsAt0_B (c : Dev nD) (t : Fin cfg0.N) (h0 : t.val ≠ 0) (h1 : t.val ≠ 15) :
    outsAt0 V c t.val t.isLt = ((idleOut, idleOut),
      (sB0 c t h0 h1 (iblk0 V c 0 t) (iblk0 V c 1 t) (outsAt0 V c (t.val - 1) (prevLt t)).2.1 (outsAt0 V c (t.val - 1) (prevLt t)).2.2,
       sB1 c t h0 h1 (iblk0 V c 0 t) (iblk0 V c 1 t) (outsAt0 V c (t.val - 1) (prevLt t)).2.1 (outsAt0 V c (t.val - 1) (prevLt t)).2.2)) := by
  obtain ⟨n, hn⟩ := t
  cases n with
  | zero => exact absurd rfl h0
  | succ n => exact (dif_neg h1).trans rfl

theorem outsAt0_C (c : Dev nD) (t : Fin cfg0.N) (h1 : t.val = 15) :
    outsAt0 V c t.val t.isLt =
      ((oC2 c t h1 (iblk0 V c 0 t) (iblk0 V c 1 t) (outsAt0 V c (t.val - 1) (prevLt t)).2.1 (outsAt0 V c (t.val - 1) (prevLt t)).2.2,
        oC3 c t h1 (iblk0 V c 0 t) (iblk0 V c 1 t) (outsAt0 V c (t.val - 1) (prevLt t)).2.1 (outsAt0 V c (t.val - 1) (prevLt t)).2.2),
       (sC0 c t h1 (iblk0 V c 0 t) (iblk0 V c 1 t) (outsAt0 V c (t.val - 1) (prevLt t)).2.1 (outsAt0 V c (t.val - 1) (prevLt t)).2.2,
        sC1 c t h1 (iblk0 V c 0 t) (iblk0 V c 1 t) (outsAt0 V c (t.val - 1) (prevLt t)).2.1 (outsAt0 V c (t.val - 1) (prevLt t)).2.2)) := by
  obtain ⟨n, hn⟩ := t
  cases n with
  | zero => exact absurd h1 (by simp)
  | succ n => exact (dif_pos h1).trans rfl

/-! ## The invariant between points -/

/-- Before position `n`: at the start the region's entry invariant (the running vectors' buffers at anything); afterwards
    those buffers at what the point before left, the other scoped buffers at anything, the generator register at some state. -/
def PhiS (c : Dev nD) : (n : ℕ) → n ≤ cfg0.N → sProp 𝕄
  | 0, _ => Pipeline.ΦA spec0 c
  | n + 1, hn => iprop(((owns (c : Thread nD τ) scM0_0 fullShare (outsAt0 V c n hn).2.1 ∗ owns (c : Thread nD τ) scM0_1 fullShare (outsAt0 V c n hn).2.2) ∗ others0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(((owns (c : Thread nD τ) scM0_0 fullShare (outsAt0 V c n hn).2.1 ∗ owns (c : Thread nD τ) scM0_1 fullShare (outsAt0 V c n hn).2.2) ∗ others0 (F := F) c) ∗ (∃ r, prngReg c r)) := rfl

theorem PhiS_pos (c : Dev nD) (n : ℕ) (h : n ≤ cfg0.N) (hz : n ≠ 0) :
    PhiS V c n h = iprop(((owns (c : Thread nD τ) scM0_0 fullShare (outsAt0 V c (n - 1) (by omega)).2.1 ∗ owns (c : Thread nD τ) scM0_1 fullShare (outsAt0 V c (n - 1) (by omega)).2.2) ∗ others0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1.1
    | ⟨3, _⟩ => (outsAt0 V c t.val t.isLt).1.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1.1 := by dsimp only [dat0]
theorem after0_3 (c : Dev nD) (t : Fin cfg0.N) : (dat0 V c).after 3 t = (outsAt0 V c t.val t.isLt).1.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 16 := lt_of_lt_of_eq t.isLt (show cfg0.N = 16 from N_0)
  by_cases h0 : t.val = 0
  · -- the first point
    rw [Dat.leavesExact_idle (dat0 V c) 2 t (idleAt0_2 t (not_last_of_first t h0)) (noFlush0_2 t (not_last_of_first t h0))]
    rw [Dat.leavesExact_idle (dat0 V c) 3 t (idleAt0_3 t (not_last_of_first t h0)) (noFlush0_3 t (not_last_of_first t h0))]
    rw [outsAt0_A V c t h0]
    unfold sA0 sA1; (try dsimp only)
    rw [PhiS_castSucc V c t, PhiS_zero V c _ _ h0, PhiA0_eq]
    iintro ⟨⟨⟨⟨HS0, HS1⟩, Hoth⟩, Hg⟩, Ho, ⟨%d0, H0⟩, ⟨%d1, H1⟩, ⟨%d2, H2⟩, ⟨%d3, H3⟩⟩
    iapply ((runA c t h0 (iblk0 V c 0 t) (iblk0 V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hoth Hg]
    · isplitl [HS0 HS1 Hoth]
      · isplitl [HS0 HS1]
        · isplitl [HS0]
          · unfold owns; iexists _; isplitr
            swap; · iexact HS0
            ipureintro; exact View.read_writes_of_cover _ _ _ _ _ (coverA0 c t h0 _ _)
          · unfold owns; iexists _; isplitr
            swap; · iexact HS1
            ipureintro; exact View.read_writes_of_cover _ _ _ _ _ (coverA1 c t h0 _ _)
        · iexact Hoth
      · iexact Hg
    isplitl [Ho]; · iexact Ho
    isplitl [H0]; · iexact H0
    isplitl [H1]; · iexact H1
    isplitl [H2]; · iexists _; iexact H2
    iexists _; iexact H3
  · by_cases h1 : t.val = 15
    · -- the last point
      rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h1]
      unfold oC2 oC3 sC0 sC1; (try dsimp only)
      rw [PhiS_castSucc V c t, PhiS_pos V c _ _ h0]
      iintro ⟨⟨⟨⟨HS0, HS1⟩, Hoth⟩, Hg⟩, Ho, ⟨%d0, H0⟩, ⟨%d1, H1⟩, ⟨%d2, H2⟩, ⟨%d3, H3⟩⟩
      iapply ((runC c t h1 (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (coverCS0 c t h1 _ _ _ _)
            · unfold owns; iexists _; isplitr
              swap; · iexact HS1
              ipureintro; exact View.read_writes_of_cover _ _ _ _ _ (coverCS1 c t h1 _ _ _ _)
          · iexact Hoth
        · iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC2 c t h1 _ _ _ _)
      unfold owns; iexists _; isplitr
      swap; · iexact H3
      ipureintro; exact View.read_writes_of_cover _ _ _ _ _ (coverC3 c t h1 _ _ _ _)
    · -- a middle point
      rw [Dat.leavesExact_idle (dat0 V c) 2 t (idleAt0_2 t (not_last_of_ne t h1)) (noFlush0_2 t (not_last_of_ne t h1))]
      rw [Dat.leavesExact_idle (dat0 V c) 3 t (idleAt0_3 t (not_last_of_ne t h1)) (noFlush0_3 t (not_last_of_ne t h1))]
      rw [outsAt0_B V c t h0 h1]
      unfold sB0 sB1; (try dsimp only)
      rw [PhiS_castSucc V c t, PhiS_pos V c _ _ h0]
      iintro ⟨⟨⟨⟨HS0, HS1⟩, Hoth⟩, Hg⟩, Ho, ⟨%d0, H0⟩, ⟨%d1, H1⟩, ⟨%d2, H2⟩, ⟨%d3, H3⟩⟩
      iapply ((runB c t h0 h1 (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (coverB0 c t h0 h1 _ _ _ _)
            · unfold owns; iexists _; isplitr
              swap; · iexact HS1
              ipureintro; exact View.read_writes_of_cover _ _ _ _ _ (coverB1 c t h0 h1 _ _ _ _)
          · iexact Hoth
        · iexact Hg
      isplitl [Ho]; · iexact Ho
      isplitl [H0]; · iexact H0
      isplitl [H1]; · iexact H1
      isplitl [H2]; · iexists _; iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the entry invariant back: the running vectors' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨⟨HS0, HS1⟩, Hoth⟩, Hg⟩
  isplitl [HS0 HS1 Hoth]
  · isplitl [HS0 HS1]
    · isplitl [HS0]
      · iexists _; iexact HS0
      · iexists _; iexact HS1
    · iexact Hoth
  iexact Hg

end Region0

end Cert.Kernel.Frame

end
-- ==== Proof.WK1Body.lean ====
/- Region 1 of @main, the second pipeline (the normalise-and-multiply step): its body half.

   The region has seven windows over a grid of 32 × 4 points. Windows 0–5 are inputs: a 256-row block of the
   activations, three per-channel rows (the added noise, the folded scale, the folded shift), a 1024-row block of
   the weight matrix, and the matching 1024 entries of the bias. Window 6 is the output: the 256 × 1024 block of
   the product. Everything here is stated at a parameter `V`, the contents of the TensorCore's buffers when the
   region is entered, and at any float instance.

   What is proved: at every grid point the staging buffer of each input holds that input's block at the point
   (whether or not the block was copied in at that very point), the body reads the six blocks and overwrites the
   whole output buffer with one pure function of them, and hence the obligation the pipeline's launch theorem
   asks of the body holds at every point. -/
import proofs.«125394_j81389630259917_1_alg».proof.Proof.Gen.Kernel.Launch
import proofs.«125394_j81389630259917_1_alg».proof.Proof.Gen.Kernel.Skeleton
import proofs.«125394_j81389630259917_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of its long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the contents of the TensorCore's buffers when the region is entered
variable (V : (c : Dev nD) → (b : Ref sig .tc) → Buf (Elt F) ((c : Thread nD τ).loc b))

/-! ## The windows' blocks -/

/-- Window `w`'s block at point `t`: the part of its array, as the region finds it, that the window's index map
    selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's current staging buffer holds its block at every point, for any proof data whose array is `V`'s and
    whose body leaves the block in place. At a point where the block is copied in this is what the copy leaves; at
    a point where it is not, the window's block index is the one of the point before, so the block already there is
    the block wanted. None of the six inputs is cut at an edge (their blocks tile their arrays) or ever idle.
    Window 0 is copied in when the row-block coordinate moves (every fourth point), windows 1, 2, 3 only at the
    first point (their index maps are constant), windows 4 and 5 at every point. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses

Every access of the body is to a whole staging buffer: the rectangle at offset (0, 0) with the buffer's own extents. -/

abbrev r1_0 : Rect S256x4096 := Rect.unit (s := S256x4096) ![0, 0] S256x4096.size inb_S256x4096_S256x4096_0_0
abbrev r1_1 : Rect S1x4096 := Rect.unit (s := S1x4096) ![0, 0] S1x4096.size inb_S1x4096_S1x4096_0_0
abbrev r1_4 : Rect S1024x4096 := Rect.unit (s := S1024x4096) ![0, 0] S1024x4096.size inb_S1024x4096_S1024x4096_0_0
abbrev r1_5 : Rect S1x1024 := Rect.unit (s := S1x1024) ![0, 0] S1x1024.size inb_S1x1024_S1x1024_0_0
abbrev r1_6 : Rect S256x1024 := Rect.unit (s := S256x1024) ![0, 0] S256x1024.size inb_S256x1024_S256x1024_0_0

/-! ## What the body leaves in the output window's buffer -/

/-- The output buffer after the body, as a function of the six input blocks: the body's single store, over the
    whole buffer, of the payload (noise added to the activations, clipped at zero, scaled and shifted per channel,
    multiplied by the transposed weight block, the bias added) computed from the six whole-buffer loads. -/
def out1_6 (x0 : Vec F S256x4096 .f32) (x1 x2 x3 : Vec F S1x4096 .f32) (x4 : Vec F S1024x4096 .bf16) (x5 : Vec F S1x1024 .f32) :
    Vec F S256x1024 .f32 :=
  View.canon [⟨r1_6, k1_pay1 (View.ld x0 r1_0) (View.ld x1 r1_1) (View.ld x2 r1_1) (View.ld x3 r1_1) (View.ld x4 r1_4) (View.ld x5 r1_5)⟩]

/-- The one store is over the whole buffer, so it covers every index of it. -/
theorem cover1_6 (p0 : Vec F S256x1024 .f32) (y : S256x1024.Idx) :
    ∃ pc ∈ ([⟨r1_6, p0⟩] : List (View.Piece (Elt F) S256x1024 .f32)), y ∈ pc.1.set :=
  View.cover_of_tiled [⟨r1_6, p0⟩] S256x1024.size (by rfl) y

/-! ## The body's triple -/

set_option maxHeartbeats 1000000 in
/-- The body, called on seven whole staging buffers — the six inputs' at known contents `x0 … x5`, the output's at
    anything — and at any grid coordinates (it does not look at them), runs without fault and ends with the six
    inputs' buffers as they were and the output's at `out1_6` of the six contents. The body reads the output's
    buffer once before storing it; the value read is not used. -/
theorem sound_kernel1 (c : Dev nD) (E : Set ℕ) (i : grid1.Coords)
    (arg2 : Memref sig .tc .vmem S256x4096 .f32) (harg2 : arg2.IsWhole) (arg3 : Memref sig .tc .vmem S1x4096 .f32) (harg3 : arg3.IsWhole)
    (arg4 : Memref sig .tc .vmem S1x4096 .f32) (harg4 : arg4.IsWhole) (arg5 : Memref sig .tc .vmem S1x4096 .f32) (harg5 : arg5.IsWhole)
    (arg6 : Memref sig .tc .vmem S1024x4096 .bf16) (harg6 : arg6.IsWhole) (arg7 : Memref sig .tc .vmem S1x1024 .f32) (harg7 : arg7.IsWhole)
    (arg8 : Memref sig .tc .vmem S256x1024 .f32) (harg8 : arg8.IsWhole)
    (x0 : Vec F S256x4096 .f32) (x1 x2 x3 : Vec F S1x4096 .f32) (x4 : Vec F S1024x4096 .bf16) (x5 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E
          (cc1__matmul_kernel i arg2 harg2 arg3 harg3 arg4 harg4 arg5 harg5 arg6 harg6 arg7 harg7 arg8 harg8) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the region on core `c`. The arrays are as the region finds them (`V`). After the body at
    point `t` each input's buffer still holds its block, and the output's holds `out1_6` of the six input blocks
    at `t`. The invariant is the plain one (the buffers the pipeline does not stage, and the random-number
    register, untouched); nothing is owed; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

/-! Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, the core's debts, and each window's current staging
    buffer at what the pipeline has left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What the body returns at point `t`: the invariant and the core's debts again, and each window's current staging
    buffer at what the proof data says the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the six inputs' buffers hold their blocks (`before1_W`), so the body's triple applies at
    those blocks; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the pipeline's launch theorem asks of the body, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Frame

end
-- ==== Proof.WKRun.lean ====
/-
  The whole program as four segments — the host operations that make the offset vector, the statistics region, the host
  operations that turn the column sums into one scale and one shift per column, the dense-layer region — run from the
  launch to the return. The buffer contents at each boundary are a fold through the segments: a host stretch applies its
  operations; a region leaves each of its windows' arrays at what its write-backs leave and every other buffer as it
  found it. The run's conclusion: every weakly fair execution terminates, nothing faulting, with every unscoped buffer
  of every core at the last boundary's contents — in particular each argument as launched (nothing writes one), and the
  result array at what the second region's write-backs leave.
-/
import proofs.«125394_j81389630259917_1_alg».proof.Proof.WK0Frame
import proofs.«125394_j81389630259917_1_alg».proof.Proof.WK1Body

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (the statistics region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the statistics region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the dense-layer region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the dense-layer region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

/-- The input array is an input window of both regions: a region leaves an input window's array as it found it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (V3 m) c).arrAt_in 0 rfl _).trans (A_eq1 (V3 m) c 0))
    _ = W2 m c (Proc.devRef .tc main_arg0) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` reaches the end as launched: no host operation writes it and no region's output window is its array. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` reaches the end as launched: no host operation writes it and no region's output window is its array. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` reaches the end as launched: no host operation writes it and no region's output window is its array. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` reaches the end as launched: no host operation writes it and no region's output window is its array. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The statistics region over the thread state: entered from every unscoped buffer at `W1`, left at `W2`. Its
    invariant starts and ends as the entry invariant (the running vectors' named contents are forgotten at the end). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (V1 m) c
    unfold Pipeline.ΦA at h
    show (dat0 (V1 m) c).Φ (Fin.last cfg0.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The dense-layer region over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state has every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run m ρ)

end Cert.Kernel.Frame

end
-- ==== Proof.RefRun.lean ====
/-
  The reference program's run, read back as a pure function of its five arguments.

  The program is a straight line of forty-one array operations: a fixed per-channel vector added to the input and the
  sum clipped below at zero; the column sums of that array and of its squared deviations from the column mean, each
  divided by the number of rows; the reciprocal square root of the variance plus a fixed offset; the centred array
  scaled by it, by `γ`, shifted by `β`; one contraction of the channel axis against the weight, and the bias added.
  `refTerm` below is that composition, stage by stage; `run` says every weakly fair execution of the program ends with
  its result buffer holding `refTerm` of the arguments' initial contents and with the arguments unchanged.
-/
import proofs.«125394_j81389630259917_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term, stage by stage -/

/-- The fixed per-channel vector: entry `i` is the float whose word is the `i`-th of the program's table. -/
def noiseV : FVec F S4096 .f32 := fun i => FloatOps.ofBits .f32 (lit0 (S4096.rowMajor i))

/-- A per-channel vector repeated along the rows: `[4096] → [1, 4096] → [8192, 4096]`. -/
def rowB (v : FVec F S4096 .f32) : FVec F S8192x4096 .f32 :=
  broadcastInDim S8192x4096 ![0, 1] bcast_S1x4096_S8192x4096_0_1 (broadcastInDim S1x4096 ![1] bcast_S4096_S1x4096_1 v)

/-- A float literal as a per-channel vector with every entry that literal. -/
def splatC (w : BitVec 32) : FVec F S4096 .f32 := broadcastInDim S4096 ![] bcast_S_S4096 (constant S_ .f32 w)

/-- The input plus the fixed vector, clipped below at zero. -/
def actV (x : FVec F S8192x4096 .f32) : FVec F S8192x4096 .f32 :=
  maximumf (addf x (rowB noiseV)) (broadcastInDim S8192x4096 ![] bcast_S_S8192x4096 (constant S_ .f32 0x00000000#32))

/-- The sum of an array's columns over the rows, from zero. -/
def colSumV (a : FVec F S8192x4096 .f32) : FVec F S4096 .f32 :=
  Host.reduceAdd a (constant S_ .f32 0x00000000#32) reducesTo_S8192x4096_S4096_d0 h_S_

/-- The column means: the column sums divided by 8192. -/
def meanV (x : FVec F S8192x4096 .f32) : FVec F S4096 .f32 := Host.divf (colSumV (actV x)) (splatC 0x46000000#32)

/-- The array minus its column means. -/
def cenV (x : FVec F S8192x4096 .f32) : FVec F S8192x4096 .f32 := subf (actV x) (rowB (meanV x))

/-- The column variances: the column sums of the squared deviations divided by 8192. -/
def varV (x : FVec F S8192x4096 .f32) : FVec F S4096 .f32 :=
  Host.divf (colSumV (mulf (cenV x) (cenV x))) (splatC 0x46000000#32)

/-- The reciprocal square root of the variance plus the offset. -/
def invV (x : FVec F S8192x4096 .f32) : FVec F S4096 .f32 := Host.rsqrt (addf (varV x) (splatC 0x3F4CCCCD#32))

/-- The centred array scaled by that, by `γ`, and shifted by `β`. -/
def normV (x : FVec F S8192x4096 .f32) (γ β : FVec F S4096 .f32) : FVec F S8192x4096 .f32 :=
  addf (mulf (mulf (cenV x) (rowB (invV x))) (rowB γ)) (rowB β)

/-- THE REFERENCE'S RESULT as a function of its arguments: the normalised array contracted over the channel axis with
    the weight's second axis, plus the bias along the rows. -/
def refTerm (x : FVec F S8192x4096 .f32) (γ β : FVec F S4096 .f32) (W : FVec F S4096x4096 .f32) (bias : FVec F S4096 .f32) :
    FVec F S8192x4096 .f32 :=
  addf (Host.dotGeneral dot_S8192x4096_S4096x4096_S8192x4096_1_1_0_0_n_n none (normV x γ β) W) (rowB bias)

/-! ## The program as a list of operations -/

/-- The program's 41 operations, in order; the three of the clipping function stand at its call, over that call's
    buffers. -/
abbrev ops : List (HloOp τ sig (Elt F)) :=
  [ nullary main_cst (fun i => FloatOps.ofBits .f32 (lit0 (S4096.rowMajor i))),
    unary main_cst main_v0 (broadcastInDim S1x4096 ![1] bcast_S4096_S1x4096_1 : (⟨S4096, .f32⟩ : BufTy).Contents (Elt F) → (⟨S1x4096, .f32⟩ : BufTy).Contents (Elt F)),
    unary main_v0 main_v1 (broadcastInDim S8192x4096 ![0, 1] bcast_S1x4096_S8192x4096_0_1 : (⟨S1x4096, .f32⟩ : BufTy).Contents (Elt F) → (⟨S8192x4096, .f32⟩ : BufTy).Contents (Elt F)),
    binary main_arg0 main_v1 main_v2 (addf : (⟨S8192x4096, .f32⟩ : BufTy).Contents (Elt F) → (⟨S8192x4096, .f32⟩ : BufTy).Contents (Elt F) → (⟨S8192x4096, .f32⟩ : BufTy).Contents (Elt F)),
    TRef.nullary main_call0.cst (constant S_ .f32 0x00000000#32),
    TRef.unary main_call0.cst main_call0.v0 (broadcastInDim S8192x4096 ![] bcast_S_S8192x4096),
    TRef.binary (.of main_v2) main_call0.v0 main_call0.v1 maximumf,
    nullary main_cst_0 (constant S_ .f32 0x00000000#32),
    binary main_v3 main_cst_0 main_v4 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    nullary main_cst_1 (constant S_ .f32 0x46000000#32),
    unary main_cst_1 main_v5 (broadcastInDim S4096 ![] bcast_S_S4096 : (⟨S_, .f32⟩ : BufTy).Contents (Elt F) → (⟨S4096, .f32⟩ : BufTy).Contents (Elt F)),
    binary main_v4 main_v5 main_v6 (Host.divf : (⟨S4096, .f32⟩ : BufTy).Contents (Elt F) → (⟨S4096, .f32⟩ : BufTy).Contents (Elt F) → (⟨S4096, .f32⟩ : BufTy).Contents (Elt F)),
    unary main_v6 main_v7 (broadcastInDim S1x4096 ![1] bcast_S4096_S1x4096_1 : (⟨S4096, .f32⟩ : BufTy).Contents (Elt F) → (⟨S1x4096, .f32⟩ : BufTy).Contents (Elt F)),
    unary main_v7 main_v8 (broadcastInDim S8192x4096 ![0, 1] bcast_S1x4096_S8192x4096_0_1 : (⟨S1x4096, .f32⟩ : BufTy).Contents (Elt F) → (⟨S8192x4096, .f32⟩ : BufTy).Contents (Elt F)),
    binary main_v3 main_v8 main_v9 (subf : (⟨S8192x4096, .f32⟩ : BufTy).Contents (Elt F) → (⟨S8192x4096, .f32⟩ : BufTy).Contents (Elt F) → (⟨S8192x4096, .f32⟩ : BufTy).Contents (Elt F)),
    binary main_v9 main_v9 main_v10 (mulf : (⟨S8192x4096, .f32⟩ : BufTy).Contents (Elt F) → (⟨S8192x4096, .f32⟩ : BufTy).Contents (Elt F) → (⟨S8192x4096, .f32⟩ : BufTy).Contents (Elt F)),
    nullary main_cst_2 (constant S_ .f32 0x00000000#32),
    binary main_v10 main_cst_2 main_v11 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    nullary main_cst_3 (constant S_ .f32 0x46000000#32),
    unary main_cst_3 main_v12 (broadcastInDim S4096 ![] bcast_S_S4096 : (⟨S_, .f32⟩ : BufTy).Contents (Elt F) → (⟨S4096, .f32⟩ : BufTy).Contents (Elt F)),
    binary main_v11 main_v12 main_v13 (Host.divf : (⟨S4096, .f32⟩ : BufTy).Contents (Elt F) → (⟨S4096, .f32⟩ : BufTy).Contents (Elt F) → (⟨S4096, .f32⟩ : BufTy).Contents (Elt F)),
    unary main_v6 main_v14 (broadcastInDim S1x4096 ![1] bcast_S4096_S1x4096_1 : (⟨S4096, .f32⟩ : BufTy).Contents (Elt F) → (⟨S1x4096, .f32⟩ : BufTy).Contents (Elt F)),
    unary main_v14 main_v15 (broadcastInDim S8192x4096 ![0, 1] bcast_S1x4096_S8192x4096_0_1 : (⟨S1x4096, .f32⟩ : BufTy).Contents (Elt F) → (⟨S8192x4096, .f32⟩ : BufTy).Contents (Elt F)),
    binary main_v3 main_v15 main_v16 (subf : (⟨S8192x4096, .f32⟩ : BufTy).Contents (Elt F) → (⟨S8192x4096, .f32⟩ : BufTy).Contents (Elt F) → (⟨S8192x4096, .f32⟩ : BufTy).Contents (Elt F)),
    nullary main_cst_4 (constant S_ .f32 0x3F4CCCCD#32),
    unary main_cst_4 main_v17 (broadcastInDim S4096 ![] bcast_S_S4096 : (⟨S_, .f32⟩ : BufTy).Contents (Elt F) → (⟨S4096, .f32⟩ : BufTy).Contents (Elt F)),
    binary main_v13 main_v17 main_v18 (addf : (⟨S4096, .f32⟩ : BufTy).Contents (Elt F) → (⟨S4096, .f32⟩ : BufTy).Contents (Elt F) → (⟨S4096, .f32⟩ : BufTy).Contents (Elt F)),
    unary main_v18 main_v19 (Host.rsqrt : (⟨S4096, .f32⟩ : BufTy).Contents (Elt F) → (⟨S4096, .f32⟩ : BufTy).Contents (Elt F)),
    unary main_v19 main_v20 (broadcastInDim S1x4096 ![1] bcast_S4096_S1x4096_1 : (⟨S4096, .f32⟩ : BufTy).Contents (Elt F) → (⟨S1x4096, .f32⟩ : BufTy).Contents (Elt F)),
    unary main_v20 main_v21 (broadcastInDim S8192x4096 ![0, 1] bcast_S1x4096_S8192x4096_0_1 : (⟨S1x4096, .f32⟩ : BufTy).Contents (Elt F) → (⟨S8192x4096, .f32⟩ : BufTy).Contents (Elt F)),
    binary main_v16 main_v21 main_v22 (mulf : (⟨S8192x4096, .f32⟩ : BufTy).Contents (Elt F) → (⟨S8192x4096, .f32⟩ : BufTy).Contents (Elt F) → (⟨S8192x4096, .f32⟩ : BufTy).Contents (Elt F)),
    unary main_arg1 main_v23 (broadcastInDim S1x4096 ![1] bcast_S4096_S1x4096_1 : (⟨S4096, .f32⟩ : BufTy).Contents (Elt F) → (⟨S1x4096, .f32⟩ : BufTy).Contents (Elt F)),
    unary main_v23 main_v24 (broadcastInDim S8192x4096 ![0, 1] bcast_S1x4096_S8192x4096_0_1 : (⟨S1x4096, .f32⟩ : BufTy).Contents (Elt F) → (⟨S8192x4096, .f32⟩ : BufTy).Contents (Elt F)),
    binary main_v22 main_v24 main_v25 (mulf : (⟨S8192x4096, .f32⟩ : BufTy).Contents (Elt F) → (⟨S8192x4096, .f32⟩ : BufTy).Contents (Elt F) → (⟨S8192x4096, .f32⟩ : BufTy).Contents (Elt F)),
    unary main_arg2 main_v26 (broadcastInDim S1x4096 ![1] bcast_S4096_S1x4096_1 : (⟨S4096, .f32⟩ : BufTy).Contents (Elt F) → (⟨S1x4096, .f32⟩ : BufTy).Contents (Elt F)),
    unary main_v26 main_v27 (broadcastInDim S8192x4096 ![0, 1] bcast_S1x4096_S8192x4096_0_1 : (⟨S1x4096, .f32⟩ : BufTy).Contents (Elt F) → (⟨S8192x4096, .f32⟩ : BufTy).Contents (Elt F)),
    binary main_v25 main_v27 main_v28 (addf : (⟨S8192x4096, .f32⟩ : BufTy).Contents (Elt F) → (⟨S8192x4096, .f32⟩ : BufTy).Contents (Elt F) → (⟨S8192x4096, .f32⟩ : BufTy).Contents (Elt F)),
    binary main_v28 main_arg3 main_v29 ((fun l r => Host.dotGeneral dot_S8192x4096_S4096x4096_S8192x4096_1_1_0_0_n_n none l r) : (⟨S8192x4096, .f32⟩ : BufTy).Contents (Elt F) → (⟨S4096x4096, .f32⟩ : BufTy).Contents (Elt F) → (⟨S8192x4096, .f32⟩ : BufTy).Contents (Elt F)),
    unary main_arg4 main_v30 (broadcastInDim S1x4096 ![1] bcast_S4096_S1x4096_1 : (⟨S4096, .f32⟩ : BufTy).Contents (Elt F) → (⟨S1x4096, .f32⟩ : BufTy).Contents (Elt F)),
    unary main_v30 main_v31 (broadcastInDim S8192x4096 ![0, 1] bcast_S1x4096_S8192x4096_0_1 : (⟨S1x4096, .f32⟩ : BufTy).Contents (Elt F) → (⟨S8192x4096, .f32⟩ : BufTy).Contents (Elt F)),
    binary main_v29 main_v31 main_v32 (addf : (⟨S8192x4096, .f32⟩ : BufTy).Contents (Elt F) → (⟨S8192x4096, .f32⟩ : BufTy).Contents (Elt F) → (⟨S8192x4096, .f32⟩ : BufTy).Contents (Elt F)) ]

set_option maxRecDepth 1024 in
/-- The program is that straight line: the clipping function's body unfolded at its call, both sides are one chain of
    steps once sequencing is reassociated. -/
theorem main_eq (c : Dev nD) : main (F := F) c = seq ops := by
  simp only [main, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., binary_bufs_sub .., nullary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., binary_bufs_sub .., nullary_bufs_sub .., binary_bufs_sub ..,
    nullary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., binary_bufs_sub ..⟩

/-- From any memory with zero counters every weakly fair execution of the program terminates, and every final state has
    each buffer at the operations' fold over the initial contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result and at the arguments -/

attribute [local irreducible] Host.reduceAdd in
set_option maxRecDepth 8192 in
/-- The fold at the result buffer is `refTerm` of the arguments: each operation read at its own result buffer is its
    function of its operands, at any other buffer what was there; what is left is the stages' definitions unfolded. -/
theorem out_eq (V : Valuation τ sig (Elt F)) :
    after ops V (main_v32 : DevRef τ sig)
      = refTerm (V (main_arg0 : DevRef τ sig)) (V (main_arg1 : DevRef τ sig)) (V (main_arg2 : DevRef τ sig))
          (V (main_arg3 : DevRef τ sig)) (V (main_arg4 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-! ## The run -/

/-- On every device, for any float values, from any memory with zero counters: every weakly fair execution of the
    program terminates with its result at `refTerm` of the arguments' initial contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v32).trans (out_eq _), (h c main_arg0).trans (arg0_eq _), (h c main_arg1).trans (arg1_eq _),
       (h c main_arg2).trans (arg2_eq _), (h c main_arg3).trans (arg3_eq _), (h c main_arg4).trans (arg4_eq _)⟩)
    (run_main m ρ)

end Cert.ReferenceIdeal.RefRun

end
-- ==== Proof.Spec.lean ====
/-
  The function both programs compute, on the extended reals, index by index, for an input `x : [8192, 4096]`, a fixed
  per-channel offset `n : [4096]`, per-channel `γ β : [4096]`, a weight `W : [4096, 4096]` and a bias `[4096]`:

    a b c   = max (x b c + n c) 0                                    (offset, then clipped below at zero)
    μ c     = (∑ b, a b c) / 8192                                    (the column's mean over the 8192 rows)
    v c     = (∑ b, (a b c - μ c)²) / 8192                           (its biased variance)
    y b c   = (a b c - μ c) · (v c + 0.8)^(-1/2) · γ c + β c         (the column normalised, scaled and shifted)
    out b o = (∑ c, y b c · W o c) + bias o                          (a dense layer over the channels)

  and the second arrangement of the same function: the variance as the mean of squares minus the squared mean, and the
  normalisation folded into one scale and one shift per column,

    v' c    = (∑ b, (a b c)²) / 8192 - μ c · μ c
    s c     = γ c · (v' c + 0.8)^(-1/2)
    y' b c  = a b c · s c + (β c - μ c · s c).

  The two agree when every entry is a real number (Law.lean). The float literals stay the words the programs print.
-/
import Idealize.ShloMosaic.PureOps.Ideal
import Idealize.ShloMosaic.Lib.ValueIdx

noncomputable section

open scoped BigOperators
open Idealize.ShloMosaic Idealize.ShloMosaic.ValueIdx

namespace Cert.NormLinear

/-- The shapes: the input and the result `[8192, 4096]`, a per-channel vector `[4096]`, the weight `[4096, 4096]`. -/
abbrev SX : Shape := ⟨2, ![8192, 4096]⟩
abbrev SC : Shape := ⟨1, ![4096]⟩
abbrev SW : Shape := ⟨2, ![4096, 4096]⟩

/-- The number of rows as the float both programs divide by (8192.0), the variance's offset (0.8 rounded to f32),
    and the zero the clipping compares with. -/
abbrev rowsF : EReal := Ideal.ofBits .f32 0x46000000#32
abbrev epsF : EReal := Ideal.ofBits .f32 0x3F4CCCCD#32
abbrev zeroF : EReal := Ideal.ofBits .f32 0x00000000#32

/-- Every entry of an array is a real number (neither infinity). -/
def AllReal {s : Shape} (v : FVec Ideal s .f32) : Prop := ∀ i : s.Idx, ∃ r : ℝ, v i = (r : EReal)

variable (x : FVec Ideal SX .f32) (n γ β : FVec Ideal SC .f32) (W : FVec Ideal SW .f32) (bias : FVec Ideal SC .f32)

/-- The offset input clipped below at zero. -/
def act (b : Fin 8192) (c : Fin 4096) : EReal := max (x (ix2 b c) + n (ix1 c)) zeroF

/-- A column's sum over the rows, and its sum of squares. -/
def colSum (c : Fin 4096) : EReal := ∑ b : Fin 8192, act x n b c
def colSumSq (c : Fin 4096) : EReal := ∑ b : Fin 8192, act x n b c * act x n b c

/-- A column's mean. -/
def mean (c : Fin 4096) : EReal := Ideal.div (colSum x n c) rowsF

/-- A column's biased variance, as the mean squared deviation. -/
def var (c : Fin 4096) : EReal :=
  Ideal.div (∑ b : Fin 8192, (act x n b c - mean x n c) * (act x n b c - mean x n c)) rowsF

/-- The normalised, scaled and shifted entry. -/
def normed (b : Fin 8192) (c : Fin 4096) : EReal :=
  (act x n b c - mean x n c) * Ideal.rsqrt (var x n c + epsF) * γ (ix1 c) + β (ix1 c)

/-- THE RESULT: the dense layer over the normalised channels. -/
def out : FVec Ideal SX .f32 := fun i =>
  (∑ c : Fin 4096, normed x n γ β (i 0) c * W (ix2 (i 1) c)) + bias (ix1 (i 1))

/-! ## The second arrangement -/

/-- The variance as the mean of squares minus the squared mean. -/
def var' (c : Fin 4096) : EReal := Ideal.div (colSumSq x n c) rowsF - mean x n c * mean x n c

/-- One scale and one shift per column. -/
def scale (c : Fin 4096) : EReal := γ (ix1 c) * Ideal.rsqrt (var' x n c + epsF)
def shift (c : Fin 4096) : EReal := β (ix1 c) - mean x n c * scale x n γ c

/-- The entry through the folded scale and shift. -/
def normed' (b : Fin 8192) (c : Fin 4096) : EReal := act x n b c * scale x n γ c + shift x n γ β c

/-- The result through the second arrangement. -/
def out' : FVec Ideal SX .f32 := fun i =>
  (∑ c : Fin 4096, normed' x n γ β (i 0) c * W (ix2 (i 1) c)) + bias (ix1 (i 1))

end Cert.NormLinear

end
-- ==== Proof.RefValue.lean ====
/-
  The reference's composed term is the specification.

  Each stage of the reference's term (RefRun.lean) is read at an index: a per-channel vector repeated along the rows
  reads the vector at the channel; a literal spread over an array reads the literal; a column sum from zero is the sum
  over the rows; the quotient, difference, product and reciprocal square root are taken entry by entry; the contraction
  of the channel axis at row `b`, output channel `o` is the sum over the channels `c` of the normalised entry at `(b, c)`
  times the weight at `(o, c)`. Put together, entry `(b, o)` of the reference's result is the specification's
  `out` at `(b, o)` — the first arrangement, with the variance as the mean squared deviation.
-/
import proofs.«125394_j81389630259917_1_alg».proof.Proof.RefRun
import proofs.«125394_j81389630259917_1_alg».proof.Proof.Spec
import Idealize.ShloMosaic.Lib.IdealHost
import Idealize.ShloMosaic.Lib.KernelVsHost
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.ValueIdx
open Idealize.ShloMosaic.TcCoe Idealize.SL.Sem
open scoped BigOperators

/-- The fixed per-channel vector of the specification: entry `i` is the float whose word is the `i`-th of the table. -/
def noise : FVec Ideal Cert.NormLinear.SC .f32 := fun i => Ideal.ofBits .f32 (Cert.ReferenceIdeal.lit0 (S4096.rowMajor i))

/-! ## Each stage read at an index -/

/-- A per-channel vector repeated along the rows, read at row `b`, channel `c`, is the vector at `c`. -/
theorem rowB_apply (v : FVec Ideal S4096 .f32) (b : Fin 8192) (c : Fin 4096) : rowB (F := Ideal) v (ix2 b c) = v (ix1 c) := by
  unfold rowB
  rw [broadcastInDim_oneRow_apply]
  refine broadcastInDim_apply ![1] _ v (ix2 (0 : Fin 1) c) (ix1 c) ?_
  intro a
  fin_cases a
  show c.val = if (4096 : ℕ) = 1 then 0 else c.val
  simp

/-- A literal as a per-channel vector reads the literal. -/
theorem splatC_apply (w : BitVec 32) (c : Fin 4096) : splatC (F := Ideal) w (ix1 c) = Ideal.ofBits .f32 w := by
  unfold splatC
  rw [broadcastInDim_scalar_apply]
  rfl

/-- The clipped sum at an index. -/
theorem actV_apply (x : FVec Ideal S8192x4096 .f32) (b : Fin 8192) (c : Fin 4096) :
    actV (F := Ideal) x (ix2 b c) = Cert.NormLinear.act x noise b c := by
  unfold actV
  rw [maximumf_apply, addf_apply, rowB_apply, broadcastInDim_scalar_apply]
  rfl

/-- The column sums from zero are the sums over the rows. -/
theorem colSumV_apply (a : FVec Ideal S8192x4096 .f32) (c : Fin 4096) :
    colSumV (F := Ideal) a (ix1 c) = ∑ b : Fin 8192, a (ix2 b c) := by
  unfold colSumV
  rw [hostReduceAdd_apply,
    Ideal.hostReduceAdd_single reducesTo_S8192x4096_S4096_d0 (by decide : S8192x4096.Reduces [0] S4096)]
  show Ideal.ofBits .f32 0x00000000#32 + _ = _
  rw [Ideal.ofBits_zero_f32, zero_add]
  refine Finset.sum_congr rfl fun k _ => congrArg a (funext fun ax => Fin.ext ?_)
  match ax with
  | ⟨0, _⟩ => rfl
  | ⟨1, _⟩ => rfl

/-- The column means. -/
theorem meanV_apply (x : FVec Ideal S8192x4096 .f32) (c : Fin 4096) :
    meanV (F := Ideal) x (ix1 c) = Cert.NormLinear.mean x noise c := by
  unfold meanV
  rw [hostDivf_apply, colSumV_apply, splatC_apply]
  simp only [actV_apply]
  rfl

/-- The centred array. -/
theorem cenV_apply (x : FVec Ideal S8192x4096 .f32) (b : Fin 8192) (c : Fin 4096) :
    cenV (F := Ideal) x (ix2 b c) = Cert.NormLinear.act x noise b c - Cert.NormLinear.mean x noise c := by
  unfold cenV
  rw [subf_apply, rowB_apply, actV_apply, meanV_apply]

/-- The column variances. -/
theorem varV_apply (x : FVec Ideal S8192x4096 .f32) (c : Fin 4096) :
    varV (F := Ideal) x (ix1 c) = Cert.NormLinear.var x noise c := by
  unfold varV
  rw [hostDivf_apply, colSumV_apply, splatC_apply]
  simp only [mulf_apply, cenV_apply]
  rfl

/-- The reciprocal square root of the variance plus the offset. -/
theorem invV_apply (x : FVec Ideal S8192x4096 .f32) (c : Fin 4096) :
    invV (F := Ideal) x (ix1 c) = Ideal.rsqrt (Cert.NormLinear.var x noise c + Cert.NormLinear.epsF) := by
  unfold invV
  show Ideal.rsqrt (addf (varV (F := Ideal) x) (splatC (F := Ideal) 0x3F4CCCCD#32) (ix1 c)) = _
  rw [addf_apply, varV_apply, splatC_apply]

/-- The normalised, scaled and shifted array. -/
theorem normV_apply (x : FVec Ideal S8192x4096 .f32) (γ β : FVec Ideal S4096 .f32) (b : Fin 8192) (c : Fin 4096) :
    normV (F := Ideal) x γ β (ix2 b c) = Cert.NormLinear.normed x noise γ β b c := by
  unfold normV
  rw [addf_apply, mulf_apply, mulf_apply, cenV_apply, rowB_apply, rowB_apply, rowB_apply, invV_apply]
  rfl

/-! ## The contraction at an index -/

/-- The contraction of the channel axis of a `[8192, 4096]` array with the second axis of a `[4096, 4096]` one, at row
    `b` and output channel `o`, is the sum over the channels of the products of the entries. -/
theorem dot_apply (A : FVec Ideal S8192x4096 .f32) (W : FVec Ideal S4096x4096 .f32) (b : Fin 8192) (o : Fin 4096) :
    Host.dotGeneral (F := Ideal) dot_S8192x4096_S4096x4096_S8192x4096_1_1_0_0_n_n none A W (ix2 b o)
      = ∑ c : Fin 4096, A (ix2 b c) * W (ix2 o c) := by
  show FloatOps.dotGeneral _ none _ A W (ix2 b o) = _
  rw [Ideal.dotGeneral_apply,
    ← Equiv.sum_comp (contrEquiv1 dot_S8192x4096_S4096x4096_S8192x4096_1_1_0_0_n_n 4096 rfl rfl).symm]
  refine Finset.sum_congr rfl fun c _ => ?_
  have c2 := contrEquiv1_symm_val dot_S8192x4096_S4096x4096_S8192x4096_1_1_0_0_n_n 4096 rfl rfl c
  have l2 : dot_S8192x4096_S4096x4096_S8192x4096_1_1_0_0_n_n.lhsIdx (ix2 b o)
      ((contrEquiv1 dot_S8192x4096_S4096x4096_S8192x4096_1_1_0_0_n_n 4096 rfl rfl).symm c) = ix2 b c := by
    funext ax; apply Fin.ext
    match ax with
    | ⟨0, _⟩ => simp [DotDims.lhsIdx, dot_S8192x4096_S4096x4096_S8192x4096_1_1_0_0_n_n]; rfl
    | ⟨1, _⟩ => simp [DotDims.lhsIdx, dot_S8192x4096_S4096x4096_S8192x4096_1_1_0_0_n_n]; exact c2
  have r2 : dot_S8192x4096_S4096x4096_S8192x4096_1_1_0_0_n_n.rhsIdx (ix2 b o)
      ((contrEquiv1 dot_S8192x4096_S4096x4096_S8192x4096_1_1_0_0_n_n 4096 rfl rfl).symm c) = ix2 o c := by
    funext ax; apply Fin.ext
    match ax with
    | ⟨0, _⟩ => simp [DotDims.rhsIdx, dot_S8192x4096_S4096x4096_S8192x4096_1_1_0_0_n_n]; rfl
    | ⟨1, _⟩ => simp [DotDims.rhsIdx, dot_S8192x4096_S4096x4096_S8192x4096_1_1_0_0_n_n]; exact c2
  rw [l2, r2]

/-! ## The reference's term is the specification -/

/-- At every index the reference's composed term is the specification's result. -/
theorem refTerm_eq (x : FVec Ideal S8192x4096 .f32) (γ β : FVec Ideal S4096 .f32) (W : FVec Ideal S4096x4096 .f32)
    (bias : FVec Ideal S4096 .f32) :
    refTerm (F := Ideal) x γ β W bias = Cert.NormLinear.out x noise γ β W bias := by
  funext i
  obtain ⟨b, o, rfl⟩ : ∃ (b : Fin 8192) (o : Fin 4096), i = ix2 b o := ⟨i 0, i 1, eq_ix2 i⟩
  unfold refTerm
  rw [addf_apply, rowB_apply, dot_apply]
  simp only [normV_apply]
  rfl

/-! ## The run, stated through the specification -/

/-- Every weakly fair execution of the reference terminates with its result at the specification's `out` of the
    arguments' initial contents, and the arguments unchanged. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32)
          = Cert.NormLinear.out (m ((c.tc : Thread nD τ).loc main_arg0)) noise (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => ⟨(h c).1.trans (refTerm_eq _ _ _ _ _), (h c).2⟩)
    (RefRun.run (F := Ideal) m ρ)

end Cert.ReferenceIdeal.RefValue

end
-- ==== Proof.Finite.lean ====
/-
  Where the law's hypotheses come from: every entry the two arrangements read is a real number.

  The per-channel offset is a table of 4096 literal f32 words. An f32 word has a sign bit, eight exponent bits and 23
  fraction bits; it denotes an infinity or no number at all exactly when the exponent field is all ones (255), and
  otherwise the real ±f·2^(-149) (exponent field 0) or ±(2^23 + f)·2^(E - 150). So it is enough that no word of the
  table has exponent field 255, which is a finite check over the 4096 entries. The same check, entry by entry, shows
  that the two programs print one and the same table.

  The other arrays are arguments, and what is assumed of them is that, for each, the conjunction over all its entries of
  |v| < +∞ holds. Such a conjunction that comes out true met only true conjuncts, so |v| < +∞ at every index, and an
  extended real whose absolute value max v (-v) is below +∞ is neither infinity: it is a real.
-/
import proofs.«125394_j81389630259917_1_alg».proof.KernelIdeal
import proofs.«125394_j81389630259917_1_alg».proof.ReferenceIdeal
import proofs.«125394_j81389630259917_1_alg».proof.Proof.Gen.Pre_finite_inputs
import proofs.«125394_j81389630259917_1_alg».proof.Proof.Spec
import Idealize.ShloMosaic.Lib.ReduceAll
import Idealize.ShloMosaic.Lib.IdealHost

noncomputable section

open Idealize.ShloMosaic Idealize.ShloMosaic.ValueIdx

namespace Cert.NormLinear

/-! ## A word that denotes a real -/

/-- An f32 word whose exponent field is not all ones denotes a real number. -/
theorem ofBits_real (w : BitVec 32) (h : (w.extractLsb' 23 8).toNat ≠ 255) :
    ∃ r : ℝ, Ideal.ofBits .f32 w = ((r : ℝ) : EReal) := by
  have h' : ¬ ((w.extractLsb' 23 8).toNat = 2 ^ 8 - 1) := fun e => h (e.trans (by norm_num))
  show ∃ r : ℝ, Ideal.ieee 8 23 w = ((r : ℝ) : EReal)
  unfold Ideal.ieee
  dsimp only
  split_ifs <;> first | exact ⟨_, rfl⟩ | exact absurd ‹_› h'

/-! ## The table of offsets -/

set_option maxRecDepth 100000 in
/-- No word of the table has an all-ones exponent field. -/
theorem lit0_exponent : ∀ i : Fin 4096, ((Cert.KernelIdeal.lit0 i).extractLsb' 23 8).toNat ≠ 255 := by
  decide +kernel

set_option maxRecDepth 100000 in
/-- The two programs print the same table. -/
theorem lit0_eq : ∀ i : Fin 4096, Cert.KernelIdeal.lit0 i = Cert.ReferenceIdeal.lit0 i := by
  decide +kernel

/-- Hence no word of the reference's table has an all-ones exponent field either. -/
theorem lit0_exponent_ref : ∀ i : Fin 4096, ((Cert.ReferenceIdeal.lit0 i).extractLsb' 23 8).toNat ≠ 255 :=
  fun i => lit0_eq i ▸ lit0_exponent i

/-- Every offset the kernel reads is a real number. -/
theorem noise_allReal :
    AllReal (s := Cert.KernelIdeal.S4096)
      (fun i => Ideal.ofBits .f32 (Cert.KernelIdeal.lit0 (Cert.KernelIdeal.S4096.rowMajor i))) :=
  fun _ => ofBits_real _ (lit0_exponent _)

/-- Every offset the reference reads is a real number. -/
theorem noise_allReal_ref :
    AllReal (s := Cert.ReferenceIdeal.S4096)
      (fun i => Ideal.ofBits .f32 (Cert.ReferenceIdeal.lit0 (Cert.ReferenceIdeal.S4096.rowMajor i))) :=
  fun _ => ofBits_real _ (lit0_exponent_ref _)

/-! ## The arguments -/

/-- The word 0x7F800000 (exponent field all ones, empty fraction, sign bit clear) denotes +∞. -/
theorem inf_word : Ideal.ofBits .f32 0x7F800000#32 = (⊤ : EReal) := by
  simp [Ideal.ofBits, Ideal.ieee]

/-- An extended real whose absolute value max v (-v) is below +∞ is a real: at either infinity that maximum is +∞. -/
theorem real_of_abs_lt (v : EReal)
    (h : Ideal.cmp .olt (max v (-v)) (Ideal.ofBits .f32 0x7F800000#32) = 1#1) : ∃ r : ℝ, v = ((r : ℝ) : EReal) := by
  rw [inf_word] at h
  induction v using EReal.rec with
  | bot => simp [Ideal.cmp] at h
  | top => simp [Ideal.cmp] at h
  | coe r => exact ⟨r, rfl⟩

/-- The shape of a single truth value has one index. -/
instance subsingleton_scalar_idx : Subsingleton Cert.Pre_finite_inputs.S_.Idx := ⟨fun a b => funext fun d => d.elim0⟩

open Cert.Pre_finite_inputs in
/-- One conjunct of what is assumed: if the conjunction over all entries of |v| < +∞ is true, every entry is a real. -/
theorem allReal_of_all {s : Shape} {axes : List (Fin s.rank)} (v : FVec Ideal s .f32)
    (hb : S_.BroadcastsInDim s (![] : Fin 0 → Fin s.rank)) (hr : s.ReducesTo axes S_) (hu : 0 < S_.numel)
    (e : Host.reduce IntOp.andi
          (cmpf .olt (Host.absf v) (broadcastInDim s ![] hb (constant (F := Ideal) S_ .f32 0x7F800000#32)))
          (constantI S_ 1 1#1) hr hu ix0 = 1#1) :
    AllReal v := by
  intro i
  have hi := Host.reduce_andi_all _ _ hr hu ix0 e i
  rw [cmpf_apply, broadcastInDim_scalar_apply, constant_apply] at hi
  exact real_of_abs_lt (v i) hi

/-- What is assumed is the conjunction of the five conjuncts, one per argument; each gives that argument's entries. -/
theorem allReal_of_pre (x : FVec Ideal SX .f32) (γ β : FVec Ideal SC .f32) (W : FVec Ideal SW .f32)
    (bias : FVec Ideal SC .f32) (h : Cert.Pre_finite_inputs.fn (F := Ideal) x γ β W bias = fun _ => 1#1) :
    AllReal x ∧ AllReal γ ∧ AllReal β ∧ AllReal W ∧ AllReal bias := by
  have h0 := congrFun h ValueIdx.ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨allReal_of_all x _ _ _ h1, allReal_of_all γ _ _ _ h2, allReal_of_all β _ _ _ h3,
    allReal_of_all W _ _ _ h4, allReal_of_all bias _ _ _ h5⟩

end Cert.NormLinear

end
-- ==== Proof.KV1.lean ====
/- The value of region 1, the dense layer, on the ideal values (extended reals, every operation exact).

   The region multiplies the normalised activations by the transposed weights, one 256 × 1024 block of the
   8192 × 4096 result per grid point. Here the result array after the region is identified with ONE function of
   the six arrays the region reads, entry by entry:

     result (r, col) = Σ_k (max (x (r, k) + noise k) 0 · scale k + shift k) · W (col, k)  +  bias col,

   k over the 4096 channels. Three steps: the body's arithmetic read at an entry of the output block (the block
   product as a sum over k; the per-channel rows broadcast down the block; the change of float format the
   identity); each input block at a grid point read as a part of its array (the index maps, decided over the 128
   points); and the 128 written-back blocks together covering the result array. -/
import proofs.«125394_j81389630259917_1_alg».proof.Proof.K1Body
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's arithmetic at an index -/

/-- The product of a 256 × 4096 block with the TRANSPOSE of a 1024 × 4096 block (both operands contracted along
    their second axis), accumulated into zero: at row `p` and column `q` it is the sum over `k` of the products of
    the left block's entry (p, k) and the right block's entry (q, k). -/
theorem blockProduct_apply (A : FVec Ideal S256x4096 .bf16) (B : FVec Ideal S1024x4096 .bf16) (p : Fin 256) (q : Fin 1024) :
    matmul dot_S256x4096_S1024x4096_S256x1024_1_1_0_0_n_n none A B (constant (F := Ideal) S256x1024 .f32 0x00000000#32) (ix2 p q)
      = ∑ k : Fin 4096, A (ix2 p k) * B (ix2 q k) := by
  show FloatOps.matmul _ none A B _ (ix2 p q) = _
  rw [Ideal.matmul_constant_zero_apply,
    ← Equiv.sum_comp (contrEquiv1 dot_S256x4096_S1024x4096_S256x1024_1_1_0_0_n_n 4096 rfl rfl).symm]
  refine Finset.sum_congr rfl fun k _ => ?_
  have ck := contrEquiv1_symm_val dot_S256x4096_S1024x4096_S256x1024_1_1_0_0_n_n 4096 rfl rfl k
  have hl : dot_S256x4096_S1024x4096_S256x1024_1_1_0_0_n_n.lhsIdx (ix2 p q) ((contrEquiv1 _ 4096 rfl rfl).symm k) = ix2 p k := by
    funext ax; apply Fin.ext
    match ax with
    | ⟨0, _⟩ => simp [DotDims.lhsIdx, dot_S256x4096_S1024x4096_S256x1024_1_1_0_0_n_n]; rfl
    | ⟨1, _⟩ => simp [DotDims.lhsIdx, dot_S256x4096_S1024x4096_S256x1024_1_1_0_0_n_n]; exact ck
  have hr : dot_S256x4096_S1024x4096_S256x1024_1_1_0_0_n_n.rhsIdx (ix2 p q) ((contrEquiv1 _ 4096 rfl rfl).symm k) = ix2 q k := by
    funext ax; apply Fin.ext
    match ax with
    | ⟨0, _⟩ => simp [DotDims.rhsIdx, dot_S256x4096_S1024x4096_S256x1024_1_1_0_0_n_n]; rfl
    | ⟨1, _⟩ => simp [DotDims.rhsIdx, dot_S256x4096_S1024x4096_S256x1024_1_1_0_0_n_n]; exact ck
  rw [hl, hr]

/-- The body's payload at row `p` and column `q` of the output block: each entry (p, k) of the activations block has
    the noise added, is clipped at zero, scaled and shifted by channel `k`'s folded coefficients, and multiplied by
    entry (q, k) of the weight block; the products are summed over `k` and the bias of column `q` is added. The
    change of float format before the product is the identity on the ideal values. -/
theorem densePayload_apply (x0 : Vec Ideal S256x4096 .f32) (x1 x2 x3 : Vec Ideal S1x4096 .f32) (x4 : Vec Ideal S1024x4096 .bf16)
    (x5 : Vec Ideal S1x1024 .f32) (p : Fin 256) (q : Fin 1024) :
    k1_pay1 (F := Ideal) x0 x1 x2 x3 x4 x5 (ix2 p q)
      = (∑ k : Fin 4096, (max (x0 (ix2 p k) + x1 (ix2 (0 : Fin 1) k)) (Ideal.ofBits .f32 0x00000000#32) * x2 (ix2 (0 : Fin 1) k)
            + x3 (ix2 (0 : Fin 1) k)) * x4 (ix2 q k)) + x5 (ix2 (0 : Fin 1) q) := by
  unfold k1_pay1
  simp only [shapeCast_self]
  rw [addf_apply, blockProduct_apply, broadcastTo_1b_ab_apply]
  refine congrArg (· + x5 (ix2 (0 : Fin 1) q)) (Finset.sum_congr rfl fun k _ => ?_)
  rw [truncf_apply, addf_apply, mulf_apply, maximumf_apply, addf_apply, broadcast_apply,
    broadcastTo_1b_ab_apply, broadcastTo_1b_ab_apply, broadcastTo_1b_ab_apply]
  rfl

/-! ## The region's result as one function of its input arrays -/

/-- The dense layer on the whole arrays: entry (r, col) of the result is the sum over the channels `k` of
    (the activation (r, k) with the noise of channel `k` added, clipped at zero, times the folded scale of `k`, plus
    the folded shift of `k`) times the weight (col, k), plus the bias of column `col`. The weight matrix is used
    transposed: its rows are the output's columns. -/
def denseOut (x : FVec Ideal S8192x4096 .f32) (n s h : FVec Ideal S1x4096 .f32) (Wb : FVec Ideal S4096x4096 .bf16)
    (b2 : FVec Ideal S1x4096 .f32) : FVec Ideal S8192x4096 .f32 := fun i =>
  (∑ k : Fin 4096, (max (x (ix2 (i 0) k) + n (ix2 (0 : Fin 1) k)) (Ideal.ofBits .f32 0x00000000#32) * s (ix2 (0 : Fin 1) k)
      + h (ix2 (0 : Fin 1) k)) * Wb (ix2 (i 1) k)) + b2 (ix2 (0 : Fin 1) (i 1))

/-- The zero offsets of a whole-buffer access, as a constant function. -/
theorem dense_zeroOffsets : (![0, 0] : Fin 2 → Nat) = fun _ => 0 := funext fun a => by fin_cases a <;> rfl

/-! ## The index maps over the grid

The grid's 128 points are numbered row-block first: point `t` is row block `t / 4` and column block `t % 4`. -/

section Blocks
-- the contents of the TensorCore's buffers when the region is entered
variable (V : (c : Dev nD) → (b : Ref sig .tc) → Buf (Elt Ideal) ((c : Thread nD τ).loc b))

/-- The seven windows' block indices at point `t`, decided over the 128 points: the activations move with the row
    block, the weights and the bias with the column block, the three per-channel rows never, and the output with
    both. -/
theorem dense_index_facts : ∀ t : Fin cfg1.N,
    win1_0.index t (0 : Fin 2) = t.val / 4 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val % 4 ∧ win1_4.index t (1 : Fin 2) = 0
    ∧ win1_5.index t (0 : Fin 2) = 0 ∧ win1_5.index t (1 : Fin 2) = t.val % 4
    ∧ win1_6.index t (0 : Fin 2) = t.val / 4 ∧ win1_6.index t (1 : Fin 2) = t.val % 4 :=
  (by decide +kernel : ∀ t : Fin grid1.N, _)

/-! ## Each input block as a part of its array -/

/-- The activations' block at point `t` is rows `256 (t / 4) …` of the activations, all columns. -/
theorem actBlock_apply (c : Dev nD) (t : Fin cfg1.N) (x : S256x4096.Idx) (i : S8192x4096.Idx)
    (h0 : (i 0).val = 256 * (t.val / 4) + (x 0).val) (h1 : (i 1).val = (x 1).val) :
    (iblk1 V c 0 t : Vec Ideal S256x4096 .f32) x = (V c main_arg0 : S8192x4096.Idx → Elt Ideal .f32) i := by
  obtain ⟨a00, a01, a10, a11, a20, a21, a30, a31, a40, a41, a50, a51, a60, a61⟩ := dense_index_facts t
  unfold iblk1
  rw [View.read_apply]
  show V c main_arg0 _ = V c main_arg0 _
  congr 1
  funext a
  apply Fin.ext
  match a with
  | ⟨0, _⟩ => show win1_0.index t (0 : Fin 2) * 256 + 1 * (x 0).val = (i 0).val; rw [a00, h0]; omega
  | ⟨1, _⟩ => show win1_0.index t (1 : Fin 2) * 4096 + 1 * (x 1).val = (i 1).val; rw [a01, h1]; omega

/-- The noise row's block is the whole row at every point. -/
theorem noiseBlock_apply (c : Dev nD) (t : Fin cfg1.N) (x : S1x4096.Idx) :
    (iblk1 V c 1 t : Vec Ideal S1x4096 .f32) x = (V c main_v0 : S1x4096.Idx → Elt Ideal .f32) x := by
  obtain ⟨a00, a01, a10, a11, a20, a21, a30, a31, a40, a41, a50, a51, a60, a61⟩ := dense_index_facts t
  unfold iblk1
  rw [View.read_apply]
  show V c main_v0 _ = V c main_v0 _
  congr 1
  funext a
  apply Fin.ext
  match a with
  | ⟨0, _⟩ => show win1_1.index t (0 : Fin 2) * 1 + 1 * (x 0).val = (x 0).val; rw [a10]; omega
  | ⟨1, _⟩ => show win1_1.index t (1 : Fin 2) * 4096 + 1 * (x 1).val = (x 1).val; rw [a11]; omega

/-- The folded scale's block is the whole row at every point. -/
theorem scaleBlock_apply (c : Dev nD) (t : Fin cfg1.N) (x : S1x4096.Idx) :
    (iblk1 V c 2 t : Vec Ideal S1x4096 .f32) x = (V c main_v13 : S1x4096.Idx → Elt Ideal .f32) x := by
  obtain ⟨a00, a01, a10, a11, a20, a21, a30, a31, a40, a41, a50, a51, a60, a61⟩ := dense_index_facts t
  unfold iblk1
  rw [View.read_apply]
  show V c main_v13 _ = V c main_v13 _
  congr 1
  funext a
  apply Fin.ext
  match a with
  | ⟨0, _⟩ => show win1_2.index t (0 : Fin 2) * 1 + 1 * (x 0).val = (x 0).val; rw [a20]; omega
  | ⟨1, _⟩ => show win1_2.index t (1 : Fin 2) * 4096 + 1 * (x 1).val = (x 1).val; rw [a21]; omega

/-- The folded shift's block is the whole row at every point. -/
theorem shiftBlock_apply (c : Dev nD) (t : Fin cfg1.N) (x : S1x4096.Idx) :
    (iblk1 V c 3 t : Vec Ideal S1x4096 .f32) x = (V c main_v15 : S1x4096.Idx → Elt Ideal .f32) x := by
  obtain ⟨a00, a01, a10, a11, a20, a21, a30, a31, a40, a41, a50, a51, a60, a61⟩ := dense_index_facts t
  unfold iblk1
  rw [View.read_apply]
  show V c main_v15 _ = V c main_v15 _
  congr 1
  funext a
  apply Fin.ext
  match a with
  | ⟨0, _⟩ => show win1_3.index t (0 : Fin 2) * 1 + 1 * (x 0).val = (x 0).val; rw [a30]; omega
  | ⟨1, _⟩ => show win1_3.index t (1 : Fin 2) * 4096 + 1 * (x 1).val = (x 1).val; rw [a31]; omega

/-- The weights' block at point `t` is rows `1024 (t % 4) …` of the weight matrix, all columns. -/
theorem weightBlock_apply (c : Dev nD) (t : Fin cfg1.N) (x : S1024x4096.Idx) (i : S4096x4096.Idx)
    (h0 : (i 0).val = 1024 * (t.val % 4) + (x 0).val) (h1 : (i 1).val = (x 1).val) :
    (iblk1 V c 4 t : Vec Ideal S1024x4096 .bf16) x = (V c main_v16 : S4096x4096.Idx → Elt Ideal .bf16) i := by
  obtain ⟨a00, a01, a10, a11, a20, a21, a30, a31, a40, a41, a50, a51, a60, a61⟩ := dense_index_facts t
  unfold iblk1
  rw [View.read_apply]
  show V c main_v16 _ = V c main_v16 _
  congr 1
  funext a
  apply Fin.ext
  match a with
  | ⟨0, _⟩ => show win1_4.index t (0 : Fin 2) * 1024 + 1 * (x 0).val = (i 0).val; rw [a40, h0]; omega
  | ⟨1, _⟩ => show win1_4.index t (1 : Fin 2) * 4096 + 1 * (x 1).val = (i 1).val; rw [a41, h1]; omega

/-- The bias's block at point `t` is entries `1024 (t % 4) …` of the bias row. -/
theorem biasBlock_apply (c : Dev nD) (t : Fin cfg1.N) (x : S1x1024.Idx) (i : S1x4096.Idx)
    (h0 : (i 0).val = (x 0).val) (h1 : (i 1).val = 1024 * (t.val % 4) + (x 1).val) :
    (iblk1 V c 5 t : Vec Ideal S1x1024 .f32) x = (V c main_v17 : S1x4096.Idx → Elt Ideal .f32) i := by
  obtain ⟨a00, a01, a10, a11, a20, a21, a30, a31, a40, a41, a50, a51, a60, a61⟩ := dense_index_facts t
  unfold iblk1
  rw [View.read_apply]
  show V c main_v17 _ = V c main_v17 _
  congr 1
  funext a
  apply Fin.ext
  match a with
  | ⟨0, _⟩ => show win1_5.index t (0 : Fin 2) * 1 + 1 * (x 0).val = (i 0).val; rw [a50, h0]; omega
  | ⟨1, _⟩ => show win1_5.index t (1 : Fin 2) * 1024 + 1 * (x 1).val = (i 1).val; rw [a51, h1]; omega

/-! ## From the blocks to the array -/

/-- What point `t` writes back is block `t` of `denseOut` of the arrays as the region finds them: the output block
    (t / 4, t % 4) needs rows `256 (t / 4) …` of the activations and rows `1024 (t % 4) …` of the weights and the
    same entries of the bias, which are exactly the input blocks at `t`. -/
theorem dense_flushed_eq (c : Dev nD) (t : Fin cfg1.N) :
    (dat1 V c).flushed 6 t = ((cfg1.win 6).blk t).view.read (Elt Ideal) (denseOut (V c main_arg0) (V c main_v0) (V c main_v13) (V c main_v15) (V c main_v16) (V c main_v17)) := by
  show (cfg1.win 6).cut (grid1.coords t) ((dat1 V c).after 6 t) = _
  rw [after1_6]
  unfold out1_6
  rw [View.canon_unit_zero dense_zeroOffsets]
  simp only [View.ld_unit_zero (S := S256x4096) dense_zeroOffsets, View.ld_unit_zero (S := S1x4096) dense_zeroOffsets,
    View.ld_unit_zero (S := S1024x4096) dense_zeroOffsets, View.ld_unit_zero (S := S1x1024) dense_zeroOffsets]
  obtain ⟨a00, a01, a10, a11, a20, a21, a30, a31, a40, a41, a50, a51, a60, a61⟩ := dense_index_facts t
  funext j
  obtain ⟨p, q, rfl⟩ : ∃ (p : Fin 256) (q : Fin 1024), j = ix2 p q := ⟨j 0, j 1, eq_ix2 j⟩
  rw [View.read_apply]
  show k1_pay1 (F := Ideal) (iblk1 V c 0 t) (iblk1 V c 1 t) (iblk1 V c 2 t) (iblk1 V c 3 t) (iblk1 V c 4 t) (iblk1 V c 5 t) (ix2 p q) = denseOut (V c main_arg0) (V c main_v0) (V c main_v13) (V c main_v15) (V c main_v16) (V c main_v17) (((cfg1.win 6).blk t).view.emb (ix2 p q))
  have hr : ((((cfg1.win 6).blk t).view.emb (ix2 p q)) 0 : Fin 8192).val = 256 * (t.val / 4) + p.val := by
    show win1_6.index t (0 : Fin 2) * 256 + 1 * p.val = _; rw [a60]; omega
  have hc : ((((cfg1.win 6).blk t).view.emb (ix2 p q)) 1 : Fin 4096).val = 1024 * (t.val % 4) + q.val := by
    show win1_6.index t (1 : Fin 2) * 1024 + 1 * q.val = _; rw [a61]; omega
  refine (densePayload_apply (iblk1 V c 0 t) (iblk1 V c 1 t) (iblk1 V c 2 t) (iblk1 V c 3 t) (iblk1 V c 4 t) (iblk1 V c 5 t) p q).trans ?_
  unfold denseOut
  refine congrArg₂ (· + ·) (Finset.sum_congr rfl fun k _ => ?_) ?_
  · rw [actBlock_apply V c t (ix2 p k) (ix2 ((((cfg1.win 6).blk t).view.emb (ix2 p q)) 0) k) hr rfl,
      noiseBlock_apply V c t, scaleBlock_apply V c t, shiftBlock_apply V c t,
      weightBlock_apply V c t (ix2 q k) (ix2 ((((cfg1.win 6).blk t).view.emb (ix2 p q)) 1) k) hc rfl]
  · exact biasBlock_apply V c t (ix2 (0 : Fin 1) q) (ix2 (0 : Fin 1) ((((cfg1.win 6).blk t).view.emb (ix2 p q)) 1)) rfl hc

/-- An index of the output array is in point `t`'s block iff, on each axis, it lies in the block's range. -/
theorem mem_denseBlock (t : Fin cfg1.N) (i : S8192x4096.Idx) :
    i ∈ ((cfg1.win 6).blk t).view.set ↔ ∀ a : Fin 2, win1_6.index t a * S256x1024.size a ≤ (i a).val
      ∧ (i a).val < win1_6.index t a * S256x1024.size a + S256x1024.size a := by
  show i ∈ ((View.whole main_v18).slice (win1_6.rect t)).set ↔ _
  rw [View.set_slice_whole, Rect.mem_set_unit]
  exact Iff.rfl

/-- THE REGION'S RESULT: the output array ends holding `denseOut` of the six input arrays as the region finds them.
    Every point writes its block back, and entry (r, col) lies in the block of point `4 (r / 256) + col / 1024`, so
    the 128 blocks cover the array. -/
theorem final1 (c : Dev nD) : (dat1 V c).arrAt 6 cfg1.N = denseOut (V c main_arg0) (V c main_v0) (V c main_v13) (V c main_v15) (V c main_v16) (V c main_v17) :=
  (dat1 V c).arrAt_eq_of_cover 6 (denseOut (V c main_arg0) (V c main_v0) (V c main_v13) (V c main_v15) (V c main_v16) (V c main_v17)) (fun t _ => dense_flushed_eq V c t) fun i => by
    have h0 : ((i : S8192x4096.Idx) 0).val < 8192 := idx2_lt0 (i : S8192x4096.Idx)
    have h1 : ((i : S8192x4096.Idx) 1).val < 4096 := idx2_lt1 (i : S8192x4096.Idx)
    have hN : cfg1.N = 128 := N_1
    let t : Fin cfg1.N := ⟨4 * (((i : S8192x4096.Idx) 0).val / 256) + ((i : S8192x4096.Idx) 1).val / 1024, by rw [hN]; omega⟩
    have hv : t.val = 4 * (((i : S8192x4096.Idx) 0).val / 256) + ((i : S8192x4096.Idx) 1).val / 1024 := rfl
    obtain ⟨a00, a01, a10, a11, a20, a21, a30, a31, a40, a41, a50, a51, a60, a61⟩ := dense_index_facts t
    refine ⟨t, flush1_6 t, ?_⟩
    rw [mem_denseBlock]
    intro a
    match a with
    | ⟨0, _⟩ =>
      show win1_6.index t (0 : Fin 2) * 256 ≤ ((i : S8192x4096.Idx) 0).val
        ∧ ((i : S8192x4096.Idx) 0).val < win1_6.index t (0 : Fin 2) * 256 + 256
      rw [a60]; omega
    | ⟨1, _⟩ =>
      show win1_6.index t (1 : Fin 2) * 1024 ≤ ((i : S8192x4096.Idx) 1).val
        ∧ ((i : S8192x4096.Idx) 1).val < win1_6.index t (1 : Fin 2) * 1024 + 1024
      rw [a61]; omega

end Blocks

end Cert.KernelIdeal.Frame

end
-- ==== Proof.KVHost.lean ====
/-
  What the kernel program's two stretches of array operations outside its regions compute, read at an index, over the
  extended reals, from arbitrary contents `U` of the buffers.

  The first stretch writes the fixed per-channel table as a `[4096]` array and recasts it to one row `[1, 4096]`: entry
  `(0, k)` of the row is the float whose word is the table's `k`-th.

  The second stretch starts from two rows `s`, `q` (a column's sum and its sum of squares) and the arguments
  `γ β : [4096]`, the weight and the bias: with the number of rows `8192` and the offset `0.8` as the literals the program
  prints,

    μ k  = s k / 8192                        (the column's mean)
    v k  = q k / 8192 - μ k · μ k            (its variance, as the mean of squares minus the squared mean)
    sc k = γ k · (v k + 0.8)^(-1/2)          (the scale)
    sh k = β k - μ k · sc k                  (the shift)

  and it leaves `sc` and `sh` as rows, the weight converted to the narrower format (the identity on the extended reals),
  and the bias as a row.
-/
import proofs.«125394_j81389630259917_1_alg».proof.Proof.Gen.KernelIdeal.Launch
import proofs.«125394_j81389630259917_1_alg».proof.Proof.Spec
import proofs.«125394_j81389630259917_1_alg».proof.ReferenceIdeal
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost

noncomputable section

namespace Cert.KernelIdeal.HostValue

open Cert.KernelIdeal Cert.KernelIdeal.Gen Idealize.ShloMosaic Idealize.ShloMosaic.TcCoe Idealize.ShloMosaic.StableHlo
open Idealize.ShloMosaic.ValueIdx

/-! ## The stretches' terms -/

section Terms

variable {F : FTy → Type} [FloatOps F]

/-- The fixed per-channel table as an array. -/
def tableV : FVec F S4096 .f32 := fun i => FloatOps.ofBits .f32 (lit0 (S4096.rowMajor i))

/-- A per-channel vector as one row. -/
def rowOf (v : FVec F S4096 .f32) : FVec F S1x4096 .f32 := shapeCast S1x4096 v shapeCasts_S4096_S1x4096

/-- A literal as one row with every entry that literal. -/
def splatR (w : BitVec 32) : FVec F S1x4096 .f32 := broadcastInDim S1x4096 ![] bcast_S_S1x4096 (constant S_ .f32 w)

/-- The means: the sums divided by 8192. -/
def muT (s : FVec F S1x4096 .f32) : FVec F S1x4096 .f32 := Host.divf s (splatR 0x46000000#32)

/-- The variances: the sums of squares divided by 8192, minus the squared means. -/
def varT (s q : FVec F S1x4096 .f32) : FVec F S1x4096 .f32 :=
  subf (Host.divf q (splatR 0x46000000#32)) (mulf (muT s) (muT s))

/-- The scales: `γ` times the reciprocal square root of the variance plus the offset. -/
def scT (s q : FVec F S1x4096 .f32) (γ : FVec F S4096 .f32) : FVec F S1x4096 .f32 :=
  mulf (rowOf γ) (Host.rsqrt (addf (varT s q) (splatR 0x3F4CCCCD#32)))

/-- The shifts: `β` minus the mean times the scale. -/
def shT (s q : FVec F S1x4096 .f32) (γ β : FVec F S4096 .f32) : FVec F S1x4096 .f32 :=
  subf (rowOf β) (mulf (muT s) (scT s q γ))

variable (U : Valuation τ sig (Elt F))

/-- After the first stretch the row buffer holds the table as one row. -/
theorem v0_eq : after hostOps0 U (main_v0 : DevRef τ sig) = rowOf tableV := by
  after_results
  rfl

/-- After the second stretch the scale buffer holds the scales of the two rows and `γ` that were there before it. -/
theorem v13_eq :
    after hostOps1 U (main_v13 : DevRef τ sig)
      = scT (U (main_v1_0 : DevRef τ sig)) (U (main_v1_1 : DevRef τ sig)) (U (main_arg1 : DevRef τ sig)) := by
  after_results_simp
  rfl

/-- … the shift buffer the shifts. -/
theorem v15_eq :
    after hostOps1 U (main_v15 : DevRef τ sig)
      = shT (U (main_v1_0 : DevRef τ sig)) (U (main_v1_1 : DevRef τ sig)) (U (main_arg1 : DevRef τ sig))
          (U (main_arg2 : DevRef τ sig)) := by
  after_results_simp
  rfl

/-- … the converted-weight buffer the weight in the narrower format. -/
theorem v16_eq :
    after hostOps1 U (main_v16 : DevRef τ sig) = truncf .bf16 (U (main_arg3 : DevRef τ sig)) bitsLt_bf16_f32 := by
  after_results_simp

/-- … and the bias-row buffer the bias as one row. -/
theorem v17_eq : after hostOps1 U (main_v17 : DevRef τ sig) = rowOf (U (main_arg4 : DevRef τ sig)) := by
  after_results_simp
  rfl

end Terms

/-! ## The scalars, over the extended reals -/

/-- The mean of column `k` from the row of sums. -/
def mu (s : FVec Ideal S1x4096 .f32) (k : Fin 4096) : EReal := Ideal.div (s (ix2 (0 : Fin 1) k)) Cert.NormLinear.rowsF

/-- Its variance from the row of sums of squares. -/
def vr (s q : FVec Ideal S1x4096 .f32) (k : Fin 4096) : EReal :=
  Ideal.div (q (ix2 (0 : Fin 1) k)) Cert.NormLinear.rowsF - mu s k * mu s k

/-- Its scale. -/
def sc (s q : FVec Ideal S1x4096 .f32) (γ : FVec Ideal S4096 .f32) (k : Fin 4096) : EReal :=
  γ (ix1 k) * Ideal.rsqrt (vr s q k + Cert.NormLinear.epsF)

/-- Its shift. -/
def sh (s q : FVec Ideal S1x4096 .f32) (γ β : FVec Ideal S4096 .f32) (k : Fin 4096) : EReal :=
  β (ix1 k) - mu s k * sc s q γ k

/-! ## Each term read at an index -/

/-- A vector as one row, read at `(u, k)`, is the vector at `k`. -/
theorem rowOf_apply (v : FVec Ideal S4096 .f32) (u : Fin 1) (k : Fin 4096) : rowOf (F := Ideal) v (ix2 u k) = v (ix1 k) := by
  unfold rowOf
  exact shapeCast_a_1a_apply v _ u k

/-- A literal as one row reads the literal. -/
theorem splatR_apply (w : BitVec 32) (u : Fin 1) (k : Fin 4096) : splatR (F := Ideal) w (ix2 u k) = Ideal.ofBits .f32 w := by
  unfold splatR
  rw [broadcastInDim_scalar_apply]
  rfl

theorem muT_apply (s : FVec Ideal S1x4096 .f32) (k : Fin 4096) : muT (F := Ideal) s (ix2 (0 : Fin 1) k) = mu s k := by
  unfold muT mu
  rw [hostDivf_apply, splatR_apply]

theorem varT_apply (s q : FVec Ideal S1x4096 .f32) (k : Fin 4096) : varT (F := Ideal) s q (ix2 (0 : Fin 1) k) = vr s q k := by
  unfold varT vr
  rw [subf_apply, mulf_apply, hostDivf_apply, splatR_apply, muT_apply]

theorem scT_apply (s q : FVec Ideal S1x4096 .f32) (γ : FVec Ideal S4096 .f32) (k : Fin 4096) :
    scT (F := Ideal) s q γ (ix2 (0 : Fin 1) k) = sc s q γ k := by
  unfold scT sc
  rw [mulf_apply, rowOf_apply]
  show _ * Ideal.rsqrt (addf (varT (F := Ideal) s q) (splatR (F := Ideal) 0x3F4CCCCD#32) (ix2 (0 : Fin 1) k)) = _
  rw [addf_apply, varT_apply, splatR_apply]

theorem shT_apply (s q : FVec Ideal S1x4096 .f32) (γ β : FVec Ideal S4096 .f32) (k : Fin 4096) :
    shT (F := Ideal) s q γ β (ix2 (0 : Fin 1) k) = sh s q γ β k := by
  unfold shT sh
  rw [subf_apply, mulf_apply, rowOf_apply, muT_apply, scT_apply]

/-- The row-major position of the one-coordinate index `k` is `k`. -/
theorem rowMajor_ix1 (k : Fin 4096) : S4096.rowMajor (ix1 k) = k := Fin.ext (Shape.rowMajor_val_one (ix1 k))

/-- The kernel program and the reference program print the same table: the two are one function, by unfolding. -/
theorem lit0_eq_reference : lit0 = Cert.ReferenceIdeal.lit0 := rfl

/-! ## The stretches read at an index -/

variable (U : Valuation τ sig (Elt Ideal))

/-- (A) After the first stretch, entry `(0, k)` of the row buffer is the float whose word is the table's `k`-th. -/
theorem hostOps0_v0_apply (k : Fin 4096) :
    (after hostOps0 U (main_v0 : DevRef τ sig) : FVec Ideal S1x4096 .f32) (ix2 (0 : Fin 1) k) = Ideal.ofBits .f32 (lit0 k) := by
  rw [v0_eq, rowOf_apply]
  show Ideal.ofBits .f32 (lit0 (S4096.rowMajor (ix1 k))) = _
  rw [rowMajor_ix1]

/-- (B) After the second stretch, entry `(0, k)` of the scale buffer is the scale of column `k`. -/
theorem hostOps1_v13_apply (k : Fin 4096) :
    (after hostOps1 U (main_v13 : DevRef τ sig) : FVec Ideal S1x4096 .f32) (ix2 (0 : Fin 1) k)
      = sc (U (main_v1_0 : DevRef τ sig)) (U (main_v1_1 : DevRef τ sig)) (U (main_arg1 : DevRef τ sig)) k := by
  rw [v13_eq, scT_apply]

/-- … entry `(0, k)` of the shift buffer is its shift. -/
theorem hostOps1_v15_apply (k : Fin 4096) :
    (after hostOps1 U (main_v15 : DevRef τ sig) : FVec Ideal S1x4096 .f32) (ix2 (0 : Fin 1) k)
      = sh (U (main_v1_0 : DevRef τ sig)) (U (main_v1_1 : DevRef τ sig)) (U (main_arg1 : DevRef τ sig))
          (U (main_arg2 : DevRef τ sig)) k := by
  rw [v15_eq, shT_apply]

/-- … entry `(o, k)` of the converted weight is the weight's (the conversion is the identity on the extended reals). -/
theorem hostOps1_v16_apply (o k : Fin 4096) :
    (after hostOps1 U (main_v16 : DevRef τ sig) : FVec Ideal S4096x4096 .bf16) (ix2 o k)
      = (U (main_arg3 : DevRef τ sig) : FVec Ideal S4096x4096 .f32) (ix2 o k) := by
  rw [v16_eq]
  rfl

/-- … and entry `(0, o)` of the bias row is the bias at `o`. -/
theorem hostOps1_v17_apply (o : Fin 4096) :
    (after hostOps1 U (main_v17 : DevRef τ sig) : FVec Ideal S1x4096 .f32) (ix2 (0 : Fin 1) o)
      = (U (main_arg4 : DevRef τ sig) : FVec Ideal S4096 .f32) (ix1 o) := by
  rw [v17_eq, rowOf_apply]

end Cert.KernelIdeal.HostValue

end
-- ==== Proof.KVHostSpec.lean ====
/-
  The second stretch's four scalars are the specification's, once the two rows it starts from hold a column's sum and
  its sum of squares: the mean, the variance as the mean of squares minus the squared mean, the scale and the shift of
  the specification's second arrangement. And the table the kernel program prints is the table the reference prints,
  so the per-channel vector both add to the input is one and the same.
-/
import proofs.«125394_j81389630259917_1_alg».proof.Proof.KVHost
import proofs.«125394_j81389630259917_1_alg».proof.Proof.RefValue

noncomputable section

namespace Cert.KernelIdeal.HostSpec

open Cert.KernelIdeal Cert.KernelIdeal.HostValue Idealize.ShloMosaic Idealize.ShloMosaic.ValueIdx

variable (x : FVec Ideal Cert.NormLinear.SX .f32) (n γ β : FVec Ideal Cert.NormLinear.SC .f32)
  (s q : FVec Ideal S1x4096 .f32)

/-- The mean from a row holding the column sums is the specification's mean. -/
theorem mu_eq (hs : ∀ k : Fin 4096, s (ix2 (0 : Fin 1) k) = Cert.NormLinear.colSum x n k) (k : Fin 4096) :
    mu s k = Cert.NormLinear.mean x n k := by
  unfold mu Cert.NormLinear.mean
  rw [hs k]

/-- The variance from rows holding the column sums and sums of squares is the specification's second form. -/
theorem vr_eq (hs : ∀ k : Fin 4096, s (ix2 (0 : Fin 1) k) = Cert.NormLinear.colSum x n k)
    (hq : ∀ k : Fin 4096, q (ix2 (0 : Fin 1) k) = Cert.NormLinear.colSumSq x n k) (k : Fin 4096) :
    vr s q k = Cert.NormLinear.var' x n k := by
  unfold vr Cert.NormLinear.var'
  rw [hq k, mu_eq x n s hs k]

/-- The scale is the specification's. -/
theorem sc_eq (hs : ∀ k : Fin 4096, s (ix2 (0 : Fin 1) k) = Cert.NormLinear.colSum x n k)
    (hq : ∀ k : Fin 4096, q (ix2 (0 : Fin 1) k) = Cert.NormLinear.colSumSq x n k) (k : Fin 4096) :
    sc s q γ k = Cert.NormLinear.scale x n γ k := by
  unfold sc Cert.NormLinear.scale
  rw [vr_eq x n s q hs hq k]

/-- The shift is the specification's. -/
theorem sh_eq (hs : ∀ k : Fin 4096, s (ix2 (0 : Fin 1) k) = Cert.NormLinear.colSum x n k)
    (hq : ∀ k : Fin 4096, q (ix2 (0 : Fin 1) k) = Cert.NormLinear.colSumSq x n k) (k : Fin 4096) :
    sh s q γ β k = Cert.NormLinear.shift x n γ β k := by
  unfold sh Cert.NormLinear.shift
  rw [mu_eq x n s hs k, sc_eq x n γ s q hs hq k]

/-- The kernel program's table, read as floats, is the specification's fixed per-channel vector. -/
theorem noise_eq :
    (fun i => Ideal.ofBits .f32 (Cert.KernelIdeal.lit0 (Cert.KernelIdeal.S4096.rowMajor i)) :
        FVec Ideal Cert.KernelIdeal.S4096 .f32)
      = Cert.ReferenceIdeal.RefValue.noise := by
  rw [lit0_eq_reference]
  rfl

/-- The same for the first stretch's table array. -/
theorem tableV_eq_noise : tableV (F := Ideal) = Cert.ReferenceIdeal.RefValue.noise := noise_eq

end Cert.KernelIdeal.HostSpec

end
-- ==== Proof.Law.lean ====
/-
  The two arrangements of the normalised dense layer agree when every entry of the input, of the per-channel offset
  and of the two per-channel parameters is a real number.

  With real entries the clipped value a b c is a real, so a column's sum and its sum of squares are coerced real sums;
  the divisor is the real 8192, so both divisions are products with 1/8192. Writing S = sum_b a b c, Q = sum_b (a b c)^2,
  N = 8192 and mu = S/N,

    sum_b (a b c - mu)^2 = Q - 2 mu S + N mu^2 = Q - N mu^2,

  hence the mean squared deviation is Q/N - mu^2: the two variances are one real v, and v is not negative, being a mean
  of squares. The offset e added to it is a positive real, so v + e > 0 and its inverse square root is a real r. Then

    a (g r) + (b' - mu (g r)) = (a - mu) r g + b'

  is an identity of real numbers. Distributivity is what fails at an infinity, which is why every quantity is first
  shown to be a real.
-/
import proofs.«125394_j81389630259917_1_alg».proof.Proof.Spec

noncomputable section

open scoped BigOperators
open Idealize.ShloMosaic Idealize.ShloMosaic.ValueIdx

namespace Cert.NormLinear

/-! ## Coercions out of a finite sum and out of a maximum -/

/-- A finite sum of coerced reals is the coerced sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The coercion is monotone, so it commutes with the maximum. -/
theorem coe_max (a b : ℝ) : ((max a b : ℝ) : EReal) = max (a : EReal) (b : EReal) :=
  EReal.coe_strictMono.monotone.map_max

/-! ## The three literal words -/

/-- The word of +0.0 denotes zero. -/
theorem zeroF_eq : zeroF = ((0 : ℝ) : EReal) := by
  simp [Ideal.ofBits, Ideal.ieee]

/-- The word 0x46000000 has exponent field 140 and an empty fraction: 2^23 · 2^(140 - 127 - 23) = 8192. -/
theorem rowsF_eq : rowsF = ((8192 : ℝ) : EReal) := by
  simp [Ideal.ofBits, Ideal.ieee, -EReal.coe_mul]; norm_num

/-- The word 0x3F4CCCCD has exponent field 126 and fraction 5033165: (2^23 + 5033165) · 2^(-24). -/
theorem epsF_eq : epsF = ((13421773 / 16777216 : ℝ) : EReal) := by
  simp [Ideal.ofBits, Ideal.ieee, -EReal.coe_mul]; norm_num

/-! ## The variance identity over the reals -/

/-- The sum of squared deviations from any μ, expanded. -/
theorem sum_sq_dev {ι : Type*} (s : Finset ι) (a : ι → ℝ) (μ : ℝ) :
    ∑ i ∈ s, (a i - μ) * (a i - μ)
      = (∑ i ∈ s, a i * a i) - 2 * μ * (∑ i ∈ s, a i) + (s.card : ℝ) * (μ * μ) := by
  have h1 : ∀ i, (a i - μ) * (a i - μ) = a i * a i - 2 * μ * a i + μ * μ := fun i => by ring
  simp only [h1, Finset.sum_add_distrib, Finset.sum_sub_distrib, ← Finset.mul_sum, Finset.sum_const, nsmul_eq_mul]
  ring

/-- Over 8192 terms: the mean of squares minus the squared mean is the mean squared deviation from the mean. -/
theorem var_identity (a : Fin 8192 → ℝ) :
    (∑ b, a b * a b) * (1 / 8192) - (∑ b, a b) * (1 / 8192) * ((∑ b, a b) * (1 / 8192))
      = (∑ b, (a b - (∑ j, a j) * (1 / 8192)) * (a b - (∑ j, a j) * (1 / 8192))) * (1 / 8192) := by
  rw [sum_sq_dev, Finset.card_univ, Fintype.card_fin]
  push_cast
  ring

/-! ## The real witnesses -/

section Real

variable (xr : SX.Idx → ℝ) (nr : SC.Idx → ℝ)

/-- The offset input clipped below at zero, over the reals. -/
def actR (b : Fin 8192) (c : Fin 4096) : ℝ := max (xr (ix2 b c) + nr (ix1 c)) 0

/-- A column's mean over the reals. -/
def meanR (c : Fin 4096) : ℝ := (∑ b : Fin 8192, actR xr nr b c) * (1 / 8192)

/-- A column's biased variance over the reals, as the mean squared deviation. -/
def varR (c : Fin 4096) : ℝ :=
  (∑ b : Fin 8192, (actR xr nr b c - meanR xr nr c) * (actR xr nr b c - meanR xr nr c)) * (1 / 8192)

/-- A mean of squares is not negative. -/
theorem varR_nonneg (c : Fin 4096) : 0 ≤ varR xr nr c := by
  unfold varR
  exact mul_nonneg (Finset.sum_nonneg fun b _ => mul_self_nonneg _) (by norm_num)

variable {xr nr}
variable {x : FVec Ideal SX .f32} {n : FVec Ideal SC .f32}
variable (hx : ∀ i, x i = ((xr i : ℝ) : EReal)) (hn : ∀ i, n i = ((nr i : ℝ) : EReal))

include hx hn

theorem act_coe (b : Fin 8192) (c : Fin 4096) : act x n b c = ((actR xr nr b c : ℝ) : EReal) := by
  unfold act actR
  rw [hx, hn, zeroF_eq, coe_max, EReal.coe_add]

theorem colSum_coe (c : Fin 4096) : colSum x n c = ((∑ b : Fin 8192, actR xr nr b c : ℝ) : EReal) := by
  unfold colSum
  simp only [act_coe hx hn]
  exact coe_sum _ _

theorem colSumSq_coe (c : Fin 4096) :
    colSumSq x n c = ((∑ b : Fin 8192, actR xr nr b c * actR xr nr b c : ℝ) : EReal) := by
  unfold colSumSq
  simp only [act_coe hx hn, ← EReal.coe_mul]
  exact coe_sum _ _

theorem mean_coe (c : Fin 4096) : mean x n c = ((meanR xr nr c : ℝ) : EReal) := by
  unfold mean meanR
  rw [colSum_coe hx hn, rowsF_eq, Ideal.div_coe (by norm_num), ← EReal.coe_mul]

theorem var_coe (c : Fin 4096) : var x n c = ((varR xr nr c : ℝ) : EReal) := by
  unfold var varR
  simp only [act_coe hx hn, mean_coe hx hn, ← EReal.coe_sub, ← EReal.coe_mul]
  rw [coe_sum, rowsF_eq, Ideal.div_coe (by norm_num), ← EReal.coe_mul]

theorem var'_coe (c : Fin 4096) : var' x n c = ((varR xr nr c : ℝ) : EReal) := by
  unfold var'
  rw [colSumSq_coe hx hn, mean_coe hx hn, rowsF_eq, Ideal.div_coe (by norm_num), ← EReal.coe_mul, ← EReal.coe_mul,
    ← EReal.coe_sub]
  congr 1
  unfold varR meanR
  exact var_identity (fun b => actR xr nr b c)

/-- The two variances are one. -/
theorem var'_eq_var (c : Fin 4096) : var' x n c = var x n c := by
  rw [var'_coe hx hn, var_coe hx hn]

/-- The variance plus the offset is a positive real, so its inverse square root is a real. -/
theorem rsqrt_coe (c : Fin 4096) : ∃ r : ℝ, Ideal.rsqrt (var x n c + epsF) = ((r : ℝ) : EReal) := by
  have hpos : 0 < varR xr nr c + 13421773 / 16777216 := by
    have := varR_nonneg xr nr c
    positivity
  refine ⟨(Real.sqrt (varR xr nr c + 13421773 / 16777216))⁻¹, ?_⟩
  rw [var_coe hx hn, epsF_eq, ← EReal.coe_add, Ideal.rsqrt_coe, if_neg (not_lt.mpr hpos.le), if_neg hpos.ne']

omit hx hn

end Real

/-! ## The law -/

/-- The folded scale and shift give the same entry as the normalisation written out. -/
theorem normed'_eq {x : FVec Ideal SX .f32} {n γ β : FVec Ideal SC .f32}
    (hx : AllReal x) (hn : AllReal n) (hγ : AllReal γ) (hβ : AllReal β) (b : Fin 8192) (c : Fin 4096) :
    normed' x n γ β b c = normed x n γ β b c := by
  have hx' : ∀ i, ∃ r : ℝ, x i = ((r : ℝ) : EReal) := hx
  have hn' : ∀ i, ∃ r : ℝ, n i = ((r : ℝ) : EReal) := hn
  choose xr hxr using hx'
  choose nr hnr using hn'
  obtain ⟨g, hg⟩ := hγ (ix1 c)
  obtain ⟨b', hb'⟩ := hβ (ix1 c)
  obtain ⟨r, hr⟩ := rsqrt_coe hxr hnr c
  unfold normed' normed shift scale
  rw [var'_eq_var hxr hnr, hr, act_coe hxr hnr, mean_coe hxr hnr, hg, hb']
  simp only [← EReal.coe_mul, ← EReal.coe_sub, ← EReal.coe_add]
  congr 1
  ring

/-- THE LAW: the second arrangement is the first, entry by entry. The weight and the bias enter both sides alike and
    need no hypothesis. -/
theorem out'_eq_out (x : FVec Ideal SX .f32) (n γ β : FVec Ideal SC .f32) (W : FVec Ideal SW .f32)
    (bias : FVec Ideal SC .f32) (hx : AllReal x) (hn : AllReal n) (hγ : AllReal γ) (hβ : AllReal β) :
    out' x n γ β W bias = out x n γ β W bias := by
  have h : normed' x n γ β = normed x n γ β :=
    funext fun b => funext fun c => normed'_eq hx hn hγ hβ b c
  unfold out' out
  rw [h]

end Cert.NormLinear

end
-- ==== Proof.KValue.lean ====
/- The kernel program's result array, on the ideal values, as the specification's function of the arguments.

   The program is four segments: array operations that write the fixed per-channel noise as one row; the statistics
   region, which leaves each column's sum and sum of squares of the clipped, offset activations in two rows; array
   operations that fold those into one scale and one shift per column, convert the weights and lay the bias out as
   a row; and the dense-layer region. The result array is what the last region's write-backs leave, which is the dense
   layer of the six arrays that region is entered with (the region's value). Here each of those six arrays is read,
   entry by entry, through the segments before it: the activations are the argument (nothing writes it); the noise row
   is the specification's vector; the scale and shift rows are the specification's folded scale and shift, given
   the statistics region's two rows; the converted weights and the bias row are the arguments. So the result is the
   specification's second arrangement, which equals its first when every entry is a real number. -/
import proofs.«125394_j81389630259917_1_alg».proof.Proof.KRun
import proofs.«125394_j81389630259917_1_alg».proof.Proof.KV1
import proofs.«125394_j81389630259917_1_alg».proof.Proof.KVHostSpec
import proofs.«125394_j81389630259917_1_alg».proof.Proof.Law
import proofs.«125394_j81389630259917_1_alg».proof.Proof.Finite

set_option maxRecDepth 16384

noncomputable section

namespace Cert.KernelIdeal.Frame

open Cert.KernelIdeal Cert.KernelIdeal.Gen
open Idealize.ShloMosaic Idealize.ShloMosaic.TcCoe Idealize.ShloMosaic.ValueIdx Idealize.SL.Sem
open Idealize.ShloMosaic.Pipeline (Dat)
open Cert.ReferenceIdeal.RefValue (noise)
open scoped BigOperators

variable (m : (ℓ : Loc nD τ sig) → Buf (Elt Ideal) ℓ)

/-- A stretch of array operations leaves alone a buffer that none of its operations writes. -/
local macro "stretch_keeps" : tactic => `(tactic| (
  refine StableHlo.after_of_forall_not_mem _ _ (List.forall_iff_forall_mem.mp ?_)
  simp only [hostOps0, hostOps1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## What each segment leaves alone -/

/-- The first stretch writes no argument. -/
theorem W1_arg0 (c : Dev nD) : W1 m c (Proc.devRef .tc main_arg0) = (m ((c.tc : Thread nD τ).loc main_arg0)) := by
  show StableHlo.after hostOps0 (W0 m c) (Proc.devRef .tc main_arg0) = W0 m c (Proc.devRef .tc main_arg0)
  stretch_keeps

/-- The statistics region reads the activations and the noise row and writes neither: an input window's array ends
    as the region found it. -/
theorem W2_arg0 (c : Dev nD) : W2 m c (Proc.devRef .tc main_arg0) = (m ((c.tc : Thread nD τ).loc main_arg0)) :=
  ((W2_arr m c 0).trans (((dat0 (V1 m) c).arrAt_in 0 rfl _).trans (A_eq0 (V1 m) c 0))).trans (W1_arg0 m c)

theorem W2_v0 (c : Dev nD) : W2 m c (Proc.devRef .tc main_v0) = W1 m c (Proc.devRef .tc main_v0) :=
  (W2_arr m c 1).trans (((dat0 (V1 m) c).arrAt_in 1 rfl _).trans (A_eq0 (V1 m) c 1))

/-- Argument 1 is no window of the statistics region and no operation of the first stretch writes it. -/
theorem W2_arg1 (c : Dev nD) : W2 m c (Proc.devRef .tc main_arg1) = (m ((c.tc : Thread nD τ).loc main_arg1)) := by
  refine (W2_of_ne m c main_arg1 (by decide)).trans ?_
  show StableHlo.after hostOps0 (W0 m c) (Proc.devRef .tc main_arg1) = W0 m c (Proc.devRef .tc main_arg1)
  stretch_keeps

/-- Argument 2 is no window of the statistics region and no operation of the first stretch writes it. -/
theorem W2_arg2 (c : Dev nD) : W2 m c (Proc.devRef .tc main_arg2) = (m ((c.tc : Thread nD τ).loc main_arg2)) := by
  refine (W2_of_ne m c main_arg2 (by decide)).trans ?_
  show StableHlo.after hostOps0 (W0 m c) (Proc.devRef .tc main_arg2) = W0 m c (Proc.devRef .tc main_arg2)
  stretch_keeps

/-- Argument 3 is no window of the statistics region and no operation of the first stretch writes it. -/
theorem W2_arg3 (c : Dev nD) : W2 m c (Proc.devRef .tc main_arg3) = (m ((c.tc : Thread nD τ).loc main_arg3)) := by
  refine (W2_of_ne m c main_arg3 (by decide)).trans ?_
  show StableHlo.after hostOps0 (W0 m c) (Proc.devRef .tc main_arg3) = W0 m c (Proc.devRef .tc main_arg3)
  stretch_keeps

/-- Argument 4 is no window of the statistics region and no operation of the first stretch writes it. -/
theorem W2_arg4 (c : Dev nD) : W2 m c (Proc.devRef .tc main_arg4) = (m ((c.tc : Thread nD τ).loc main_arg4)) := by
  refine (W2_of_ne m c main_arg4 (by decide)).trans ?_
  show StableHlo.after hostOps0 (W0 m c) (Proc.devRef .tc main_arg4) = W0 m c (Proc.devRef .tc main_arg4)
  stretch_keeps

/-- The second stretch writes neither the activations nor the noise row. -/
theorem W3_arg0 (c : Dev nD) : W3 m c (Proc.devRef .tc main_arg0) = (m ((c.tc : Thread nD τ).loc main_arg0)) := by
  refine Eq.trans ?_ (W2_arg0 m c)
  show StableHlo.after hostOps1 (W2 m c) (Proc.devRef .tc main_arg0) = W2 m c (Proc.devRef .tc main_arg0)
  stretch_keeps

theorem W3_v0 (c : Dev nD) : W3 m c (Proc.devRef .tc main_v0) = W1 m c (Proc.devRef .tc main_v0) := by
  refine Eq.trans ?_ (W2_v0 m c)
  show StableHlo.after hostOps1 (W2 m c) (Proc.devRef .tc main_v0) = W2 m c (Proc.devRef .tc main_v0)
  stretch_keeps

/-! ## The dense-layer region's six inputs, entry by entry, in the specification's terms -/

/-- The activations it reads are the argument. -/
theorem dense_act_entry (c : Dev nD) : V3 m c main_arg0 = (m ((c.tc : Thread nD τ).loc main_arg0)) := W3_arg0 m c

/-- The noise row the first stretch writes is the specification's fixed per-channel vector, as one row. -/
theorem noise_row_entry (c : Dev nD) (k : Fin 4096) :
    (V1 m c main_v0 : FVec Ideal S1x4096 .f32) (ix2 (0 : Fin 1) k) = noise (ix1 k) := by
  refine (HostValue.hostOps0_v0_apply (W0 m c) k).trans ?_
  have h := congrFun HostSpec.noise_eq (ix1 k)
  rw [← h]
  show _ = Ideal.ofBits .f32 (lit0 (S4096.rowMajor (ix1 k)))
  rw [HostValue.rowMajor_ix1]

/-- Both regions find the same noise row. -/
theorem dense_noise_entry (c : Dev nD) (k : Fin 4096) :
    (V3 m c main_v0 : FVec Ideal S1x4096 .f32) (ix2 (0 : Fin 1) k) = noise (ix1 k) :=
  (congrFun (W3_v0 m c) (ix2 (0 : Fin 1) k)).trans (noise_row_entry m c k)

/-- The scale row the second stretch writes is the specification's folded scale, once the statistics region's two
    result rows hold the column sums and sums of squares. -/
theorem dense_scale_entry (c : Dev nD)
    (hs : ∀ k : Fin 4096, ((dat0 (V1 m) c).arrAt 2 cfg0.N : FVec Ideal S1x4096 .f32) (ix2 (0 : Fin 1) k)
        = Cert.NormLinear.colSum (m ((c.tc : Thread nD τ).loc main_arg0)) noise k)
    (hq : ∀ k : Fin 4096, ((dat0 (V1 m) c).arrAt 3 cfg0.N : FVec Ideal S1x4096 .f32) (ix2 (0 : Fin 1) k)
        = Cert.NormLinear.colSumSq (m ((c.tc : Thread nD τ).loc main_arg0)) noise k) (k : Fin 4096) :
    (V3 m c main_v13 : FVec Ideal S1x4096 .f32) (ix2 (0 : Fin 1) k) = Cert.NormLinear.scale (m ((c.tc : Thread nD τ).loc main_arg0)) noise (m ((c.tc : Thread nD τ).loc main_arg1)) k := by
  refine (HostValue.hostOps1_v13_apply (W2 m c) k).trans ?_
  rw [W2_arg1 m c]
  exact HostSpec.sc_eq (m ((c.tc : Thread nD τ).loc main_arg0)) noise (m ((c.tc : Thread nD τ).loc main_arg1)) _ _
    (fun k => (congrFun (W2_arr m c 2) _).trans (hs k)) (fun k => (congrFun (W2_arr m c 3) _).trans (hq k)) k

/-- The shift row likewise. -/
theorem dense_shift_entry (c : Dev nD)
    (hs : ∀ k : Fin 4096, ((dat0 (V1 m) c).arrAt 2 cfg0.N : FVec Ideal S1x4096 .f32) (ix2 (0 : Fin 1) k)
        = Cert.NormLinear.colSum (m ((c.tc : Thread nD τ).loc main_arg0)) noise k)
    (hq : ∀ k : Fin 4096, ((dat0 (V1 m) c).arrAt 3 cfg0.N : FVec Ideal S1x4096 .f32) (ix2 (0 : Fin 1) k)
        = Cert.NormLinear.colSumSq (m ((c.tc : Thread nD τ).loc main_arg0)) noise k) (k : Fin 4096) :
    (V3 m c main_v15 : FVec Ideal S1x4096 .f32) (ix2 (0 : Fin 1) k)
      = Cert.NormLinear.shift (m ((c.tc : Thread nD τ).loc main_arg0)) noise (m ((c.tc : Thread nD τ).loc main_arg1)) (m ((c.tc : Thread nD τ).loc main_arg2)) k := by
  refine (HostValue.hostOps1_v15_apply (W2 m c) k).trans ?_
  rw [W2_arg1 m c, W2_arg2 m c]
  exact HostSpec.sh_eq (m ((c.tc : Thread nD τ).loc main_arg0)) noise (m ((c.tc : Thread nD τ).loc main_arg1)) (m ((c.tc : Thread nD τ).loc main_arg2)) _ _
    (fun k => (congrFun (W2_arr m c 2) _).trans (hs k)) (fun k => (congrFun (W2_arr m c 3) _).trans (hq k)) k

/-- The converted weights are the weight argument (the change of format is the identity on the ideal values). -/
theorem dense_weight_entry (c : Dev nD) (o k : Fin 4096) :
    (V3 m c main_v16 : FVec Ideal S4096x4096 .bf16) (ix2 o k) = ((m ((c.tc : Thread nD τ).loc main_arg3)) : FVec Ideal S4096x4096 .f32) (ix2 o k) := by
  refine (HostValue.hostOps1_v16_apply (W2 m c) o k).trans ?_
  rw [W2_arg3 m c]

/-- The bias row is the bias argument as one row. -/
theorem dense_bias_entry (c : Dev nD) (o : Fin 4096) :
    (V3 m c main_v17 : FVec Ideal S1x4096 .f32) (ix2 (0 : Fin 1) o) = ((m ((c.tc : Thread nD τ).loc main_arg4)) : FVec Ideal S4096 .f32) (ix1 o) := by
  refine (HostValue.hostOps1_v17_apply (W2 m c) o).trans ?_
  rw [W2_arg4 m c]

/-! ## The statistics region's inputs in the specification's terms

What is needed to read that region's result rows as the specification's column sums: the activations it finds are
the argument, and the noise row it finds, read as a per-channel vector, is the specification's. -/

/-- The statistics region finds the activations as launched. -/
theorem stats_act_entry (c : Dev nD) : V1 m c main_arg0 = (m ((c.tc : Thread nD τ).loc main_arg0)) := W1_arg0 m c

/-- The noise row it finds, as a per-channel vector, is the specification's fixed vector. -/
theorem stats_noise_vector (c : Dev nD) :
    (fun i : S4096.Idx => (V1 m c main_v0 : FVec Ideal S1x4096 .f32) (ix2 (0 : Fin 1) (i 0))) = noise :=
  funext fun i => (noise_row_entry m c (i 0)).trans (congrArg noise (eq_ix1 i).symm)

/-! ## The kernel program's result -/

/-- The specification's fixed per-channel vector has only real entries: no word of the table has an all-ones
    exponent field. -/
theorem noise_real : Cert.NormLinear.AllReal (s := Cert.NormLinear.SC) noise := Cert.NormLinear.noise_allReal_ref

/-- THE RESULT ARRAY, given the statistics region's result: if the two rows the first region writes hold each
    column's sum and sum of squares of the clipped, offset activations, then the result array the second region writes
    is the specification's result. The second region computes the specification's second arrangement (the folded
    scale and shift), which is the first when every entry is a real number. -/
theorem kernel_value_of_sums (c : Dev nD)
    (hs : ∀ k : Fin 4096, ((dat0 (V1 m) c).arrAt 2 cfg0.N : FVec Ideal S1x4096 .f32) (ix2 (0 : Fin 1) k)
        = Cert.NormLinear.colSum (m ((c.tc : Thread nD τ).loc main_arg0)) noise k)
    (hq : ∀ k : Fin 4096, ((dat0 (V1 m) c).arrAt 3 cfg0.N : FVec Ideal S1x4096 .f32) (ix2 (0 : Fin 1) k)
        = Cert.NormLinear.colSumSq (m ((c.tc : Thread nD τ).loc main_arg0)) noise k)
    (hx : Cert.NormLinear.AllReal (s := Cert.NormLinear.SX) (m ((c.tc : Thread nD τ).loc main_arg0)))
    (hγ : Cert.NormLinear.AllReal (s := Cert.NormLinear.SC) (m ((c.tc : Thread nD τ).loc main_arg1)))
    (hβ : Cert.NormLinear.AllReal (s := Cert.NormLinear.SC) (m ((c.tc : Thread nD τ).loc main_arg2))) :
    W4 m c (Proc.devRef .tc main_v18)
      = Cert.NormLinear.out (m ((c.tc : Thread nD τ).loc main_arg0)) noise (m ((c.tc : Thread nD τ).loc main_arg1)) (m ((c.tc : Thread nD τ).loc main_arg2)) (m ((c.tc : Thread nD τ).loc main_arg3)) (m ((c.tc : Thread nD τ).loc main_arg4)) := by
  rw [← Cert.NormLinear.out'_eq_out _ _ _ _ _ _ hx noise_real hγ hβ]
  refine ((W4_arr m c 6).trans (final1 (V3 m) c)).trans ?_
  funext i
  unfold denseOut Cert.NormLinear.out' Cert.NormLinear.normed' Cert.NormLinear.act
  refine congrArg₂ (· + ·) (Finset.sum_congr rfl fun k _ => ?_) ?_
  · rw [dense_act_entry m c, dense_noise_entry m c k, dense_scale_entry m c hs hq k, dense_shift_entry m c hs hq k,
      dense_weight_entry m c (i 1) k]
  · exact dense_bias_entry m c (i 1)

end Cert.KernelIdeal.Frame

end
-- ==== Proof.KV0Pieces.lean ====
/-
  What each case of the statistics kernel's body leaves, as terms of the body's arithmetic. With `add_sums x n a` the
  running sums `a` plus the column sums of the clipped, offset block (`k0_pay4`) and `add_squares x n a` the same with the
  squares (`k0_pay5`): the first point leaves `add_sums x n 0` and `add_squares x n 0` (it clears the running vectors
  first); a later point leaves `add_sums x n (what the point before left)`, and likewise for the squares; the last point
  also copies both to the result blocks.
-/
import proofs.«125394_j81389630259917_1_alg».proof.Proof.K0Frame
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem sA0_eq (c : Dev nD) (t : Fin cfg0.N) (h0 : t.val = 0) (x0 : Vec F S512x4096 .f32) (x1 : Vec F S1x4096 .f32) :
    sA0 c t h0 x0 x1 = k0_pay4 x0 x1 (k0_pay1 (F := F)) := by
  unfold sA0
  rw [View.read_writes_eq_canon _ _ _ (coverA0 c t h0 x0 x1)]
  unfold runA kernelRun0_A
  dsimp only
  try sl_unfold_words
  rw [View.canon_cons_unit_zero hz2]
  simp only [View.readAt_eq_ld, Memref.IsWhole.read_unread, View.ld_unit_zero (S := S512x4096) hz2, View.ld_unit_zero (S := S1x4096) hz2,
    View.readCov_unit_zero (S := S1x4096) _ hz2]
  try (congr 1; exact Memref.IsWhole.read_unread (Memref.isWhole_whole _) _)

theorem sA1_eq (c : Dev nD) (t : Fin cfg0.N) (h0 : t.val = 0) (x0 : Vec F S512x4096 .f32) (x1 : Vec F S1x4096 .f32) :
    sA1 c t h0 x0 x1 = k0_pay5 x0 x1 (k0_pay2 (F := F)) := by
  unfold sA1
  rw [View.read_writes_eq_canon _ _ _ (coverA1 c t h0 x0 x1)]
  unfold runA kernelRun0_A
  dsimp only
  try sl_unfold_words
  rw [View.canon_cons_unit_zero hz2]
  simp only [View.readAt_eq_ld, Memref.IsWhole.read_unread, View.ld_unit_zero (S := S512x4096) hz2, View.ld_unit_zero (S := S1x4096) hz2,
    View.readCov_unit_zero (S := S1x4096) _ hz2]
  try (congr 1; exact Memref.IsWhole.read_unread (Memref.isWhole_whole _) _)

theorem sB0_eq (c : Dev nD) (t : Fin cfg0.N) (h0 : t.val ≠ 0) (h1 : t.val ≠ 15) (x0 : Vec F S512x4096 .f32) (x1 xs0 xs1 : Vec F S1x4096 .f32) :
    sB0 c t h0 h1 x0 x1 xs0 xs1 = k0_pay4 x0 x1 xs0 := by
  unfold sB0
  rw [View.read_writes_eq_canon _ _ _ (coverB0 c t h0 h1 x0 x1 xs0 xs1)]
  unfold runB kernelRun0_B
  dsimp only
  try sl_unfold_words
  rw [View.canon_cons_unit_zero hz2]
  simp only [View.readAt_eq_ld, Memref.IsWhole.read_unread, View.ld_unit_zero (S := S512x4096) hz2, View.ld_unit_zero (S := S1x4096) hz2,
    View.readCov_unit_zero (S := S1x4096) _ hz2]
  try (congr 1; exact Memref.IsWhole.read_unread (Memref.isWhole_whole _) _)

theorem sB1_eq (c : Dev nD) (t : Fin cfg0.N) (h0 : t.val ≠ 0) (h1 : t.val ≠ 15) (x0 : Vec F S512x4096 .f32) (x1 xs0 xs1 : Vec F S1x4096 .f32) :
    sB1 c t h0 h1 x0 x1 xs0 xs1 = k0_pay5 x0 x1 xs1 := by
  unfold sB1
  rw [View.read_writes_eq_canon _ _ _ (coverB1 c t h0 h1 x0 x1 xs0 xs1)]
  unfold runB kernelRun0_B
  dsimp only
  try sl_unfold_words
  rw [View.canon_cons_unit_zero hz2]
  simp only [View.readAt_eq_ld, Memref.IsWhole.read_unread, View.ld_unit_zero (S := S512x4096) hz2, View.ld_unit_zero (S := S1x4096) hz2,
    View.readCov_unit_zero (S := S1x4096) _ hz2]
  try (congr 1; exact Memref.IsWhole.read_unread (Memref.isWhole_whole _) _)

theorem sC0_eq (c : Dev nD) (t : Fin cfg0.N) (h1 : t.val = 15) (x0 : Vec F S512x4096 .f32) (x1 xs0 xs1 : Vec F S1x4096 .f32) :
    sC0 c t h1 x0 x1 xs0 xs1 = k0_pay4 x0 x1 xs0 := by
  unfold sC0
  rw [View.read_writes_eq_canon _ _ _ (coverCS0 c t h1 x0 x1 xs0 xs1)]
  unfold runC kernelRun0_C
  dsimp only
  try sl_unfold_words
  rw [View.canon_cons_unit_zero hz2]
  simp only [View.readAt_eq_ld, Memref.IsWhole.read_unread, View.ld_unit_zero (S := S512x4096) hz2, View.ld_unit_zero (S := S1x4096) hz2,
    View.readCov_unit_zero (S := S1x4096) _ hz2]
  try (congr 1; exact Memref.IsWhole.read_unread (Memref.isWhole_whole _) _)

theorem sC1_eq (c : Dev nD) (t : Fin cfg0.N) (h1 : t.val = 15) (x0 : Vec F S512x4096 .f32) (x1 xs0 xs1 : Vec F S1x4096 .f32) :
    sC1 c t h1 x0 x1 xs0 xs1 = k0_pay5 x0 x1 xs1 := by
  unfold sC1
  rw [View.read_writes_eq_canon _ _ _ (coverCS1 c t h1 x0 x1 xs0 xs1)]
  unfold runC kernelRun0_C
  dsimp only
  try sl_unfold_words
  rw [View.canon_cons_unit_zero hz2]
  simp only [View.readAt_eq_ld, Memref.IsWhole.read_unread, View.ld_unit_zero (S := S512x4096) hz2, View.ld_unit_zero (S := S1x4096) hz2,
    View.readCov_unit_zero (S := S1x4096) _ hz2]
  try (congr 1; exact Memref.IsWhole.read_unread (Memref.isWhole_whole _) _)

theorem oC2_eq (c : Dev nD) (t : Fin cfg0.N) (h1 : t.val = 15) (x0 : Vec F S512x4096 .f32) (x1 xs0 xs1 : Vec F S1x4096 .f32) :
    oC2 c t h1 x0 x1 xs0 xs1 = k0_pay4 x0 x1 xs0 := by
  unfold oC2
  rw [View.read_writes_eq_canon _ _ _ (coverC2 c t h1 x0 x1 xs0 xs1)]
  unfold runC kernelRun0_C
  dsimp only
  try sl_unfold_words
  rw [View.canon_cons_unit_zero hz2]
  simp only [View.readAt_eq_ld, Memref.IsWhole.read_unread, View.ld_unit_zero (S := S512x4096) hz2, View.ld_unit_zero (S := S1x4096) hz2,
    View.readCov_unit_zero (S := S1x4096) _ hz2]
  try (congr 1; exact Memref.IsWhole.read_unread (Memref.isWhole_whole _) _)

theorem oC3_eq (c : Dev nD) (t : Fin cfg0.N) (h1 : t.val = 15) (x0 : Vec F S512x4096 .f32) (x1 xs0 xs1 : Vec F S1x4096 .f32) :
    oC3 c t h1 x0 x1 xs0 xs1 = k0_pay5 x0 x1 xs1 := by
  unfold oC3
  rw [View.read_writes_eq_canon _ _ _ (coverC3 c t h1 x0 x1 xs0 xs1)]
  unfold runC kernelRun0_C
  dsimp only
  try sl_unfold_words
  rw [View.canon_cons_unit_zero hz2]
  simp only [View.readAt_eq_ld, Memref.IsWhole.read_unread, View.ld_unit_zero (S := S512x4096) hz2, View.ld_unit_zero (S := S1x4096) hz2,
    View.readCov_unit_zero (S := S1x4096) _ hz2]
  try (congr 1; exact Memref.IsWhole.read_unread (Memref.isWhole_whole _) _)

end Cert.KernelIdeal.Frame

end
-- ==== Proof.KV0Sum.lean ====
/-
  What the first kernel region (the column statistics) leaves in its two result arrays: for every column k, the sum
  over all 8192 rows b of the clipped, offset entry a b k = max (x b k + n k) 0, and the sum of its squares.

  The region visits the 16 blocks of 512 rows in order. At a point it forms the block's clipped, offset entries, sums
  each column over the block's 512 rows, and adds that to a running vector: cleared to zero first at point 0, carried
  from the point before afterwards. Row r of block t is row 512 t + r of the input, so block t's contribution to
  column k is the sum of a b k over 512 t ≤ b < 512 (t + 1). By induction on the point, after point n the running
  vector holds 0 + the sum of a b k over b < 512 (n + 1): one more block extends the range of rows by 512. After
  the last point, n = 15, that is the sum over all b < 8192. At that point, and only there, the running vectors are
  copied to the two result blocks and written back; the block written covers the whole [1, 4096] array, so the array
  ends holding those sums. The sums of squares go the same way with a b k · a b k in place of a b k.
-/
import proofs.«125394_j81389630259917_1_alg».proof.Proof.KV0Pieces
import proofs.«125394_j81389630259917_1_alg».proof.Proof.Spec
import proofs.«125394_j81389630259917_1_alg».proof.Proof.Law
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Idealize.ShloMosaic Idealize.ShloMosaic.TcCoe
open Idealize.ShloMosaic.Pipeline (Dat Cfg Window BodyObligation cellOf)
open Cert.KernelIdeal Cert.KernelIdeal.Gen
open Idealize.ShloMosaic.ValueIdx
open scoped BigOperators

/-! ## The payloads at an index -/

theorem pay1_apply (k : Fin 4096) : (k0_pay1 (F := Ideal)) (ix2 0 k) = NormLinear.zeroF := by
  unfold k0_pay1
  rw [shapeCast_self]
  rfl

theorem pay2_apply (k : Fin 4096) : (k0_pay2 (F := Ideal)) (ix2 0 k) = NormLinear.zeroF := by
  unfold k0_pay2
  rw [shapeCast_self]
  rfl

theorem pay3_apply (x : Vec Ideal S512x4096 .f32) (n : Vec Ideal S1x4096 .f32) (r : Fin 512) (k : Fin 4096) :
    k0_pay3 x n (ix2 r k) = max (x (ix2 r k) + n (ix2 0 k)) NormLinear.zeroF := by
  unfold k0_pay3
  rw [maximumf_apply, addf_apply, broadcast_apply, shapeCast_self,
    broadcastTo_apply n broadcasts_S1x4096_S512x4096 (ix2 r k) (ix2 0 k)
      (fun a => by match a with | ⟨0, _⟩ => rfl | ⟨1, _⟩ => rfl)]
  rfl

/-- The index over result column k with row r inserted on the summed axis is (r, k). -/
theorem lift_eq (k : Fin 4096) (r : Fin 512) :
    reduces_S512x4096_S4096.lift (fun a => (ix2 (0 : Fin 1) k) a.succ) r = ix2 r k := by
  funext c
  apply Fin.ext
  match c with
  | ⟨0, _⟩ => rfl
  | ⟨1, _⟩ => rfl

theorem pay4_apply (x : Vec Ideal S512x4096 .f32) (n a : Vec Ideal S1x4096 .f32) (k : Fin 4096) :
    k0_pay4 x n a (ix2 0 k) = a (ix2 0 k) + ∑ r : Fin 512, k0_pay3 x n (ix2 r k) := by
  unfold k0_pay4
  rw [shapeCast_self, addf_apply]
  congr 1
  refine (shapeCast_addUnit_apply ![4096] _ shapeCasts_S4096_S1x4096 (ix2 0 k)).trans ?_
  refine (Ideal.multiReduction_add_single (k0_pay3 x n) 0x00000000#32 reduces_S512x4096_S4096 (.inl rfl) rfl _).trans ?_
  exact Finset.sum_congr rfl fun r _ => congrArg (k0_pay3 x n) (lift_eq k r)

theorem pay5_apply (x : Vec Ideal S512x4096 .f32) (n a : Vec Ideal S1x4096 .f32) (k : Fin 4096) :
    k0_pay5 x n a (ix2 0 k) = a (ix2 0 k) + ∑ r : Fin 512, k0_pay3 x n (ix2 r k) * k0_pay3 x n (ix2 r k) := by
  unfold k0_pay5
  rw [shapeCast_self, addf_apply]
  congr 1
  refine (shapeCast_addUnit_apply ![4096] _ shapeCasts_S4096_S1x4096 (ix2 0 k)).trans ?_
  refine (Ideal.multiReduction_add_single (mulf (k0_pay3 x n) (k0_pay3 x n)) 0x00000000#32 reduces_S512x4096_S4096 (.inl rfl) rfl _).trans ?_
  exact Finset.sum_congr rfl fun r _ => by rw [lift_eq k r]; rfl

section Blocks

variable (V : (c : Dev nD) → (b : Ref sig .tc) → Buf (Elt Ideal) ((c : Thread nD τ).loc b))

/-- Where the two input windows sit at each point: the row-block window at block row t, the offset window fixed. -/
theorem idx0_0 : ∀ t : Fin grid0.N, win0_0.index t 0 = t.val ∧ win0_0.index t 1 = 0 := by decide +kernel
theorem idx0_1 : ∀ t : Fin grid0.N, win0_1.index t 0 = 0 ∧ win0_1.index t 1 = 0 := by decide +kernel

theorem iblk0_0_apply (c : Dev nD) (t : Fin cfg0.N) (r : Fin 512) (k : Fin 4096) (b : Fin 8192)
    (hb : b.val = 512 * t.val + r.val) :
    (iblk0 V c 0 t : Vec Ideal S512x4096 .f32) (ix2 r k)
      = (V c main_arg0 : S8192x4096.Idx → Elt Ideal .f32) (ix2 b k) := by
  unfold iblk0
  rw [View.read_apply]
  show V c main_arg0 _ = V c main_arg0 _
  congr 1
  funext a
  apply Fin.ext
  match a with
  | ⟨0, _⟩ => show win0_0.index t 0 * 512 + 1 * r.val = b.val; rw [(idx0_0 t).1, hb]; omega
  | ⟨1, _⟩ => show win0_0.index t 1 * 4096 + 1 * k.val = k.val; rw [(idx0_0 t).2]; omega

theorem iblk0_1_apply (c : Dev nD) (t : Fin cfg0.N) (k : Fin 4096) :
    (iblk0 V c 1 t : Vec Ideal S1x4096 .f32) (ix2 0 k)
      = (V c main_v0 : S1x4096.Idx → Elt Ideal .f32) (ix2 0 k) := by
  unfold iblk0
  rw [View.read_apply]
  show V c main_v0 _ = V c main_v0 _
  congr 1
  funext a
  apply Fin.ext
  match a with
  | ⟨0, _⟩ => show win0_1.index t 0 * 1 + 1 * 0 = 0; rw [(idx0_1 t).1]
  | ⟨1, _⟩ => show win0_1.index t 1 * 4096 + 1 * k.val = k.val; rw [(idx0_1 t).2]; omega

/-! ## The accumulation over the row blocks -/

/-- The input array the region reads, and the offset vector it reads as a [1, 4096] array, as the specification's
    input and per-channel offset. -/
def xArr (c : Dev nD) : FVec Ideal NormLinear.SX .f32 := V c main_arg0
def nArr (c : Dev nD) : FVec Ideal NormLinear.SC .f32 :=
  fun i => (V c main_v0 : S1x4096.Idx → Elt Ideal .f32) (ix2 0 (i 0))

/-- The clipped, offset entry of row b and column k of the whole input. -/
abbrev act0 (c : Dev nD) (b : Fin 8192) (k : Fin 4096) : EReal := NormLinear.act (xArr V c) (nArr V c) b k

/-- The same entry with the row a natural number: zero past the last row. -/
def Atot (c : Dev nD) (k : Fin 4096) (b : ℕ) : EReal := if h : b < 8192 then act0 V c ⟨b, h⟩ k else 0

theorem t_lt (t : Fin cfg0.N) : t.val < 16 := lt_of_lt_of_eq t.isLt (show cfg0.N = 16 from N_0)

/-- The entry of row r of block t is the entry of row 512 t + r of the input. -/
theorem pay3_blk (c : Dev nD) (t : Fin cfg0.N) (r : Fin 512) (k : Fin 4096) :
    k0_pay3 (iblk0 V c 0 t) (iblk0 V c 1 t) (ix2 r k) = Atot V c k (512 * t.val + r.val) := by
  have ht := t_lt t
  have hlt : 512 * t.val + r.val < 8192 := by have := r.isLt; omega
  rw [pay3_apply, iblk0_0_apply V c t r k ⟨512 * t.val + r.val, hlt⟩ rfl, iblk0_1_apply V c t k]
  unfold Atot
  rw [dif_pos hlt]
  rfl

/-- Block t's contribution to a column's sum, and to its sum of squares. -/
theorem blockSum (c : Dev nD) (t : Fin cfg0.N) (k : Fin 4096) :
    ∑ r : Fin 512, k0_pay3 (iblk0 V c 0 t) (iblk0 V c 1 t) (ix2 r k)
      = ∑ r ∈ Finset.range 512, Atot V c k (512 * t.val + r) := by
  rw [← Fin.sum_univ_eq_sum_range (fun r => Atot V c k (512 * t.val + r)) 512]
  exact Finset.sum_congr rfl fun r _ => pay3_blk V c t r k

theorem blockSumSq (c : Dev nD) (t : Fin cfg0.N) (k : Fin 4096) :
    ∑ r : Fin 512, k0_pay3 (iblk0 V c 0 t) (iblk0 V c 1 t) (ix2 r k) * k0_pay3 (iblk0 V c 0 t) (iblk0 V c 1 t) (ix2 r k)
      = ∑ r ∈ Finset.range 512, Atot V c k (512 * t.val + r) * Atot V c k (512 * t.val + r) := by
  rw [← Fin.sum_univ_eq_sum_range (fun r => Atot V c k (512 * t.val + r) * Atot V c k (512 * t.val + r)) 512]
  exact Finset.sum_congr rfl fun r _ => by rw [pay3_blk V c t r k]

/-! One point's step, in each of the three cases, for the running sums and for the running sums of squares. -/

theorem step_A (c : Dev nD) (t : Fin cfg0.N) (h0 : t.val = 0) (k : Fin 4096) :
    (outsAt0 V c t.val t.isLt).2.1 (ix2 0 k)
      = NormLinear.zeroF + ∑ r ∈ Finset.range 512, Atot V c k (512 * t.val + r) := by
  rw [outsAt0_A V c t h0]
  dsimp only
  rw [sA0_eq, pay4_apply, pay1_apply, blockSum]

theorem stepSq_A (c : Dev nD) (t : Fin cfg0.N) (h0 : t.val = 0) (k : Fin 4096) :
    (outsAt0 V c t.val t.isLt).2.2 (ix2 0 k)
      = NormLinear.zeroF + ∑ r ∈ Finset.range 512, Atot V c k (512 * t.val + r) * Atot V c k (512 * t.val + r) := by
  rw [outsAt0_A V c t h0]
  dsimp only
  rw [sA1_eq, pay5_apply, pay2_apply, blockSumSq]

theorem step_B (c : Dev nD) (t : Fin cfg0.N) (h0 : t.val ≠ 0) (h1 : t.val ≠ 15) (k : Fin 4096) :
    (outsAt0 V c t.val t.isLt).2.1 (ix2 0 k)
      = (outsAt0 V c (t.val - 1) (prevLt t)).2.1 (ix2 0 k) + ∑ r ∈ Finset.range 512, Atot V c k (512 * t.val + r) := by
  rw [outsAt0_B V c t h0 h1]
  dsimp only
  rw [sB0_eq, pay4_apply, blockSum]

theorem stepSq_B (c : Dev nD) (t : Fin cfg0.N) (h0 : t.val ≠ 0) (h1 : t.val ≠ 15) (k : Fin 4096) :
    (outsAt0 V c t.val t.isLt).2.2 (ix2 0 k)
      = (outsAt0 V c (t.val - 1) (prevLt t)).2.2 (ix2 0 k)
        + ∑ r ∈ Finset.range 512, Atot V c k (512 * t.val + r) * Atot V c k (512 * t.val + r) := by
  rw [outsAt0_B V c t h0 h1]
  dsimp only
  rw [sB1_eq, pay5_apply, blockSumSq]

theorem step_C (c : Dev nD) (t : Fin cfg0.N) (h1 : t.val = 15) (k : Fin 4096) :
    (outsAt0 V c t.val t.isLt).2.1 (ix2 0 k)
      = (outsAt0 V c (t.val - 1) (prevLt t)).2.1 (ix2 0 k) + ∑ r ∈ Finset.range 512, Atot V c k (512 * t.val + r) := by
  rw [outsAt0_C V c t h1]
  dsimp only
  rw [sC0_eq, pay4_apply, blockSum]

theorem stepSq_C (c : Dev nD) (t : Fin cfg0.N) (h1 : t.val = 15) (k : Fin 4096) :
    (outsAt0 V c t.val t.isLt).2.2 (ix2 0 k)
      = (outsAt0 V c (t.val - 1) (prevLt t)).2.2 (ix2 0 k)
        + ∑ r ∈ Finset.range 512, Atot V c k (512 * t.val + r) * Atot V c k (512 * t.val + r) := by
  rw [outsAt0_C V c t h1]
  dsimp only
  rw [sC1_eq, pay5_apply, blockSumSq]

/-- At the last point the two result blocks are copies of the running vectors. -/
theorem out_C (c : Dev nD) (t : Fin cfg0.N) (h1 : t.val = 15) (k : Fin 4096) :
    (outsAt0 V c t.val t.isLt).1.1 (ix2 0 k) = (outsAt0 V c t.val t.isLt).2.1 (ix2 0 k)
    ∧ (outsAt0 V c t.val t.isLt).1.2 (ix2 0 k) = (outsAt0 V c t.val t.isLt).2.2 (ix2 0 k) := by
  rw [outsAt0_C V c t h1]
  refine ⟨?_, ?_⟩
  · dsimp only
    rw [oC2_eq, sC0_eq]
  · dsimp only
    rw [oC3_eq, sC1_eq]

/-- Splitting off the rows of one more block. -/
theorem range_step (f : ℕ → EReal) (z : EReal) (n : ℕ) :
    z + ∑ b ∈ Finset.range (512 * (n + 1 + 1)), f b
      = (z + ∑ b ∈ Finset.range (512 * (n + 1)), f b) + ∑ r ∈ Finset.range 512, f (512 * (n + 1) + r) := by
  rw [show 512 * (n + 1 + 1) = 512 * (n + 1) + 512 from by ring, Finset.sum_range_add, add_assoc]

/-- After point n the running sums hold the column sums over the rows of blocks 0 … n. -/
theorem acc_sums (c : Dev nD) : ∀ (n : ℕ) (hn : n < cfg0.N) (k : Fin 4096),
    (outsAt0 V c n hn).2.1 (ix2 0 k) = NormLinear.zeroF + ∑ b ∈ Finset.range (512 * (n + 1)), Atot V c k b
  | 0, hn, k => by
    refine (step_A V c ⟨0, hn⟩ rfl k).trans ?_
    simp only [Nat.mul_zero, Nat.zero_add, Nat.mul_one]
  | n + 1, hn, k => by
    have ih := acc_sums c n (Nat.lt_of_succ_lt hn) k
    rw [range_step]
    by_cases h1 : n + 1 = 15
    · exact (step_C V c ⟨n + 1, hn⟩ h1 k).trans (congrArg (· + _) ih)
    · exact (step_B V c ⟨n + 1, hn⟩ (Nat.succ_ne_zero n) h1 k).trans (congrArg (· + _) ih)

/-- And the running sums of squares the column sums of squares over the same rows. -/
theorem acc_squares (c : Dev nD) : ∀ (n : ℕ) (hn : n < cfg0.N) (k : Fin 4096),
    (outsAt0 V c n hn).2.2 (ix2 0 k)
      = NormLinear.zeroF + ∑ b ∈ Finset.range (512 * (n + 1)), Atot V c k b * Atot V c k b
  | 0, hn, k => by
    refine (stepSq_A V c ⟨0, hn⟩ rfl k).trans ?_
    simp only [Nat.mul_zero, Nat.zero_add, Nat.mul_one]
  | n + 1, hn, k => by
    have ih := acc_squares c n (Nat.lt_of_succ_lt hn) k
    rw [range_step (fun b => Atot V c k b * Atot V c k b)]
    by_cases h1 : n + 1 = 15
    · exact (stepSq_C V c ⟨n + 1, hn⟩ h1 k).trans (congrArg (· + _) ih)
    · exact (stepSq_B V c ⟨n + 1, hn⟩ (Nat.succ_ne_zero n) h1 k).trans (congrArg (· + _) ih)

/-! ## The result blocks at the last point, and the two result arrays after the region -/

/-- A sum over the first 8192 natural numbers of any function of the entry extended to ℕ is the sum over the 8192
    rows of that function of the entry. -/
theorem sum_Atot (c : Dev nD) (k : Fin 4096) (g : EReal → EReal) :
    ∑ b ∈ Finset.range 8192, g (Atot V c k b) = ∑ b : Fin 8192, g (act0 V c b k) := by
  rw [← Fin.sum_univ_eq_sum_range (fun b => g (Atot V c k b)) 8192]
  exact Finset.sum_congr rfl fun b _ => by unfold Atot; rw [dif_pos b.isLt]

theorem out_sums (c : Dev nD) (t : Fin cfg0.N) (h1 : t.val = 15) (k : Fin 4096) :
    (outsAt0 V c t.val t.isLt).1.1 (ix2 0 k) = NormLinear.colSum (xArr V c) (nArr V c) k := by
  rw [(out_C V c t h1 k).1, acc_sums V c t.val t.isLt k, h1, NormLinear.zeroF_eq, EReal.coe_zero, zero_add]
  exact sum_Atot V c k (fun v => v)

theorem out_squares (c : Dev nD) (t : Fin cfg0.N) (h1 : t.val = 15) (k : Fin 4096) :
    (outsAt0 V c t.val t.isLt).1.2 (ix2 0 k) = NormLinear.colSumSq (xArr V c) (nArr V c) k := by
  rw [(out_C V c t h1 k).2, acc_squares V c t.val t.isLt k, h1, NormLinear.zeroF_eq, EReal.coe_zero, zero_add]
  exact sum_Atot V c k (fun v => v * v)

/-- The two arrays the region is to leave: each column's sum, and its sum of squares, over all 8192 rows. -/
def colSums (c : Dev nD) : Buf (Elt Ideal) ((c : Thread nD τ).loc main_v1_0) :=
  fun i => NormLinear.colSum (xArr V c) (nArr V c) ((i : S1x4096.Idx) 1)
def colSquares (c : Dev nD) : Buf (Elt Ideal) ((c : Thread nD τ).loc main_v1_1) :=
  fun i => NormLinear.colSumSq (xArr V c) (nArr V c) ((i : S1x4096.Idx) 1)

/-- An index of a one-row array has row 0. -/
theorem idx_row0 (i : S1x4096.Idx) : i = ix2 (0 : Fin 1) (i 1) := by
  have h := eq_ix2 i
  have h01 : (i 0).val < 1 := idx2_lt0 i
  have h0 : i 0 = (0 : Fin 1) := Fin.ext (show (i 0).val = 0 by omega)
  rw [h0] at h
  exact h

theorem last_sums (c : Dev nD) (t : Fin cfg0.N) (h1 : t.val = 15) : (outsAt0 V c t.val t.isLt).1.1 = colSums V c :=
  funext fun i => (congrArg _ (idx_row0 i)).trans (out_sums V c t h1 (i 1))
theorem last_squares (c : Dev nD) (t : Fin cfg0.N) (h1 : t.val = 15) : (outsAt0 V c t.val t.isLt).1.2 = colSquares V c :=
  funext fun i => (congrArg _ (idx_row0 i)).trans (out_squares V c t h1 (i 1))

/-- The last point. -/
abbrev t15 : Fin cfg0.N := ⟨15, by rw [show cfg0.N = 16 from N_0]; decide⟩

/-- The two result windows sit at block (0, 0) at every point. -/
theorem idx0_2 : ∀ t : Fin grid0.N, win0_2.index t 0 = 0 ∧ win0_2.index t 1 = 0 := by decide +kernel
theorem idx0_3 : ∀ t : Fin grid0.N, win0_3.index t 0 = 0 ∧ win0_3.index t 1 = 0 := by decide +kernel

/-- The one write-back of the sums, at the last point, writes `colSums`: block (0, 0) of a [1, 4096] array read through
    zero offsets is the array. -/
theorem flushed0_2 (c : Dev nD) (t : Fin cfg0.N) (hf : (cfg0.win 2).flush t = true) :
    (dat0 V c).flushed 2 t = ((cfg0.win 2).blk t).view.read (Elt Ideal) (colSums V c) := by
  have h15 : t.val = 15 := by have := (flush0_2 t).mp hf; have := t_lt t; omega
  show (cfg0.win 2).cut (grid0.coords t) ((dat0 V c).after 2 t) = _
  rw [after0_2, last_sums V c t h15]
  have hz' : (fun a => win0_2.index t a * main_v1_0.ty.shape.size a) = fun _ => 0 :=
    funext fun a => by
      match a with
      | ⟨0, _⟩ => show win0_2.index t 0 * _ = 0; rw [(idx0_2 t).1, Nat.zero_mul]
      | ⟨1, _⟩ => show win0_2.index t 1 * _ = 0; rw [(idx0_2 t).2, Nat.zero_mul]
  exact (Memref.read_access_unit_zero (Elt Ideal) main_v1_0 hz' (fun a => by rw [congrFun hz' a]; simp) (colSums V c)).symm

theorem flushed0_3 (c : Dev nD) (t : Fin cfg0.N) (hf : (cfg0.win 3).flush t = true) :
    (dat0 V c).flushed 3 t = ((cfg0.win 3).blk t).view.read (Elt Ideal) (colSquares V c) := by
  have h15 : t.val = 15 := by have := (flush0_3 t).mp hf; have := t_lt t; omega
  show (cfg0.win 3).cut (grid0.coords t) ((dat0 V c).after 3 t) = _
  rw [after0_3, last_squares V c t h15]
  have hz' : (fun a => win0_3.index t a * main_v1_1.ty.shape.size a) = fun _ => 0 :=
    funext fun a => by
      match a with
      | ⟨0, _⟩ => show win0_3.index t 0 * _ = 0; rw [(idx0_3 t).1, Nat.zero_mul]
      | ⟨1, _⟩ => show win0_3.index t 1 * _ = 0; rw [(idx0_3 t).2, Nat.zero_mul]
  exact (Memref.read_access_unit_zero (Elt Ideal) main_v1_1 hz' (fun a => by rw [congrFun hz' a]; simp) (colSquares V c)).symm

/-- After the region the first result array holds each column's sum over all 8192 rows: the last point's block
    covers the array. -/
theorem final0_2 (c : Dev nD) : (dat0 V c).arrAt 2 cfg0.N = colSums V c :=
  (dat0 V c).arrAt_eq_of_cover 2 (colSums V c) (flushed0_2 V c) fun i =>
    ⟨t15, (flush0_2 t15).mpr rfl, by
      show i ∈ ((View.whole main_v1_0).slice (win0_2.rect t15)).set
      rw [View.set_slice_whole, Rect.mem_set_unit]
      intro a
      have h0 : (i 0 : Nat) < 1 := (i 0).isLt
      have h1 : (i 1 : Nat) < 4096 := (i 1).isLt
      match a with
      | ⟨0, _⟩ =>
        show win0_2.index t15 0 * win0_2.size 0 ≤ (i 0 : Nat) ∧ (i 0 : Nat) < win0_2.index t15 0 * win0_2.size 0 + win0_2.xsize (grid0.coords t15) 0
        rw [show win0_2.index t15 0 * win0_2.size 0 = 0 from by decide +kernel, show win0_2.xsize (grid0.coords t15) 0 = 1 from by decide +kernel]; omega
      | ⟨1, _⟩ =>
        show win0_2.index t15 1 * win0_2.size 1 ≤ (i 1 : Nat) ∧ (i 1 : Nat) < win0_2.index t15 1 * win0_2.size 1 + win0_2.xsize (grid0.coords t15) 1
        rw [show win0_2.index t15 1 * win0_2.size 1 = 0 from by decide +kernel, show win0_2.xsize (grid0.coords t15) 1 = 4096 from by decide +kernel]; omega⟩

/-- And the second result array each column's sum of squares. -/
theorem final0_3 (c : Dev nD) : (dat0 V c).arrAt 3 cfg0.N = colSquares V c :=
  (dat0 V c).arrAt_eq_of_cover 3 (colSquares V c) (flushed0_3 V c) fun i =>
    ⟨t15, (flush0_3 t15).mpr rfl, by
      show i ∈ ((View.whole main_v1_1).slice (win0_3.rect t15)).set
      rw [View.set_slice_whole, Rect.mem_set_unit]
      intro a
      have h0 : (i 0 : Nat) < 1 := (i 0).isLt
      have h1 : (i 1 : Nat) < 4096 := (i 1).isLt
      match a with
      | ⟨0, _⟩ =>
        show win0_3.index t15 0 * win0_3.size 0 ≤ (i 0 : Nat) ∧ (i 0 : Nat) < win0_3.index t15 0 * win0_3.size 0 + win0_3.xsize (grid0.coords t15) 0
        rw [show win0_3.index t15 0 * win0_3.size 0 = 0 from by decide +kernel, show win0_3.xsize (grid0.coords t15) 0 = 1 from by decide +kernel]; omega
      | ⟨1, _⟩ =>
        show win0_3.index t15 1 * win0_3.size 1 ≤ (i 1 : Nat) ∧ (i 1 : Nat) < win0_3.index t15 1 * win0_3.size 1 + win0_3.xsize (grid0.coords t15) 1
        rw [show win0_3.index t15 1 * win0_3.size 1 = 0 from by decide +kernel, show win0_3.xsize (grid0.coords t15) 1 = 4096 from by decide +kernel]; omega⟩

/-- The form the host's next operations take: at row 0 and column k the two arrays hold the specification's column sum
    and column sum of squares of the input and the offset. -/
theorem final0_2_apply (c : Dev nD) (k : Fin 4096) :
    ((dat0 V c).arrAt 2 cfg0.N : S1x4096.Idx → Elt Ideal .f32) (ix2 0 k) = NormLinear.colSum (xArr V c) (nArr V c) k := by
  rw [final0_2]; rfl
theorem final0_3_apply (c : Dev nD) (k : Fin 4096) :
    ((dat0 V c).arrAt 3 cfg0.N : S1x4096.Idx → Elt Ideal .f32) (ix2 0 k) = NormLinear.colSumSq (xArr V c) (nArr V c) k := by
  rw [final0_3]; rfl

end Blocks

end Cert.KernelIdeal.Frame
end
-- ==== Proof.KValueEnd.lean ====
/-
  The kernel's result array, closed: the statistics region's two result arrays hold each column's sum and sum of squares
  of the clipped, offset input (the accumulation over the 16 row blocks), which are the two facts the composition of
  the host stretches and the dense region was stated under.
-/
import proofs.«125394_j81389630259917_1_alg».proof.Proof.KValue
import proofs.«125394_j81389630259917_1_alg».proof.Proof.KV0Sum

noncomputable section

namespace Cert.KernelIdeal.Frame

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- Every weakly fair run of the idealised kernel ends with its result array at the normalised dense layer of the
    arguments, when the input and the two per-channel vectors are real. -/
theorem kernel_value (c : Dev nD)
    (hx : Cert.NormLinear.AllReal (s := Cert.NormLinear.SX) (m ((c.tc : Thread nD τ).loc main_arg0)))
    (hγ : Cert.NormLinear.AllReal (s := Cert.NormLinear.SC) (m ((c.tc : Thread nD τ).loc main_arg1)))
    (hβ : Cert.NormLinear.AllReal (s := Cert.NormLinear.SC) (m ((c.tc : Thread nD τ).loc main_arg2))) :
    W4 m c (Proc.devRef .tc main_v18) = Cert.NormLinear.out (m ((c.tc : Thread nD τ).loc main_arg0)) Cert.ReferenceIdeal.RefValue.noise
      (m ((c.tc : Thread nD τ).loc main_arg1)) (m ((c.tc : Thread nD τ).loc main_arg2)) (m ((c.tc : Thread nD τ).loc main_arg3)) (m ((c.tc : Thread nD τ).loc main_arg4)) :=
  kernel_value_of_sums m c
    (fun k => (final0_2_apply (V1 m) c k).trans (by unfold xArr nArr; rw [stats_act_entry m c, stats_noise_vector m c]))
    (fun k => (final0_3_apply (V1 m) c k).trans (by unfold xArr nArr; rw [stats_act_entry m c, stats_noise_vector m c]))
    hx hγ hβ

end Cert.KernelIdeal.Frame

end
-- ==== Proof.lean ====
/-
  Two programs over an input `x : [8192, 4096]`, per-channel `γ β : [4096]`, a weight `W : [4096, 4096]` and a bias
  `[4096]`, with a fixed per-channel offset vector `n` (4096 literal words, the same table in both programs):

    a b c   = max (x b c + n c) 0
    out b o = (∑ c, y b c · W o c) + bias o,   y the column-normalised a (mean and biased variance over the 8192 rows,
                                                offset 0.8 under the inverse square root), scaled by γ and shifted by β.

  The reference computes it as written: the column means, the mean squared deviations, `(a - μ) · (v + 0.8)^(-1/2) · γ + β`,
  one matrix product. The kernel computes it in two grid regions with host arithmetic between them: the first walks the
  16 row blocks and accumulates each column's sum and sum of squares; the host turns them into one scale
  `γ · (mean of squares − μ² + 0.8)^(-1/2)` and one shift `β − μ · scale` per column; the second recomputes `a` block by
  block, applies scale and shift, and multiplies a 256-row block by a 1024-row block of `W` (the narrowing to bf16 is
  the identity on the extended reals), adding the bias.

  The two are one function where every input entry is a real number: the variance identity
  `(∑ a²)/N − μ² = (∑ (a − μ)²)/N` and the distribution of scale and shift over `a − μ` hold on the reals (Law.lean), not at
  the infinities — the precondition is used. The offset table's 4096 words are finite, decided once (Finite.lean).

  The parts: the frames of the two kernel programs from their runs over the four segments (KRun.lean and its word-level
  twin WKRun.lean; the statistics region's body by its three control cases, K0*.lean; the dense region's body,
  K1Body.lean); the reference's run and value (RefRun.lean, RefValue.lean); the kernel's value — the statistics region
  (KV0Pieces.lean, KV0Sum.lean), the host stretches (KVHost.lean, KVHostSpec.lean), the dense region (KV1.lean), their
  composition (KValue.lean, KValueEnd.lean).
-/
import proofs.«125394_j81389630259917_1_alg».proof.Defs
import proofs.«125394_j81389630259917_1_alg».proof.Proof.Gen.Kernel
import proofs.«125394_j81389630259917_1_alg».proof.Proof.Gen.KernelIdeal
import proofs.«125394_j81389630259917_1_alg».proof.Proof.Gen.ReferenceIdeal
import proofs.«125394_j81389630259917_1_alg».proof.Proof.Gen.Pre_finite_inputs
import proofs.«125394_j81389630259917_1_alg».proof.Proof.KRun
import proofs.«125394_j81389630259917_1_alg».proof.Proof.WKRun
import proofs.«125394_j81389630259917_1_alg».proof.Proof.RefValue
import proofs.«125394_j81389630259917_1_alg».proof.Proof.Finite
import proofs.«125394_j81389630259917_1_alg».proof.Proof.KValueEnd

noncomputable section

namespace Cert.Proof

open Idealize.ShloMosaic Idealize.ShloMosaic.TcCoe Idealize.SL.Sem

/-- The word-level kernel program runs to the end, faults nowhere, and leaves its arguments as launched. -/
theorem frame_kernel : Cert.frame_Kernel := fun m ρ _ => Cert.Kernel.Frame.frame (F := Bits) m ρ

/-- So does the kernel program read on the extended reals. -/
theorem frame_kernelIdeal : Cert.frame_KernelIdeal := fun m ρ _ => Cert.KernelIdeal.Frame.frame (F := Ideal) m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealisation rewrote nothing: the idealised kernel is the kernel's own text read on the extended reals. -/
theorem preserves : Cert.preserves_Kernel_KernelIdeal := trivial

/-- From memories agreeing on the five arguments, all finite, both programs end with the normalised dense layer of the
    arguments in their result arrays: the kernel by its run and value (with the variance identity and the folded scale and
    shift, which need the entries real), the reference by its run read index by index. -/
theorem algebraic : Cert.algebraic_KernelIdeal_ReferenceIdeal := by
  intro m ρ m' ρ' hpre hagree
  refine ⟨fun c => Cert.NormLinear.out (m ((c.tc : Thread Cert.KernelIdeal.nD Cert.KernelIdeal.τ).loc Cert.KernelIdeal.main_arg0)) Cert.ReferenceIdeal.RefValue.noise (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Frame.run (F := Ideal) m ρ)
    obtain ⟨hx, hγ, hβ, -, -⟩ := Cert.NormLinear.allReal_of_pre _ _ _ _ _ (hpre c)
    exact ⟨(h c _ (Cert.KernelIdeal.Frame.mem_uc Cert.KernelIdeal.main_v18 (by decide))).trans (Cert.KernelIdeal.Frame.kernel_value m c hx hγ hβ),
      (h c _ (Cert.KernelIdeal.Frame.mem_uc Cert.KernelIdeal.main_arg0 (by decide))).trans (Cert.KernelIdeal.Frame.W4_main_arg0 m c),
      (h c _ (Cert.KernelIdeal.Frame.mem_uc Cert.KernelIdeal.main_arg1 (by decide))).trans (Cert.KernelIdeal.Frame.W4_main_arg1 m c),
      (h c _ (Cert.KernelIdeal.Frame.mem_uc Cert.KernelIdeal.main_arg2 (by decide))).trans (Cert.KernelIdeal.Frame.W4_main_arg2 m c),
      (h c _ (Cert.KernelIdeal.Frame.mem_uc Cert.KernelIdeal.main_arg3 (by decide))).trans (Cert.KernelIdeal.Frame.W4_main_arg3 m c),
      (h c _ (Cert.KernelIdeal.Frame.mem_uc Cert.KernelIdeal.main_arg4 (by decide))).trans (Cert.KernelIdeal.Frame.W4_main_arg4 m c)⟩
  · refine (θ_run Cert.ReferenceIdeal.defs _ _).mono (fun r h c => ?_) (Cert.ReferenceIdeal.RefValue.run_out m' ρ')
    obtain ⟨h0, h1, h2, h3, h4⟩ := hagree c
    refine ⟨(h c).1.trans ?_, (h c).2⟩
    rw [h0, h1, h2, h3, h4]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
